-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x1 .f32) (main_arg11 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 126
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x128, .f32⟩
  | .hbm, ⟨98, _⟩ => ⟨S1700000x1, .f32⟩
  | .hbm, ⟨99, _⟩ => ⟨S1700000x128, .f32⟩
  | .hbm, ⟨100, _⟩ => ⟨S1700000x128, .f32⟩
  | .hbm, ⟨101, _⟩ => ⟨S_, .f32⟩
  | .hbm, ⟨102, _⟩ => ⟨S100000x128, .f32⟩
  | .hbm, ⟨103, _⟩ => ⟨S1700000x1, .i32⟩
  | .hbm, ⟨104, _⟩ => ⟨S100000x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S_, .f32⟩
  | .hbm, ⟨109, _⟩ => ⟨S1x128, .f32⟩
  | .hbm, ⟨110, _⟩ => ⟨S1x128, .f32⟩
  | .hbm, ⟨111, _⟩ => ⟨S_, .f32⟩
  | .hbm, ⟨112, _⟩ => ⟨S1x128, .f32⟩
  | .hbm, ⟨113, _⟩ => ⟨S1x128, .f32⟩
  | .hbm, ⟨114, _⟩ => ⟨S1x128, .f32⟩
  | .hbm, ⟨115, _⟩ => ⟨S1x128, .f32⟩
  | .hbm, ⟨116, _⟩ => ⟨S_, .f32⟩
  | .hbm, ⟨117, _⟩ => ⟨S1x128, .f32⟩
  | .hbm, ⟨118, _⟩ => ⟨S1x128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S1x128, .f32⟩
  | .hbm, ⟨123, _⟩ => ⟨S100000x128, .f32⟩
  | .hbm, ⟨124, _⟩ => ⟨S1x1, .f32⟩
  | .hbm, ⟨125, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x1, .f32⟩
  | .local _ .vmem, ⟨41, _⟩ => ⟨S1x1, .f32⟩
  | .local _ .vmem, ⟨42, _⟩ => ⟨S5000x1, .f32⟩
  | .local _ .vmem, ⟨43, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74_0 : Ref sig .tc := ⟨.hbm, 106, rfl⟩
abbrev main_v74_1 : Ref sig .tc := ⟨.hbm, 107, rfl⟩
abbrev main_cst_15 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v87) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v89) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 213
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x1, .f32⟩
  | 11 => ⟨S1, .f32⟩
  | 12 => ⟨S100000x128, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S100000, .i32⟩
  | 107 => ⟨S1x1600000, .i32⟩
  | 108 => ⟨S1600000, .i32⟩
  | 109 => ⟨S1700000, .i32⟩
  | 110 => ⟨S1x1600000, .i32⟩
  | 111 => ⟨S1600000, .i32⟩
  | 112 => ⟨S1700000, .i32⟩
  | 113 => ⟨S_, .f32⟩
  | 114 => ⟨S1700000, .f32⟩
  | 115 => ⟨S_, .f32⟩
  | 116 => ⟨S100000, .f32⟩
  | 117 => ⟨S1700000x1, .i32⟩
  | 118 => ⟨S100000, .f32⟩
  | 119 => ⟨S_, .f32⟩
  | 120 => ⟨S100000, .f32⟩
  | 121 => ⟨S100000, .i1⟩
  | 122 => ⟨S100000, .f32⟩
  | 123 => ⟨S_, .f32⟩
  | 124 => ⟨S_, .f32⟩
  | 125 => ⟨S100000, .f32⟩
  | 126 => ⟨S100000, .f32⟩
  | 127 => ⟨S_, .i32⟩
  | _ => ⟨S100000x128, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000, .f32⟩
  | 17 => ⟨S1700000, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000x128, .f32⟩
  | 27 => ⟨S1700000x1, .f32⟩
  | 28 => ⟨S1700000x128, .f32⟩
  | 29 => ⟨S1700000x128, .f32⟩
  | 30 => ⟨S_, .f32⟩
  | 31 => ⟨S100000x128, .f32⟩
  | 32 => ⟨S1700000x1, .i32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x1, .f32⟩
  | 71 => ⟨S1x1, .f32⟩
  | 72 => ⟨S100000x1, .f32⟩
  | 73 => ⟨S100000x1, .f32⟩
  | 74 => ⟨S_, .f32⟩
  | 75 => ⟨S100000x1, .f32⟩
  | 76 => ⟨S100000x1, .f32⟩
  | 77 => ⟨S100000x1, .f32⟩
  | 78 => ⟨S100000x1, .f32⟩
  | 79 => ⟨S_, .f32⟩
  | 80 => ⟨S100000x1, .f32⟩
  | 81 => ⟨S100000x1, .f32⟩
  | 82 => ⟨S_, .f32⟩
  | 83 => ⟨S100000x1, .f32⟩
  | 84 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_14 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_17 : Ref sig .tc := ⟨.hbm, 123, rfl⟩
abbrev main_call2_v0 : Ref sig .tc := ⟨.hbm, 124, rfl⟩
abbrev main_call2_v1 : Ref sig .tc := ⟨.hbm, 125, rfl⟩
abbrev main_v88 : Ref sig .tc := ⟨.hbm, 126, rfl⟩
abbrev main_c_18 : Ref sig .tc := ⟨.hbm, 127, rfl⟩
abbrev main_v89 : Ref sig .tc := ⟨.hbm, 128, rfl⟩
abbrev main_v90 : Ref sig .tc := ⟨.hbm, 129, rfl⟩
abbrev main_c_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_20 : Ref sig .tc := ⟨.hbm, 136, rfl⟩
abbrev main_v96 : Ref sig .tc := ⟨.hbm, 137, rfl⟩
abbrev main_v97 : Ref sig .tc := ⟨.hbm, 138, rfl⟩
abbrev main_c_21 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_c_23 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_24 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_25 : Ref sig .tc := ⟨.hbm, 165, rfl⟩
abbrev main_v120 : Ref sig .tc := ⟨.hbm, 166, rfl⟩
abbrev main_cst_26 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_27 : Ref sig .tc := ⟨.hbm, 174, rfl⟩
abbrev main_v127 : Ref sig .tc := ⟨.hbm, 175, rfl⟩
abbrev main_cst_28 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_29 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_call3_cst : Ref sig .tc := ⟨.hbm, 195, rfl⟩
abbrev main_call3_v0 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_call4_cst : Ref sig .tc := ⟨.hbm, 202, rfl⟩
abbrev main_call4_v0 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_30 : Ref sig .tc := ⟨.hbm, 207, rfl⟩
abbrev main_v153 : Ref sig .tc := ⟨.hbm, 208, rfl⟩
abbrev main_v154 : Ref sig .tc := ⟨.hbm, 209, rfl⟩
abbrev main_cst_31 : Ref sig .tc := ⟨.hbm, 210, rfl⟩
abbrev main_v155 : Ref sig .tc := ⟨.hbm, 211, rfl⟩
abbrev main_v156 : Ref sig .tc := ⟨.hbm, 212, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel's run, with its result array named.

  The program is seven kernel launches among stretches of host operations. The generated frame certificate
  folds the buffer contents through every segment (`Gen.W0` … `Gen.W15`) and then keeps, of the final
  contents, only that the twelve argument arrays end as launched. The value claim needs one more fact of the
  same final contents: the result array `main_v89` ends at `Gen.W15 … main_v89`, whatever that is. This
  module states the same run with that conjunct kept; reading `Gen.W15 … main_v89` as a function of the
  arguments is the business of the modules that import this one.
-/
import proofs.«143779_j10514079941365_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault, the result array
    holding the last boundary's contents at `main_v89` and the argument arrays unchanged. -/
theorem run_result : θ_run defs (onTc (τ := τ) (main (F := F))) ⟨m, fun _ => 0, ρ⟩ (fun r => ∀ c : Dev nD,
      r.2.mem ((c.tc : Thread nD τ).loc main_v89) = W15 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v89 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.RunV

end
-- ==== Proof.KGKeep.lean ====
/-
  A buffer that a stretch of host operations does not write keeps its contents across the stretch: one lemma per
  stretch of the idealized kernel's @main, over the explicit list of the buffers the stretch's operations write.
  (A kernel launch keeps every buffer that is not one of its arrays: that is the generated `Gen.WK_of_ne`.)
-/
import proofs.«143779_j10514079941365_1_alg».proof.Proof.Gen.KernelIdeal.Frame
import Idealize.ShloMosaic.Lib.StableHlo.Run

set_option maxRecDepth 16384

noncomputable section

namespace Cert.KernelIdeal.KG

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Closes "every operation of the stretch writes only buffers of the list": each operation writes its one result
    buffer, and that buffer is in the list. -/
macro "writes_in_list" ops:ident : tactic =>
  `(tactic| (simp only [$ops:ident, List.Forall, nullary_writes, unary_writes, binary_writes, ternary_writes, quaternary_writes,
      reshape_writes, Finset.singleton_subset_iff, List.mem_toFinset]
             repeat' apply And.intro
             all_goals exact List.mem_map_of_mem (by decide)))

/-- The buffers `hostOps0` writes. -/
def wr1 : List (Ref sig .tc) := [main_v0, main_v1, main_v2, main_v3, main_v4, main_v5, main_v6, main_cst, main_v7, main_cst_0, main_v8, main_v9, main_v10, main_cst_1, main_v11, main_v12, main_v13, main_cst_2]
theorem hW1 : (hostOps0 : List (HloOp τ sig (Elt F))).Forall fun op => op.writes ⊆ (wr1.map (Proc.devRef (τ := τ) .tc)).toFinset := by
  writes_in_list hostOps0
theorem keep1 (c : Dev nD) (b : Ref sig .tc) (hb : b ∉ wr1) :
    W1 m ρ c (Proc.devRef .tc b) = W0 m ρ c (Proc.devRef .tc b) :=
  after_of_writes_sub hostOps0 (W0 m ρ c) hW1 hb

/-- The buffers `hostOps0_1` writes. -/
def wr2 : List (Ref sig .tc) := [main_call0_v0, main_call0_v1, main_v14]
theorem hW2 : (hostOps0_1 : List (HloOp τ sig (Elt F))).Forall fun op => op.writes ⊆ (wr2.map (Proc.devRef (τ := τ) .tc)).toFinset := by
  writes_in_list hostOps0_1
theorem keep2 (c : Dev nD) (b : Ref sig .tc) (hb : b ∉ wr2) :
    W2 m ρ c (Proc.devRef .tc b) = W1 m ρ c (Proc.devRef .tc b) :=
  after_of_writes_sub hostOps0_1 (W1 m ρ c) hW2 hb

/-- The buffers `hostOps0_2` writes. -/
def wr3 : List (Ref sig .tc) := [main_c, main_v15, main_v16, main_c_3, main_v17, main_v18, main_v19, main_v20, main_v21, main_c_4, main_v22, main_v23, main_c_5, main_v24, main_v25, main_v26, main_v27, main_v28, main_v29]
theorem hW3 : (hostOps0_2 : List (HloOp τ sig (Elt F))).Forall fun op => op.writes ⊆ (wr3.map (Proc.devRef (τ := τ) .tc)).toFinset := by
  writes_in_list hostOps0_2
theorem keep3 (c : Dev nD) (b : Ref sig .tc) (hb : b ∉ wr3) :
    W3 m ρ c (Proc.devRef .tc b) = W2 m ρ c (Proc.devRef .tc b) :=
  after_of_writes_sub hostOps0_2 (W2 m ρ c) hW3 hb

/-- The buffers `hostOps1` writes. -/
def wr5 : List (Ref sig .tc) := [main_c_6, main_v31, main_v32, main_c_7, main_v33, main_v34, main_v35, main_v36, main_v37, main_v38, main_v39, main_v40, main_cst_8, main_v41, main_v42, main_v43, main_v44]
theorem hW5 : (hostOps1 : List (HloOp τ sig (Elt F))).Forall fun op => op.writes ⊆ (wr5.map (Proc.devRef (τ := τ) .tc)).toFinset := by
  writes_in_list hostOps1
theorem keep5 (c : Dev nD) (b : Ref sig .tc) (hb : b ∉ wr5) :
    W5 m ρ c (Proc.devRef .tc b) = W4 m ρ c (Proc.devRef .tc b) :=
  after_of_writes_sub hostOps1 (W4 m ρ c) hW5 hb

/-- The buffers `hostOps2` writes. -/
def wr7 : List (Ref sig .tc) := [main_cst_9, main_v46, main_v47, main_cst_10, main_v48, main_v49, main_v50, main_v51, main_cst_11, main_v52, main_v53, main_v54, main_v55, main_v56, main_v57]
theorem hW7 : (hostOps2 : List (HloOp τ sig (Elt F))).Forall fun op => op.writes ⊆ (wr7.map (Proc.devRef (τ := τ) .tc)).toFinset := by
  writes_in_list hostOps2
theorem keep7 (c : Dev nD) (b : Ref sig .tc) (hb : b ∉ wr7) :
    W7 m ρ c (Proc.devRef .tc b) = W6 m ρ c (Proc.devRef .tc b) :=
  after_of_writes_sub hostOps2 (W6 m ρ c) hW7 hb

/-- The buffers `hostOps4` writes. -/
def wr10 : List (Ref sig .tc) := [main_c_12, main_v60, main_v61, main_c_13, main_v62, main_v63, main_v64, main_v65, main_v66, main_v67, main_v68, main_v69, main_cst_14, main_v70, main_v71, main_v72, main_v73]
theorem hW10 : (hostOps4 : List (HloOp τ sig (Elt F))).Forall fun op => op.writes ⊆ (wr10.map (Proc.devRef (τ := τ) .tc)).toFinset := by
  writes_in_list hostOps4
theorem keep10 (c : Dev nD) (b : Ref sig .tc) (hb : b ∉ wr10) :
    W10 m ρ c (Proc.devRef .tc b) = W9 m ρ c (Proc.devRef .tc b) :=
  after_of_writes_sub hostOps4 (W9 m ρ c) hW10 hb

/-- The buffers `hostOps5` writes. -/
def wr12 : List (Ref sig .tc) := [main_cst_15, main_v75, main_v76, main_cst_16, main_v77, main_v78, main_v79, main_v80, main_cst_17, main_v81, main_v82, main_v83, main_v84, main_v85, main_v86]
theorem hW12 : (hostOps5 : List (HloOp τ sig (Elt F))).Forall fun op => op.writes ⊆ (wr12.map (Proc.devRef (τ := τ) .tc)).toFinset := by
  writes_in_list hostOps5
theorem keep12 (c : Dev nD) (b : Ref sig .tc) (hb : b ∉ wr12) :
    W12 m ρ c (Proc.devRef .tc b) = W11 m ρ c (Proc.devRef .tc b) :=
  after_of_writes_sub hostOps5 (W11 m ρ c) hW12 hb

/-- The buffers `hostOps6` writes. -/
def wr14 : List (Ref sig .tc) := [main_v88]
theorem hW14 : (hostOps6 : List (HloOp τ sig (Elt F))).Forall fun op => op.writes ⊆ (wr14.map (Proc.devRef (τ := τ) .tc)).toFinset := by
  writes_in_list hostOps6
theorem keep14 (c : Dev nD) (b : Ref sig .tc) (hb : b ∉ wr14) :
    W14 m ρ c (Proc.devRef .tc b) = W13 m ρ c (Proc.devRef .tc b) :=
  after_of_writes_sub hostOps6 (W13 m ρ c) hW14 hb

end Cert.KernelIdeal.KG

end
-- ==== Proof.KG.lean ====
/-
  The idealized kernel's host operations between its seven kernel launches, read as values.

  The generated frame certificate folds the buffer contents through @main's fifteen segments (`Gen.W0` … `Gen.W15`).
  This module reads, at the entry of each launch, every array the launch stages, as a function of the launch
  memory `m` and of the result arrays of the earlier launches: the aggregation `agg` (gather the rows at the
  edges' sources, scale by the edge weights, sum into the destinations) of the two matrix products; the column mean
  and the reciprocal standard deviation from the column sums and sums of squares; the bias, scale and shift vectors
  laid out as rows. The edge lists and edge weights are left as what the first three stretches compute
  (`Gen.W3` at `main_v3`, `main_v6`, `main_v29`): both layers read the same three arrays. Everything here holds at any
  float instance.
-/
import proofs.«143779_j10514079941365_1_alg».proof.Proof.KGKeep

set_option maxRecDepth 16384

noncomputable section

namespace Cert.KernelIdeal.KG

open Cert.KernelIdeal Cert.KernelIdeal.Gen Idealize.ShloMosaic Idealize.ShloMosaic.TcCoe Idealize.SL.Sem Idealize.ShloMosaic.StableHlo

variable {F : FTy → Type} [FloatOps F]

/-! ## The stretches' functions -/

/-- The gather index of a raw node index: a negative index wraps once by the number of nodes, and the result is laid
    out as a column of index vectors. -/
def gidx (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- One round of message passing: the rows of `h` gathered at the edges' sources, scaled by the edge weights, and
    summed into the edges' destinations. -/
def agg (src dst : IVec S1700000 32) (norm : FVec F S1700000 .f32) (h : FVec F S100000x128 .f32) :
    FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 h (gidx src))
      (broadcastInDim S1700000x128 ![0, 1] bcast_S1700000x1_S1700000x128_0_1
        (broadcastInDim S1700000x1 ![0] bcast_S1700000_S1700000x1_0 norm)))

/-- A vector of 128 features laid out as one row. -/
def rowOf (v : FVec F S128 .f32) : FVec F S1x128 .f32 := shapeCast S1x128 v shapeCasts_S128_S1x128

/-- The final bias laid out as a one-by-one array. -/
def cellOf (v : FVec F S1 .f32) : FVec F S1x1 .f32 := shapeCast S1x1 v shapeCasts_S1_S1x1

/-- The number of rows, 100000, as a row of 128 copies. -/
def rows : FVec F S1x128 .f32 := broadcastInDim S1x128 ![] bcast_S_S1x128 (constant S_ .f32 0x47C35000#32)

/-- The column means from the column sums. -/
def mean (s : FVec F S1x128 .f32) : FVec F S1x128 .f32 := Host.divf s rows

/-- The reciprocal standard deviations from the column sums and sums of squares: the variance is the mean of the
    squares minus the square of the mean. -/
def inv (s q : FVec F S1x128 .f32) : FVec F S1x128 .f32 :=
  Host.rsqrt (addf (subf (Host.divf q rows) (mulf (mean s) (mean s)))
    (broadcastInDim S1x128 ![] bcast_S_S1x128 (constant S_ .f32 0x3727C5AC#32)))

variable (m : (ℓ : Loc nD τ sig) → Buf (Elt F) ℓ) (ρ : Dev nD → PrngReg)

/-! ## Buffers nothing writes on the way: the arguments, and the edge arrays after the third boundary -/

section Kept
variable (c : Dev nD) (b : Ref sig .tc)

theorem at3 (h1 : b ∉ wr1) (h2 : b ∉ wr2) (h3 : b ∉ wr3) :
    W3 m ρ c (Proc.devRef .tc b) = m ((c : Thread nD τ).loc b) :=
  (keep3 m ρ c b h3).trans ((keep2 m ρ c b h2).trans (keep1 m ρ c b h1))
theorem at4 (h1 : b ∉ wr1) (h2 : b ∉ wr2) (h3 : b ∉ wr3) (a0 : ∀ w, Pipeline.arrRef spec0 w ≠ b) :
    W4 m ρ c (Proc.devRef .tc b) = m ((c : Thread nD τ).loc b) :=
  (W4_of_ne m ρ c b a0).trans (at3 m ρ c b h1 h2 h3)
theorem at6 (h1 : b ∉ wr1) (h2 : b ∉ wr2) (h3 : b ∉ wr3) (a0 : ∀ w, Pipeline.arrRef spec0 w ≠ b) (h5 : b ∉ wr5)
    (a1 : ∀ w, Pipeline.arrRef spec1 w ≠ b) : W6 m ρ c (Proc.devRef .tc b) = m ((c : Thread nD τ).loc b) :=
  (W6_of_ne m ρ c b a1).trans ((keep5 m ρ c b h5).trans (at4 m ρ c b h1 h2 h3 a0))
theorem at8 (h1 : b ∉ wr1) (h2 : b ∉ wr2) (h3 : b ∉ wr3) (a0 : ∀ w, Pipeline.arrRef spec0 w ≠ b) (h5 : b ∉ wr5)
    (a1 : ∀ w, Pipeline.arrRef spec1 w ≠ b) (h7 : b ∉ wr7) (a2 : ∀ w, Pipeline.arrRef spec2 w ≠ b) :
    W8 m ρ c (Proc.devRef .tc b) = m ((c : Thread nD τ).loc b) :=
  (W8_of_ne m ρ c b a2).trans ((keep7 m ρ c b h7).trans (at6 m ρ c b h1 h2 h3 a0 h5 a1))
theorem at9 (h1 : b ∉ wr1) (h2 : b ∉ wr2) (h3 : b ∉ wr3) (a0 : ∀ w, Pipeline.arrRef spec0 w ≠ b) (h5 : b ∉ wr5)
    (a1 : ∀ w, Pipeline.arrRef spec1 w ≠ b) (h7 : b ∉ wr7) (a2 : ∀ w, Pipeline.arrRef spec2 w ≠ b)
    (a3 : ∀ w, Pipeline.arrRef spec3 w ≠ b) : W9 m ρ c (Proc.devRef .tc b) = m ((c : Thread nD τ).loc b) :=
  (W9_of_ne m ρ c b a3).trans (at8 m ρ c b h1 h2 h3 a0 h5 a1 h7 a2)
theorem at11 (h1 : b ∉ wr1) (h2 : b ∉ wr2) (h3 : b ∉ wr3) (a0 : ∀ w, Pipeline.arrRef spec0 w ≠ b) (h5 : b ∉ wr5)
    (a1 : ∀ w, Pipeline.arrRef spec1 w ≠ b) (h7 : b ∉ wr7) (a2 : ∀ w, Pipeline.arrRef spec2 w ≠ b)
    (a3 : ∀ w, Pipeline.arrRef spec3 w ≠ b) (h10 : b ∉ wr10) (a4 : ∀ w, Pipeline.arrRef spec4 w ≠ b) :
    W11 m ρ c (Proc.devRef .tc b) = m ((c : Thread nD τ).loc b) :=
  (W11_of_ne m ρ c b a4).trans ((keep10 m ρ c b h10).trans (at9 m ρ c b h1 h2 h3 a0 h5 a1 h7 a2 a3))
theorem at13 (h1 : b ∉ wr1) (h2 : b ∉ wr2) (h3 : b ∉ wr3) (a0 : ∀ w, Pipeline.arrRef spec0 w ≠ b) (h5 : b ∉ wr5)
    (a1 : ∀ w, Pipeline.arrRef spec1 w ≠ b) (h7 : b ∉ wr7) (a2 : ∀ w, Pipeline.arrRef spec2 w ≠ b)
    (a3 : ∀ w, Pipeline.arrRef spec3 w ≠ b) (h10 : b ∉ wr10) (a4 : ∀ w, Pipeline.arrRef spec4 w ≠ b) (h12 : b ∉ wr12)
    (a5 : ∀ w, Pipeline.arrRef spec5 w ≠ b) : W13 m ρ c (Proc.devRef .tc b) = m ((c : Thread nD τ).loc b) :=
  (W13_of_ne m ρ c b a5).trans ((keep12 m ρ c b h12).trans (at11 m ρ c b h1 h2 h3 a0 h5 a1 h7 a2 a3 h10 a4))

/-- From the third boundary to the entry of the second aggregation: for the edge arrays. -/
theorem from3to4 (a0 : ∀ w, Pipeline.arrRef spec0 w ≠ b) :
    W4 m ρ c (Proc.devRef .tc b) = W3 m ρ c (Proc.devRef .tc b) := W4_of_ne m ρ c b a0
theorem from3to9 (a0 : ∀ w, Pipeline.arrRef spec0 w ≠ b) (h5 : b ∉ wr5) (a1 : ∀ w, Pipeline.arrRef spec1 w ≠ b) (h7 : b ∉ wr7)
    (a2 : ∀ w, Pipeline.arrRef spec2 w ≠ b) (a3 : ∀ w, Pipeline.arrRef spec3 w ≠ b) :
    W9 m ρ c (Proc.devRef .tc b) = W3 m ρ c (Proc.devRef .tc b) :=
  (W9_of_ne m ρ c b a3).trans ((W8_of_ne m ρ c b a2).trans ((keep7 m ρ c b h7).trans ((W6_of_ne m ρ c b a1).trans
    ((keep5 m ρ c b h5).trans (W4_of_ne m ρ c b a0)))))

end Kept

/-! ## The arrays each launch stages -/

/-- Evaluates ONE stretch at a buffer: a host operation's result at its own buffer is its function's value, at any
    other buffer what was there. -/
macro "stretch_at" W:ident : tactic =>
  `(tactic| (simp (disch := decide) only [$W:ident, after_cons, after_nil,
      nullary_result', unary_result', binary_result', ternary_result', quaternary_result', reshape_result',
      nullary_result_ne', unary_result_ne', binary_result_ne', ternary_result_ne', quaternary_result_ne', reshape_result_ne']))

/-- The first product's operands are the launch memory's. -/
theorem V3_arg0 (c : Dev nD) : V3 m ρ c main_arg0 = m ((c : Thread nD τ).loc main_arg0) := at3 m ρ c main_arg0 (by decide) (by decide) (by decide)
theorem V3_arg2 (c : Dev nD) : V3 m ρ c main_arg2 = m ((c : Thread nD τ).loc main_arg2) := at3 m ρ c main_arg2 (by decide) (by decide) (by decide)

/-- The first launch leaves its product in `main_v30`. -/
theorem W4_v30 (c : Dev nD) : W4 m ρ c (Proc.devRef .tc main_v30) = (dat0 (V3 m ρ) c).arrAt 2 cfg0.N := W4_arr m ρ c 2

set_option maxHeartbeats 4000000 in
/-- The stretch before the first statistics launch, at its own leaves. -/
theorem W5_v43 (c : Dev nD) :
    W5 m ρ c (Proc.devRef .tc main_v43)
      = agg (W4 m ρ c (Proc.devRef .tc main_v3)) (W4 m ρ c (Proc.devRef .tc main_v6)) (W4 m ρ c (Proc.devRef .tc main_v29))
          (W4 m ρ c (Proc.devRef .tc main_v30)) := by
  stretch_at W5
  rfl
/-- The first statistics launch reads the aggregated first product and the first bias as a row. -/
theorem V5_v43 (c : Dev nD) :
    V5 m ρ c main_v43
      = agg (W3 m ρ c (Proc.devRef .tc main_v3)) (W3 m ρ c (Proc.devRef .tc main_v6)) (W3 m ρ c (Proc.devRef .tc main_v29))
          ((dat0 (V3 m ρ) c).arrAt 2 cfg0.N) :=
  (W5_v43 m ρ c).trans (congr (congr (congr (congrArg (agg (F := F)) (from3to4 m ρ c main_v3 (by decide)))
    (from3to4 m ρ c main_v6 (by decide))) (from3to4 m ρ c main_v29 (by decide))) (W4_v30 m ρ c))
set_option maxHeartbeats 4000000 in
theorem V5_v44 (c : Dev nD) : V5 m ρ c main_v44 = rowOf (m ((c : Thread nD τ).loc main_arg3)) := by
  show W5 m ρ c (Proc.devRef .tc main_v44) = _
  stretch_at W5
  rw [at4 m ρ c main_arg3 (by decide) (by decide) (by decide) (by decide)]
  rfl

/-- The statistics launch leaves its two outputs and keeps its first input. -/
theorem W6_v45_0 (c : Dev nD) : W6 m ρ c (Proc.devRef .tc main_v45_0) = (dat1 (V5 m ρ) c).arrAt 2 cfg1.N := W6_arr m ρ c 2
theorem W6_v45_1 (c : Dev nD) : W6 m ρ c (Proc.devRef .tc main_v45_1) = (dat1 (V5 m ρ) c).arrAt 3 cfg1.N := W6_arr m ρ c 3
theorem W6_v43 (c : Dev nD) : W6 m ρ c (Proc.devRef .tc main_v43) = V5 m ρ c main_v43 :=
  (W6_arr m ρ c 0).trans (((dat1 (V5 m ρ) c).arrAt_in 0 rfl _).trans (A_eq1 (V5 m ρ) c 0))

/-- The first normalising launch reads the aggregated product again, the bias, the column means, the reciprocal
    standard deviations, the scale and the shift. -/
theorem V7_v43 (c : Dev nD) : V7 m ρ c main_v43 = V5 m ρ c main_v43 :=
  (keep7 m ρ c main_v43 (by decide)).trans (W6_v43 m ρ c)
set_option maxHeartbeats 4000000 in
theorem V7_v55 (c : Dev nD) : V7 m ρ c main_v55 = rowOf (m ((c : Thread nD τ).loc main_arg3)) := by
  show W7 m ρ c (Proc.devRef .tc main_v55) = _
  stretch_at W7
  rw [at6 m ρ c main_arg3 (by decide) (by decide) (by decide) (by decide) (by decide) (by decide)]
  rfl
set_option maxHeartbeats 4000000 in
theorem V7_v56 (c : Dev nD) : V7 m ρ c main_v56 = rowOf (m ((c : Thread nD τ).loc main_arg4)) := by
  show W7 m ρ c (Proc.devRef .tc main_v56) = _
  stretch_at W7
  rw [at6 m ρ c main_arg4 (by decide) (by decide) (by decide) (by decide) (by decide) (by decide)]
  rfl
set_option maxHeartbeats 4000000 in
theorem V7_v57 (c : Dev nD) : V7 m ρ c main_v57 = rowOf (m ((c : Thread nD τ).loc main_arg5)) := by
  show W7 m ρ c (Proc.devRef .tc main_v57) = _
  stretch_at W7
  rw [at6 m ρ c main_arg5 (by decide) (by decide) (by decide) (by decide) (by decide) (by decide)]
  rfl
set_option maxHeartbeats 4000000 in
theorem V7_v47 (c : Dev nD) : V7 m ρ c main_v47 = mean ((dat1 (V5 m ρ) c).arrAt 2 cfg1.N) := by
  show W7 m ρ c (Proc.devRef .tc main_v47) = _
  stretch_at W7
  rw [W6_v45_0]
  rfl
set_option maxHeartbeats 4000000 in
theorem V7_v54 (c : Dev nD) :
    V7 m ρ c main_v54 = inv ((dat1 (V5 m ρ) c).arrAt 2 cfg1.N) ((dat1 (V5 m ρ) c).arrAt 3 cfg1.N) := by
  show W7 m ρ c (Proc.devRef .tc main_v54) = _
  stretch_at W7
  simp only [W6_v45_0 m ρ c, W6_v45_1 m ρ c]
  rfl

/-- The second product's operands: the first layer's output and the second weight matrix. -/
theorem V8_v58 (c : Dev nD) : V8 m ρ c main_v58 = (dat2 (V7 m ρ) c).arrAt 6 cfg2.N := W8_arr m ρ c 6
theorem V8_arg6 (c : Dev nD) : V8 m ρ c main_arg6 = m ((c : Thread nD τ).loc main_arg6) :=
  at8 m ρ c main_arg6 (by decide) (by decide) (by decide) (by decide) (by decide) (by decide) (by decide) (by decide)

theorem W9_v59 (c : Dev nD) : W9 m ρ c (Proc.devRef .tc main_v59) = (dat3 (V8 m ρ) c).arrAt 2 cfg3.N := W9_arr m ρ c 2

set_option maxHeartbeats 4000000 in
/-- The stretch before the second statistics launch, at its own leaves. -/
theorem W10_v72 (c : Dev nD) :
    W10 m ρ c (Proc.devRef .tc main_v72)
      = agg (W9 m ρ c (Proc.devRef .tc main_v3)) (W9 m ρ c (Proc.devRef .tc main_v6)) (W9 m ρ c (Proc.devRef .tc main_v29))
          (W9 m ρ c (Proc.devRef .tc main_v59)) := by
  stretch_at W10
  rfl
/-- The second statistics launch reads the aggregated second product (over the same edge lists and weights) and the
    second bias as a row. -/
theorem V10_v72 (c : Dev nD) :
    V10 m ρ c main_v72
      = agg (W3 m ρ c (Proc.devRef .tc main_v3)) (W3 m ρ c (Proc.devRef .tc main_v6)) (W3 m ρ c (Proc.devRef .tc main_v29))
          ((dat3 (V8 m ρ) c).arrAt 2 cfg3.N) :=
  (W10_v72 m ρ c).trans (congr (congr (congr (congrArg (agg (F := F)) (from3to9 m ρ c main_v3 (by decide) (by decide) (by decide) (by decide) (by decide) (by decide)))
    (from3to9 m ρ c main_v6 (by decide) (by decide) (by decide) (by decide) (by decide) (by decide))) (from3to9 m ρ c main_v29 (by decide) (by decide) (by decide) (by decide) (by decide) (by decide)))
    (W9_v59 m ρ c))
set_option maxHeartbeats 4000000 in
theorem V10_v73 (c : Dev nD) : V10 m ρ c main_v73 = rowOf (m ((c : Thread nD τ).loc main_arg7)) := by
  show W10 m ρ c (Proc.devRef .tc main_v73) = _
  stretch_at W10
  rw [at9 m ρ c main_arg7 (by decide) (by decide) (by decide) (by decide) (by decide) (by decide) (by decide) (by decide) (by decide)]
  rfl

theorem W11_v74_0 (c : Dev nD) : W11 m ρ c (Proc.devRef .tc main_v74_0) = (dat4 (V10 m ρ) c).arrAt 2 cfg4.N := W11_arr m ρ c 2
theorem W11_v74_1 (c : Dev nD) : W11 m ρ c (Proc.devRef .tc main_v74_1) = (dat4 (V10 m ρ) c).arrAt 3 cfg4.N := W11_arr m ρ c 3
theorem W11_v72 (c : Dev nD) : W11 m ρ c (Proc.devRef .tc main_v72) = V10 m ρ c main_v72 :=
  (W11_arr m ρ c 0).trans (((dat4 (V10 m ρ) c).arrAt_in 0 rfl _).trans (A_eq4 (V10 m ρ) c 0))

/-- The second normalising launch's operands. -/
theorem V12_v72 (c : Dev nD) : V12 m ρ c main_v72 = V10 m ρ c main_v72 :=
  (keep12 m ρ c main_v72 (by decide)).trans (W11_v72 m ρ c)
set_option maxHeartbeats 4000000 in
theorem V12_v84 (c : Dev nD) : V12 m ρ c main_v84 = rowOf (m ((c : Thread nD τ).loc main_arg7)) := by
  show W12 m ρ c (Proc.devRef .tc main_v84) = _
  stretch_at W12
  rw [at11 m ρ c main_arg7 (by decide) (by decide) (by decide) (by decide) (by decide) (by decide) (by decide) (by decide) (by decide) (by decide) (by decide)]
  rfl
set_option maxHeartbeats 4000000 in
theorem V12_v85 (c : Dev nD) : V12 m ρ c main_v85 = rowOf (m ((c : Thread nD τ).loc main_arg8)) := by
  show W12 m ρ c (Proc.devRef .tc main_v85) = _
  stretch_at W12
  rw [at11 m ρ c main_arg8 (by decide) (by decide) (by decide) (by decide) (by decide) (by decide) (by decide) (by decide) (by decide) (by decide) (by decide)]
  rfl
set_option maxHeartbeats 4000000 in
theorem V12_v86 (c : Dev nD) : V12 m ρ c main_v86 = rowOf (m ((c : Thread nD τ).loc main_arg9)) := by
  show W12 m ρ c (Proc.devRef .tc main_v86) = _
  stretch_at W12
  rw [at11 m ρ c main_arg9 (by decide) (by decide) (by decide) (by decide) (by decide) (by decide) (by decide) (by decide) (by decide) (by decide) (by decide)]
  rfl
set_option maxHeartbeats 4000000 in
theorem V12_v76 (c : Dev nD) : V12 m ρ c main_v76 = mean ((dat4 (V10 m ρ) c).arrAt 2 cfg4.N) := by
  show W12 m ρ c (Proc.devRef .tc main_v76) = _
  stretch_at W12
  rw [W11_v74_0]
  rfl
set_option maxHeartbeats 4000000 in
theorem V12_v83 (c : Dev nD) :
    V12 m ρ c main_v83 = inv ((dat4 (V10 m ρ) c).arrAt 2 cfg4.N) ((dat4 (V10 m ρ) c).arrAt 3 cfg4.N) := by
  show W12 m ρ c (Proc.devRef .tc main_v83) = _
  stretch_at W12
  simp only [W11_v74_0 m ρ c, W11_v74_1 m ρ c]
  rfl

/-- The last launch's operands: the second layer's output, the last weight column, the last bias. -/
theorem W13_v87 (c : Dev nD) : W13 m ρ c (Proc.devRef .tc main_v87) = (dat5 (V12 m ρ) c).arrAt 6 cfg5.N := W13_arr m ρ c 6
theorem V14_v87 (c : Dev nD) : V14 m ρ c main_v87 = (dat5 (V12 m ρ) c).arrAt 6 cfg5.N :=
  (keep14 m ρ c main_v87 (by decide)).trans (W13_v87 m ρ c)
theorem V14_arg10 (c : Dev nD) : V14 m ρ c main_arg10 = m ((c : Thread nD τ).loc main_arg10) :=
  (keep14 m ρ c main_arg10 (by decide)).trans (at13 m ρ c main_arg10 (by decide) (by decide) (by decide) (by decide) (by decide) (by decide) (by decide) (by decide) (by decide) (by decide) (by decide) (by decide) (by decide))
set_option maxHeartbeats 4000000 in
theorem V14_v88 (c : Dev nD) : V14 m ρ c main_v88 = cellOf (m ((c : Thread nD τ).loc main_arg11)) := by
  show W14 m ρ c (Proc.devRef .tc main_v88) = _
  stretch_at W14
  rw [at13 m ρ c main_arg11 (by decide) (by decide) (by decide) (by decide) (by decide) (by decide) (by decide) (by decide) (by decide) (by decide) (by decide) (by decide) (by decide)]
  rfl

/-- The result array is what the last launch leaves. -/
theorem W15_v89 (c : Dev nD) : W15 m ρ c (Proc.devRef .tc main_v89) = (dat6 (V14 m ρ) c).arrAt 3 cfg6.N := W15_arr m ρ c 3

end Cert.KernelIdeal.KG

end
-- ==== Proof.Consts.lean ====
/-
  The float constants the two programs spell, as the extended reals their bit patterns denote: zero, one, the
  number of rows 100000 (the divisor of both means), and the batch-norm epsilon, the f32 nearest 1e-5, which is the
  dyadic rational 10995116 / 2^40 — a positive real, which is all the proof uses of it.
-/
import Idealize.ShloMosaic.PureOps.Ideal

noncomputable section

namespace Cert.GcnConsts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_rows : Ideal.ofBits .f32 0x47C35000#32 = ((100000 : ℝ) : EReal) := by
  simp [Ideal.ofBits, Ideal.ieee, -EReal.coe_mul]; norm_num

theorem ofBits_eps : Ideal.ofBits .f32 0x3727C5AC#32 = ((10995116 / 1099511627776 : ℝ) : EReal) := by
  simp [Ideal.ofBits, Ideal.ieee, -EReal.coe_mul]; norm_num

end Cert.GcnConsts

end
-- ==== Proof.Spec.lean ====
/-
  The mathematics that joins the two programs, stated over the extended reals with no program in sight.

  Both programs normalise each of the 128 feature columns of a 100000-row array by its mean and variance.
  One computes the variance as the mean of the squared deviations, the other as the mean of the squares minus
  the square of the mean. Over the real numbers these agree; over the extended reals they need not (an infinite
  entry makes one side `⊤ - ⊤`), so the identity is proved for columns whose entries are real numbers, and the
  closure lemmas below carry "every entry is a real number" through sums, products, gathers and scatters.
-/
import Idealize.ShloMosaic.PureOps.Ideal
import Idealize.ShloMosaic.PureOps.Ideal.Laws
import Idealize.ShloMosaic.Lib.ValueIdx

noncomputable section

namespace Cert.GcnSpec

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient by a nonzero real constant of a real number is a real number. -/
theorem IsReal.div_coe {x : EReal} (hx : IsReal x) {y : ℝ} (hy : y ≠ 0) : IsReal (Ideal.div x (y : EReal)) := by
  rw [Ideal.div_coe hy]; exact hx.mul (IsReal.coe _)

/-- The variance of real numbers: the mean of the squared deviations is the mean of the squares minus the square of
    the mean, when the divisor is the number of terms. -/
theorem real_variance {ι : Type*} [Fintype ι] (t : ι → ℝ) (N : ℝ) (hN : N ≠ 0) (hc : (Fintype.card ι : ℝ) = N) :
    (∑ i, (t i - (∑ i, t i) * (1 / N)) * (t i - (∑ i, t i) * (1 / N))) * (1 / N)
      = (∑ i, t i * t i) * (1 / N) - ((∑ i, t i) * (1 / N)) * ((∑ i, t i) * (1 / N)) := by
  have e : ∀ i, (t i - (∑ i, t i) * (1 / N)) * (t i - (∑ i, t i) * (1 / N))
      = t i * t i - 2 * ((∑ i, t i) * (1 / N)) * t i + ((∑ i, t i) * (1 / N)) * ((∑ i, t i) * (1 / N)) := fun i => by ring
  simp only [e, Finset.sum_add_distrib, Finset.sum_sub_distrib, ← Finset.mul_sum, Finset.sum_const, Finset.card_univ,
    nsmul_eq_mul, hc]
  field_simp
  ring

/-- The same over the extended reals, for a family of real numbers, with the host's quotient `Ideal.div`. -/
theorem variance_eq {ι : Type*} [Fintype ι] (T : ι → EReal) (hT : ∀ i, IsReal (T i)) (N : ℝ) (hN : N ≠ 0)
    (hc : (Fintype.card ι : ℝ) = N) :
    Ideal.div (∑ i, (T i - Ideal.div (∑ i, T i) (N : EReal)) * (T i - Ideal.div (∑ i, T i) (N : EReal))) (N : EReal)
      = Ideal.div (∑ i, T i * T i) (N : EReal)
        - Ideal.div (∑ i, T i) (N : EReal) * Ideal.div (∑ i, T i) (N : EReal) := by
  choose t ht using hT
  simp only [ht, Ideal.div_coe hN, ← coe_sum, ← EReal.coe_mul, ← EReal.coe_sub]
  exact congrArg _ (real_variance t N hN hc)

/-! ## The reciprocal square root and the degree normaliser -/

theorem rsqrt_isReal_of_pos {r : ℝ} (h : 0 < r) : IsReal (Ideal.rsqrt (r : EReal)) := by
  rw [Ideal.rsqrt_coe, if_neg (not_lt.mpr h.le), if_neg h.ne']; exact IsReal.coe _

/-- The degree normaliser — the reciprocal square root of the degree where the degree is positive, zero elsewhere —
    is a real number when the degree is one. -/
theorem dinv_isReal {x : EReal} (hx : IsReal x) :
    IsReal (Scalar.select (Ideal.cmp .ogt x 0) (Ideal.rsqrt x) 0) := by
  obtain ⟨r, rfl⟩ := hx
  unfold Scalar.select
  split
  · rename_i hc
    have h : (0 : ℝ) < r := by
      by_contra hn
      have hn' : ¬ ((0 : EReal) < (r : EReal)) := by exact_mod_cast hn
      simp [Ideal.cmp, hn'] at hc
    exact rsqrt_isReal_of_pos h
  · exact IsReal.zero

/-! ## Batch normalisation of one column, the two ways -/

section BatchNorm

variable {ι : Type*} [Fintype ι]

/-- One entry `x` of a column `T` normalised by the column's mean and by the mean of its squared deviations. -/
def bnDev (T : ι → EReal) (N eps g be x : EReal) : EReal :=
  max (((x - Ideal.div (∑ k, T k) N)
        * Ideal.rsqrt (Ideal.div (∑ k, (T k - Ideal.div (∑ k, T k) N) * (T k - Ideal.div (∑ k, T k) N)) N + eps)) * g + be) 0

/-- The same entry normalised by the mean and by the mean of the squares minus the square of the mean. -/
def bnSq (T : ι → EReal) (N eps g be x : EReal) : EReal :=
  max (((x - Ideal.div (∑ k, T k) N)
        * Ideal.rsqrt ((Ideal.div (∑ k, T k * T k) N - Ideal.div (∑ k, T k) N * Ideal.div (∑ k, T k) N) + eps)) * g + be) 0

/-- On a column of real numbers the two normalisations are one function. -/
theorem bnSq_eq_bnDev (T : ι → EReal) (hT : ∀ k, IsReal (T k)) (N : ℝ) (hN : N ≠ 0) (hc : (Fintype.card ι : ℝ) = N)
    (eps g be x : EReal) : bnSq T (N : EReal) eps g be x = bnDev T (N : EReal) eps g be x := by
  unfold bnSq bnDev; rw [variance_eq T hT N hN hc]

/-- The mean of the squared deviations of real numbers is a nonnegative real number. -/
theorem var_real_nonneg (T : ι → EReal) (hT : ∀ k, IsReal (T k)) (N : ℝ) (hN : 0 < N) :
    ∃ v : ℝ, 0 ≤ v ∧ Ideal.div (∑ k, (T k - Ideal.div (∑ k, T k) (N : EReal)) * (T k - Ideal.div (∑ k, T k) (N : EReal))) (N : EReal)
      = (v : EReal) := by
  choose t ht using hT
  refine ⟨(∑ k, (t k - (∑ k, t k) * (1 / N)) * (t k - (∑ k, t k) * (1 / N))) * (1 / N), ?_, ?_⟩
  · exact mul_nonneg (Finset.sum_nonneg fun _ _ => mul_self_nonneg _) (by positivity)
  · simp only [ht, Ideal.div_coe hN.ne', ← coe_sum, ← EReal.coe_mul, ← EReal.coe_sub]

/-- A normalised entry of a column of real numbers, with a positive epsilon and real scale and shift, is a real number. -/
theorem bnDev_isReal (T : ι → EReal) (hT : ∀ k, IsReal (T k)) (N : ℝ) (hN : 0 < N) (eps : ℝ) (heps : 0 < eps)
    {g be x : EReal} (hg : IsReal g) (hbe : IsReal be) (hx : IsReal x) :
    IsReal (bnDev T (N : EReal) (eps : EReal) g be x) := by
  obtain ⟨v, hv, hvar⟩ := var_real_nonneg T hT N hN
  unfold bnDev
  rw [hvar]
  have hmean : IsReal (Ideal.div (∑ k, T k) (N : EReal)) := (IsReal.sum _ _ fun k _ => hT k).div_coe hN.ne'
  have hr : IsReal (Ideal.rsqrt ((v : EReal) + (eps : EReal))) := by
    rw [← EReal.coe_add]; exact rsqrt_isReal_of_pos (add_pos_of_nonneg_of_pos hv heps)
  exact ((((hx.sub hmean).mul hr).mul hg).add hbe).max IsReal.zero

end BatchNorm

/-! ## Rows in blocks: a sum over 100000 rows is the sum over 20 blocks of 5000 rows -/

theorem sum_rows_blocks {M : Type*} [AddCommMonoid M] (f : Fin 100000 → M) :
    ∑ n : Fin 100000, f n
      = ∑ t : Fin 20, ∑ r : Fin 5000, f ⟨5000 * t.val + r.val, by have := t.isLt; have := r.isLt; omega⟩ := by
  rw [← Fintype.sum_prod_type' (f := fun (t : Fin 20) (r : Fin 5000) => f ⟨5000 * t.val + r.val, by have := t.isLt; have := r.isLt; omega⟩)]
  refine (Fintype.sum_equiv (finProdFinEquiv (m := 20) (n := 5000)) _ _ fun p => ?_).symm
  refine congrArg f (Fin.ext ?_)
  simp [finProdFinEquiv]; ring

end Cert.GcnSpec

end
-- ==== Proof.Layer.lean ====
/-
  One graph-convolution layer after the aggregation, as a function of whole arrays: add the bias row, normalise each of
  the 128 columns over the 100000 rows, scale, shift, clamp at zero — in the two forms the two programs use (the
  variance as the mean of the squares minus the square of the mean, or as the mean of the squared deviations) —, the
  matrix product that feeds it, and the head (a product with one column, a bias, a clamp, the logistic function).
-/
import proofs.«143779_j10514079941365_1_alg».proof.Proof.Spec
import Idealize.ShloMosaic.PureOps.Ideal
import Idealize.ShloMosaic.Lib.ValueIdx

noncomputable section

namespace Cert.GcnSpec

open Idealize.ShloMosaic Idealize.ShloMosaic.ValueIdx

/-- The number of rows and the batch-norm epsilon (the f32 nearest 1e-5), as extended reals. -/
abbrev nRows : EReal := ((100000 : ℝ) : EReal)
abbrev bnEps : EReal := ((10995116 / 1099511627776 : ℝ) : EReal)

/-- Rows times a 128-by-128 matrix. -/
def mm (a : (⟨2, ![100000, 128]⟩ : Shape).Idx → EReal) (w : (⟨2, ![128, 128]⟩ : Shape).Idx → EReal) :
    (⟨2, ![100000, 128]⟩ : Shape).Idx → EReal :=
  fun i => ∑ k : Fin 128, a (ix2 (i 0) k) * w (ix2 k (i 1))

/-- The layer with the variance as the mean of the squares minus the square of the mean. -/
def layerSq (A : (⟨2, ![100000, 128]⟩ : Shape).Idx → EReal) (b g be : (⟨1, ![128]⟩ : Shape).Idx → EReal) :
    (⟨2, ![100000, 128]⟩ : Shape).Idx → EReal :=
  fun i => bnSq (fun k : Fin 100000 => A (ix2 k (i 1)) + b (ix1 (i 1))) nRows bnEps (g (ix1 (i 1))) (be (ix1 (i 1)))
    (A (ix2 (i 0) (i 1)) + b (ix1 (i 1)))

/-- The layer with the variance as the mean of the squared deviations. -/
def layerDev (A : (⟨2, ![100000, 128]⟩ : Shape).Idx → EReal) (b g be : (⟨1, ![128]⟩ : Shape).Idx → EReal) :
    (⟨2, ![100000, 128]⟩ : Shape).Idx → EReal :=
  fun i => bnDev (fun k : Fin 100000 => A (ix2 k (i 1)) + b (ix1 (i 1))) nRows bnEps (g (ix1 (i 1))) (be (ix1 (i 1)))
    (A (ix2 (i 0) (i 1)) + b (ix1 (i 1)))

/-- The head: one output per row. -/
def head (a : (⟨2, ![100000, 128]⟩ : Shape).Idx → EReal) (w : (⟨2, ![128, 1]⟩ : Shape).Idx → EReal)
    (b : (⟨1, ![1]⟩ : Shape).Idx → EReal) : (⟨2, ![100000, 1]⟩ : Shape).Idx → EReal :=
  fun i => Ideal.logistic (max ((∑ k : Fin 128, a (ix2 (i 0) k) * w (ix2 k (0 : Fin 1))) + b (ix1 (0 : Fin 1))) 0)

end Cert.GcnSpec

end
-- ==== Proof.KPoint.lean ====
/-
  The idealized kernel's small host functions read at an index, at the exact instance: a vector laid out as a row
  holds the vector's entries; the column means are the column sums divided by 100000; the reciprocal standard deviation
  is the reciprocal square root of the mean of the squares minus the square of the mean, plus the epsilon.
-/
import proofs.«143779_j10514079941365_1_alg».proof.Proof.KG
import proofs.«143779_j10514079941365_1_alg».proof.Proof.Consts
import proofs.«143779_j10514079941365_1_alg».proof.Proof.Layer
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.KG

open Cert.KernelIdeal Idealize.ShloMosaic Idealize.ShloMosaic.ValueIdx Cert.GcnSpec

theorem rowOf_at (v : FVec Ideal S128 .f32) (j : Fin 128) : rowOf v (ix2 (0 : Fin 1) j) = v (ix1 j) := by
  unfold rowOf
  exact shapeCast_a_1a_apply v _ 0 j

theorem cellOf_at (v : FVec Ideal S1 .f32) : cellOf v (ix2 (0 : Fin 1) (0 : Fin 1)) = v (ix1 (0 : Fin 1)) := by
  unfold cellOf
  exact shapeCast_a_1a_apply v _ 0 0

theorem rows_at (i : S1x128.Idx) : rows (F := Ideal) i = nRows := by
  show Ideal.ofBits .f32 0x47C35000#32 = _
  exact Cert.GcnConsts.ofBits_rows

theorem mean_at (s : FVec Ideal S1x128 .f32) (i : S1x128.Idx) : mean s i = Ideal.div (s i) nRows := by
  show Ideal.div (s i) (rows (F := Ideal) i) = _
  rw [rows_at]

theorem inv_at (s q : FVec Ideal S1x128 .f32) (i : S1x128.Idx) :
    inv s q i = Ideal.rsqrt ((Ideal.div (q i) nRows - Ideal.div (s i) nRows * Ideal.div (s i) nRows) + bnEps) := by
  show Ideal.rsqrt ((Ideal.div (q i) (rows (F := Ideal) i) - mean s i * mean s i) + Ideal.ofBits .f32 0x3727C5AC#32) = _
  rw [rows_at, mean_at, Cert.GcnConsts.ofBits_eps]

end Cert.KernelIdeal.KG

end
-- ==== Proof.RegMatmul.lean ====
import proofs.«143779_j10514079941365_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegV.Matmul

open Cert.KernelIdeal Cert.KernelIdeal.Gen Idealize.ShloMosaic Idealize.ShloMosaic.TcCoe Idealize.SL.Sem Idealize.ShloMosaic.ValueIdx
open Idealize.ShloMosaic.Pipeline (Dat)

/-! ## The [5000,128] × [128,128] product into the zero accumulator, read at an index -/

local notation "D₁" => dot_S5000x128_S128x128_S5000x128_1_0_0_1_n_n

/-- Row coordinate of the left operand's index: the output's row. -/
theorem lhs_row (i : S5000x128.Idx) (q : (D₁).contr.Idx) : ((D₁).lhsIdx i q 0).val = (i 0).val := by
  unfold DotDims.lhsIdx
  rw [dif_neg (show ¬(0 : Fin S5000x128.rank) ∈ (D₁).lhsBatch by decide), dif_pos (show (0 : Fin S5000x128.rank) ∈ (D₁).lhsNonContracting by decide)]
  rfl

/-- Column coordinate of the left operand's index: the contraction position. -/
theorem lhs_col (i : S5000x128.Idx) (q : (D₁).contr.Idx) : ((D₁).lhsIdx i q 1).val = (q ⟨0, by decide⟩).val :=
  (D₁).lhsIdx_val_of_single rfl i q

/-- Row coordinate of the right operand's index: the contraction position. -/
theorem rhs_row (i : S5000x128.Idx) (q : (D₁).contr.Idx) : ((D₁).rhsIdx i q 0).val = (q ⟨0, by decide⟩).val :=
  (D₁).rhsIdx_val_of_single rfl i q

/-- Column coordinate of the right operand's index: the output's column. -/
theorem rhs_col (i : S5000x128.Idx) (q : (D₁).contr.Idx) : ((D₁).rhsIdx i q 1).val = (i 1).val := by
  unfold DotDims.rhsIdx
  rw [dif_neg (show ¬(1 : Fin S128x128.rank) ∈ (D₁).rhsBatch by decide), dif_pos (show (1 : Fin S128x128.rank) ∈ (D₁).rhsNonContracting by decide)]
  rfl

/-- The product into the zero accumulator at row `r`, column `j`: the sum over the contracted axis. -/
theorem mm_apply (a : FVec Ideal S5000x128 .bf16) (b : FVec Ideal S128x128 .bf16) (r : Fin 5000) (j : Fin 128) :
    matmul D₁ none a b (constant S5000x128 .f32 0x00000000#32) (ix2 r j) = ∑ k : Fin 128, a (ix2 r k) * b (ix2 k j) := by
  show FloatOps.matmul D₁ none a b (constant S5000x128 .f32 0x00000000#32) (ix2 r j) = _
  rw [Ideal.matmul_constant_zero_apply, ← Equiv.sum_comp (contrEquiv1 D₁ 128 rfl rfl).symm]
  refine Finset.sum_congr rfl fun k _ => ?_
  have hk := contrEquiv1_symm_val D₁ 128 rfl rfl k
  have el : (D₁).lhsIdx (ix2 r j) ((contrEquiv1 D₁ 128 rfl rfl).symm k) = ix2 r k := funext fun x => Fin.ext (by
    match x with
    | ⟨0, _⟩ => exact lhs_row _ _
    | ⟨1, _⟩ => exact (lhs_col _ _).trans hk)
  have er : (D₁).rhsIdx (ix2 r j) ((contrEquiv1 D₁ 128 rfl rfl).symm k) = ix2 k j := funext fun x => Fin.ext (by
    match x with
    | ⟨0, _⟩ => exact (rhs_row _ _).trans hk
    | ⟨1, _⟩ => exact rhs_col _ _)
  rw [el, er]

/-- Region 0's payload at row `r`, column `j`. -/
theorem pay0_apply (x0 : Vec Ideal S5000x128 .f32) (x1 : Vec Ideal S128x128 .f32) (r : Fin 5000) (j : Fin 128) :
    k0_pay1 (F := Ideal) x0 x1 (ix2 r j) = ∑ k : Fin 128, x0 (ix2 r k) * x1 (ix2 k j) := by
  unfold k0_pay1
  exact mm_apply _ _ r j

/-- Region 3's payload at row `r`, column `j` (its extra shape cast is onto the same shape). -/
theorem pay3_apply (x0 : Vec Ideal S5000x128 .f32) (x1 : Vec Ideal S128x128 .f32) (r : Fin 5000) (j : Fin 128) :
    k3_pay1 (F := Ideal) x0 x1 (ix2 r j) = ∑ k : Fin 128, x0 (ix2 r k) * x1 (ix2 k j) := by
  unfold k3_pay1
  rw [shapeCast_self]
  exact mm_apply _ _ r j

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The whole-array function: row `i 0` of the left array against column `i 1` of the right one. -/
abbrev G (a : S100000x128.Idx → EReal) (b : S128x128.Idx → EReal) : S100000x128.Idx → EReal :=
  fun i => ∑ k : Fin 128, a (ix2 (i 0) k) * b (ix2 k (i 1))

/-- A payload of blocks that are rows and columns of `a` and `b` is `G a b` there. -/
theorem pay0_blk (a : S100000x128.Idx → EReal) (b : S128x128.Idx → EReal)
    (x0 : Vec Ideal S5000x128 .f32) (x1 : Vec Ideal S128x128 .f32) (y : S5000x128.Idx) (i : S100000x128.Idx)
    (h0 : ∀ k : Fin 128, x0 (ix2 (y 0) k) = a (ix2 (i 0) k))
    (h1 : ∀ k : Fin 128, x1 (ix2 k (y 1)) = b (ix2 k (i 1))) :
    k0_pay1 (F := Ideal) x0 x1 y = G a b i := by
  obtain ⟨r, q, rfl⟩ : ∃ (r : Fin 5000) (q : Fin 128), y = ix2 r q := ⟨y 0, y 1, eq_ix2 y⟩
  rw [pay0_apply]
  exact Finset.sum_congr rfl fun k _ => by rw [h0 k, h1 k]

/-- The same for region 3's payload. -/
theorem pay3_blk (a : S100000x128.Idx → EReal) (b : S128x128.Idx → EReal)
    (x0 : Vec Ideal S5000x128 .f32) (x1 : Vec Ideal S128x128 .f32) (y : S5000x128.Idx) (i : S100000x128.Idx)
    (h0 : ∀ k : Fin 128, x0 (ix2 (y 0) k) = a (ix2 (i 0) k))
    (h1 : ∀ k : Fin 128, x1 (ix2 k (y 1)) = b (ix2 k (i 1))) :
    k3_pay1 (F := Ideal) x0 x1 y = G a b i := by
  obtain ⟨r, q, rfl⟩ : ∃ (r : Fin 5000) (q : Fin 128), y = ix2 r q := ⟨y 0, y 1, eq_ix2 y⟩
  rw [pay3_apply]
  exact Finset.sum_congr rfl fun k _ => by rw [h0 k, h1 k]

/-! ### Region 0 -/

/-- The printed index maps over the grid: the row operand's block and the output's block are block `t`
    of the rows, the other coordinates 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G` of the two arrays as the region finds them. -/
theorem flushed0_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext y
  refine pay0_blk (V c main_arg0) (V c main_arg2) (iblk0 V c 0 t) (iblk0 V c 1 t) y (((cfg0.win 2).blk t).view.emb y) ?_ ?_
  · intro k
    show V c main_arg0 (((cfg0.win 0).blk t).view.emb (ix2 (y 0) k)) = V c main_arg0 (ix2 ((((cfg0.win 2).blk t).view.emb y) 0) k)
    refine congrArg (V c main_arg0) (funext fun x => Fin.ext ?_)
    match x with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · intro k
    show V c main_arg2 (((cfg0.win 1).blk t).view.emb (ix2 k (y 1))) = V c main_arg2 (ix2 k ((((cfg0.win 2).blk t).view.emb y) 1))
    refine congrArg (V c main_arg2) (funext fun x => Fin.ext ?_)
    match x with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in the block of the point its row selects. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  refine ⟨⟨(i 0).val / 5000, by rw [hN]; omega⟩, flush0_2 _, ?_⟩
  rw [mem_blk0]
  obtain ⟨e0, e1, e2, e3, e4, e5⟩ := idx_facts0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The output array of region 0 after the run, as one function of the two arrays the region finds. -/
theorem final0_fun (c : Dev nD) : (dat0 V c).arrAt 2 cfg0.N = G (V c main_arg0) (V c main_arg2) :=
  (dat0 V c).arrAt_eq_of_cover 2 (G (V c main_arg0) (V c main_arg2)) (fun t _ => flushed0_eq V c t) (cover0)

/-- The output array of region 0 after the run, index by index. -/
theorem final0 (c : Dev nD) (n : Fin 100000) (j : Fin 128) :
    (dat0 V c).arrAt 2 cfg0.N (ix2 n j)
      = ∑ k : Fin 128, @HMul.hMul EReal EReal EReal _ (V c main_arg0 (ix2 n k)) (V c main_arg2 (ix2 k j)) := by
  rw [final0_fun V c]

/-! ### Region 3 -/

/-- The printed index maps over the grid: the row operand's block and the output's block are block `t`
    of the rows, the other coordinates 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `G` of the two arrays as the region finds them. -/
theorem flushed3_eq (c : Dev nD) (t : Fin cfg3.N) :
    (dat3 V c).flushed 2 t = ((cfg3.win 2).blk t).view.read (Elt Ideal) (G (V c main_v58) (V c main_arg6)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx_facts3 t
  funext y
  refine pay3_blk (V c main_v58) (V c main_arg6) (iblk3 V c 0 t) (iblk3 V c 1 t) y (((cfg3.win 2).blk t).view.emb y) ?_ ?_
  · intro k
    show V c main_v58 (((cfg3.win 0).blk t).view.emb (ix2 (y 0) k)) = V c main_v58 (ix2 ((((cfg3.win 2).blk t).view.emb y) 0) k)
    refine congrArg (V c main_v58) (funext fun x => Fin.ext ?_)
    match x with
    | ⟨0, _⟩ => show win3_0.index t (0 : Fin 2) * 5000 + 1 * (y 0).val = win3_2.index t (0 : Fin 2) * 5000 + 1 * (y 0).val; omega
    | ⟨1, _⟩ => show win3_0.index t (1 : Fin 2) * 128 + 1 * k.val = k.val; omega
  · intro k
    show V c main_arg6 (((cfg3.win 1).blk t).view.emb (ix2 k (y 1))) = V c main_arg6 (ix2 k ((((cfg3.win 2).blk t).view.emb y) 1))
    refine congrArg (V c main_arg6) (funext fun x => Fin.ext ?_)
    match x with
    | ⟨0, _⟩ => show win3_1.index t (0 : Fin 2) * 128 + 1 * k.val = k.val; omega
    | ⟨1, _⟩ => show win3_1.index t (1 : Fin 2) * 128 + 1 * (y 1).val = win3_2.index t (1 : Fin 2) * 128 + 1 * (y 1).val; omega

/-- An index of the array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- Every index of the output array is in the block of the point its row selects. -/
theorem cover3 (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have hN : cfg3.N = 20 := N_3
  refine ⟨⟨(i 0).val / 5000, by rw [hN]; omega⟩, flush3_2 _, ?_⟩
  rw [mem_blk3]
  obtain ⟨e0, e1, e2, e3, e4, e5⟩ := idx_facts3 ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 128 ≤ (i 1).val ∧ (i 1).val < win3_2.index _ (1 : Fin 2) * 128 + 128; rw [e5]; omega

/-- The output array of region 3 after the run, as one function of the two arrays the region finds. -/
theorem final3_fun (c : Dev nD) : (dat3 V c).arrAt 2 cfg3.N = G (V c main_v58) (V c main_arg6) :=
  (dat3 V c).arrAt_eq_of_cover 2 (G (V c main_v58) (V c main_arg6)) (fun t _ => flushed3_eq V c t) (cover3)

/-- The output array of region 3 after the run, index by index. -/
theorem final3 (c : Dev nD) (n : Fin 100000) (j : Fin 128) :
    (dat3 V c).arrAt 2 cfg3.N (ix2 n j)
      = ∑ k : Fin 128, @HMul.hMul EReal EReal EReal _ (V c main_v58 (ix2 n k)) (V c main_arg6 (ix2 k j)) := by
  rw [final3_fun V c]

end Cert.KernelIdeal.RegV.Matmul

end
-- ==== Proof.RegFinal.lean ====
import proofs.«143779_j10514079941365_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegV.Final

open Cert.KernelIdeal Cert.KernelIdeal.Gen Idealize.ShloMosaic Idealize.ShloMosaic.TcCoe Idealize.SL.Sem Idealize.ShloMosaic.ValueIdx
open Idealize.ShloMosaic.Pipeline (Dat)

/-! ## The [5000,128] × [128,1] product into the zero accumulator, read at an index -/

local notation "D₆" => dot_S5000x128_S128x1_S5000x1_1_0_0_1_n_n

/-- Row coordinate of the left operand's index: the output's row. -/
theorem lhs_row (i : S5000x1.Idx) (q : (D₆).contr.Idx) : ((D₆).lhsIdx i q 0).val = (i 0).val := by
  unfold DotDims.lhsIdx
  rw [dif_neg (show ¬(0 : Fin S5000x128.rank) ∈ (D₆).lhsBatch by decide), dif_pos (show (0 : Fin S5000x128.rank) ∈ (D₆).lhsNonContracting by decide)]
  rfl

/-- Column coordinate of the left operand's index: the contraction position. -/
theorem lhs_col (i : S5000x1.Idx) (q : (D₆).contr.Idx) : ((D₆).lhsIdx i q 1).val = (q ⟨0, by decide⟩).val :=
  (D₆).lhsIdx_val_of_single rfl i q

/-- Row coordinate of the right operand's index: the contraction position. -/
theorem rhs_row (i : S5000x1.Idx) (q : (D₆).contr.Idx) : ((D₆).rhsIdx i q 0).val = (q ⟨0, by decide⟩).val :=
  (D₆).rhsIdx_val_of_single rfl i q

/-- Column coordinate of the right operand's index: the output's column. -/
theorem rhs_col (i : S5000x1.Idx) (q : (D₆).contr.Idx) : ((D₆).rhsIdx i q 1).val = (i 1).val := by
  unfold DotDims.rhsIdx
  rw [dif_neg (show ¬(1 : Fin S128x1.rank) ∈ (D₆).rhsBatch by decide), dif_pos (show (1 : Fin S128x1.rank) ∈ (D₆).rhsNonContracting by decide)]
  rfl

/-- The product into the zero accumulator at row `r`, column `q`: the sum over the contracted axis. -/
theorem mm_apply (a : FVec Ideal S5000x128 .bf16) (b : FVec Ideal S128x1 .bf16) (r : Fin 5000) (q : Fin 1) :
    matmul D₆ none a b (constant S5000x1 .f32 0x00000000#32) (ix2 r q) = ∑ k : Fin 128, a (ix2 r k) * b (ix2 k q) := by
  show FloatOps.matmul D₆ none a b (constant S5000x1 .f32 0x00000000#32) (ix2 r q) = _
  rw [Ideal.matmul_constant_zero_apply, ← Equiv.sum_comp (contrEquiv1 D₆ 128 rfl rfl).symm]
  refine Finset.sum_congr rfl fun k _ => ?_
  have hk := contrEquiv1_symm_val D₆ 128 rfl rfl k
  have el : (D₆).lhsIdx (ix2 r q) ((contrEquiv1 D₆ 128 rfl rfl).symm k) = ix2 r k := funext fun x => Fin.ext (by
    match x with
    | ⟨0, _⟩ => exact lhs_row _ _
    | ⟨1, _⟩ => exact (lhs_col _ _).trans hk)
  have er : (D₆).rhsIdx (ix2 r q) ((contrEquiv1 D₆ 128 rfl rfl).symm k) = ix2 k q := funext fun x => Fin.ext (by
    match x with
    | ⟨0, _⟩ => exact (rhs_row _ _).trans hk
    | ⟨1, _⟩ => exact rhs_col _ _)
  rw [el, er]

/-- A [1,1] vector broadcast to [5000,1] reads its one element everywhere. -/
theorem bcast_apply (x : S1x1.Idx → EReal) (h : S1x1.Broadcasts S5000x1) (r : Fin 5000) (q : Fin 1) :
    broadcastTo S5000x1 x h (ix2 r q) = x (ix2 (0 : Fin 1) (0 : Fin 1)) :=
  broadcastTo_apply x h (ix2 r q) (ix2 (0 : Fin 1) (0 : Fin 1)) (fun a => by
    match a with
    | ⟨0, _⟩ => rfl
    | ⟨1, _⟩ => rfl)

/-- The final region's payload at row `r` (its one column `q`): the logistic of the rectified affine form. -/
theorem pay6_apply (x0 : Vec Ideal S5000x128 .f32) (x1 : Vec Ideal S128x1 .f32) (x2 : Vec Ideal S1x1 .f32) (r : Fin 5000) (q : Fin 1) :
    k6_pay1 (F := Ideal) x0 x1 x2 (ix2 r q)
      = Ideal.logistic (max ((∑ k : Fin 128, x0 (ix2 r k) * x1 (ix2 k q)) + x2 (ix2 (0 : Fin 1) (0 : Fin 1))) 0) := by
  unfold k6_pay1
  rw [shapeCast_self, shapeCast_self]
  show Ideal.logistic (max (matmul (F := Ideal) D₆ none _ _ (constant (F := Ideal) S5000x1 .f32 0x00000000#32) (ix2 r q) + broadcastTo S5000x1 x2 _ (ix2 r q)) (Ideal.ofBits .f32 0x00000000#32)) = _
  rw [mm_apply, bcast_apply, Ideal.ofBits_zero_f32]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The whole-array function: the logistic of the rectified affine form of row `i 0`. -/
abbrev G (a : S100000x128.Idx → EReal) (w : S128x1.Idx → EReal) (b : S1x1.Idx → EReal) : S100000x1.Idx → EReal :=
  fun i => Ideal.logistic (max ((∑ k : Fin 128, a (ix2 (i 0) k) * w (ix2 k (i 1))) + b (ix2 (0 : Fin 1) (0 : Fin 1))) 0)

/-- A payload of blocks that are rows of `a`, all of `w` and all of `b` is `G a w b` there. -/
theorem pay6_blk (a : S100000x128.Idx → EReal) (w : S128x1.Idx → EReal) (b : S1x1.Idx → EReal)
    (x0 : Vec Ideal S5000x128 .f32) (x1 : Vec Ideal S128x1 .f32) (x2 : Vec Ideal S1x1 .f32) (y : S5000x1.Idx) (i : S100000x1.Idx)
    (h0 : ∀ k : Fin 128, x0 (ix2 (y 0) k) = a (ix2 (i 0) k))
    (h1 : ∀ k : Fin 128, x1 (ix2 k (y 1)) = w (ix2 k (i 1)))
    (h2 : x2 (ix2 (0 : Fin 1) (0 : Fin 1)) = b (ix2 (0 : Fin 1) (0 : Fin 1))) :
    k6_pay1 (F := Ideal) x0 x1 x2 y = G a w b i := by
  obtain ⟨r, q, rfl⟩ : ∃ (r : Fin 5000) (q : Fin 1), y = ix2 r q := ⟨y 0, y 1, eq_ix2 y⟩
  rw [pay6_apply, h2]
  exact congrArg (fun s => Ideal.logistic (max (s + b (ix2 (0 : Fin 1) (0 : Fin 1))) 0)) (Finset.sum_congr rfl fun k _ => by rw [h0 k, h1 k])

/-- The printed index maps over the grid: the row operand's block and the output's block are block `t`
    of the rows, the other coordinates 0. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of `G` of the three arrays as the region finds them. -/
theorem flushed6_eq (c : Dev nD) (t : Fin cfg6.N) :
    (dat6 V c).flushed 3 t = ((cfg6.win 3).blk t).view.read (Elt Ideal) (G (V c main_v87) (V c main_arg10) (V c main_v88)) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x1) hz, View.ld_unit_zero (S := S1x1) hz]
  obtain ⟨e0, e1, e2, e3, e4, e5, e6, e7⟩ := idx_facts6 t
  funext y
  refine pay6_blk (V c main_v87) (V c main_arg10) (V c main_v88) (iblk6 V c 0 t) (iblk6 V c 1 t) (iblk6 V c 2 t) y (((cfg6.win 3).blk t).view.emb y) ?_ ?_ ?_
  · intro k
    show V c main_v87 (((cfg6.win 0).blk t).view.emb (ix2 (y 0) k)) = V c main_v87 (ix2 ((((cfg6.win 3).blk t).view.emb y) 0) k)
    refine congrArg (V c main_v87) (funext fun x => Fin.ext ?_)
    match x with
    | ⟨0, _⟩ => show win6_0.index t (0 : Fin 2) * 5000 + 1 * (y 0).val = win6_3.index t (0 : Fin 2) * 5000 + 1 * (y 0).val; omega
    | ⟨1, _⟩ => show win6_0.index t (1 : Fin 2) * 128 + 1 * k.val = k.val; omega
  · intro k
    show V c main_arg10 (((cfg6.win 1).blk t).view.emb (ix2 k (y 1))) = V c main_arg10 (ix2 k ((((cfg6.win 3).blk t).view.emb y) 1))
    refine congrArg (V c main_arg10) (funext fun x => Fin.ext ?_)
    match x with
    | ⟨0, _⟩ => show win6_1.index t (0 : Fin 2) * 128 + 1 * k.val = k.val; omega
    | ⟨1, _⟩ => show win6_1.index t (1 : Fin 2) * 1 + 1 * (y 1).val = win6_3.index t (1 : Fin 2) * 1 + 1 * (y 1).val; omega
  · show V c main_v88 (((cfg6.win 2).blk t).view.emb (ix2 (0 : Fin 1) (0 : Fin 1))) = V c main_v88 (ix2 (0 : Fin 1) (0 : Fin 1))
    refine congrArg (V c main_v88) (funext fun x => Fin.ext ?_)
    match x with
    | ⟨0, _⟩ => show win6_2.index t (0 : Fin 2) * 1 + 1 * 0 = 0; omega
    | ⟨1, _⟩ => show win6_2.index t (1 : Fin 2) * 1 + 1 * 0 = 0; omega

/-- An index of the array is in point `t`'s block iff each coordinate is in the block's range on its axis. -/
theorem mem_blk6 (t : Fin cfg6.N) (i : S100000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v89).slice (win6_3.rect t)).set ↔ _
  rw [View.set_slice_whole, Rect.mem_set_unit]
  exact Iff.rfl

/-- Every index of the output array is in the block of the point its row selects. -/
theorem cover6 (i : S100000x1.Idx) :
    ∃ t : Fin cfg6.N, (cfg6.win 3).flush t = true ∧ i ∈ ((cfg6.win 3).blk t).view.set := by
  have hi0 : (i 0).val < 100000 := idx2_lt0 i
  have hi1 : (i 1).val < 1 := idx2_lt1 i
  have hN : cfg6.N = 20 := N_6
  refine ⟨⟨(i 0).val / 5000, by rw [hN]; omega⟩, flush6_3 _, ?_⟩
  rw [mem_blk6]
  obtain ⟨e0, e1, e2, e3, e4, e5, e6, e7⟩ := idx_facts6 ⟨(i 0).val / 5000, by rw [hN]; omega⟩
  intro a
  match a with
  | ⟨0, _⟩ => show win6_3.index _ (0 : Fin 2) * 5000 ≤ (i 0).val ∧ (i 0).val < win6_3.index _ (0 : Fin 2) * 5000 + 5000; rw [e6]; show (i 0).val / 5000 * 5000 ≤ (i 0).val ∧ (i 0).val < (i 0).val / 5000 * 5000 + 5000; omega
  | ⟨1, _⟩ => show win6_3.index _ (1 : Fin 2) * 1 ≤ (i 1).val ∧ (i 1).val < win6_3.index _ (1 : Fin 2) * 1 + 1; rw [e7]; omega

/-- The output array of the final region after the run, as one function of the three arrays the region finds. -/
theorem final6_fun (c : Dev nD) : (dat6 V c).arrAt 3 cfg6.N = G (V c main_v87) (V c main_arg10) (V c main_v88) :=
  (dat6 V c).arrAt_eq_of_cover 3 (G (V c main_v87) (V c main_arg10) (V c main_v88)) (fun t _ => flushed6_eq V c t) (cover6)

/-- The output array of the final region after the run, row by row. -/
theorem final6 (c : Dev nD) (n : Fin 100000) :
    (dat6 V c).arrAt 3 cfg6.N (ix2 n (0 : Fin 1))
      = Ideal.logistic (max (@HAdd.hAdd EReal EReal EReal _
          (∑ k : Fin 128, @HMul.hMul EReal EReal EReal _ (V c main_v87 (ix2 n k)) (V c main_arg10 (ix2 k (0 : Fin 1))))
          (V c main_v88 (ix2 (0 : Fin 1) (0 : Fin 1)))) 0) := by
  rw [final6_fun V c]

end Cert.KernelIdeal.RegV.Final

end
-- ==== Proof.RegNorm.lean ====
import proofs.«143779_j10514079941365_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegV.Norm

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! # The two normalise-and-clamp regions, read at an entry

Each region stages a [100000,128] array in twenty row blocks of 5000 rows together with five [1,128] rows
(bias, mean, inverse deviation, scale, shift) and writes, entry by entry,
`max ((((h + b) - μ) * s) * g + β) 0`. -/

/-- The value written at one entry from the entry of the big array and the five row entries of its column. -/
def nrm (h b μ s g β : EReal) : EReal := max ((((h + b) - μ) * s) * g + β) 0

/-- The whole [100000,128] array such a region leaves, as one function of the six arrays it stages. -/
def normArr (a0 : S100000x128.Idx → EReal) (a1 a2 a3 a4 a5 : S1x128.Idx → EReal) : S100000x128.Idx → EReal :=
  fun i => nrm (a0 i) (a1 (ix2 (0 : Fin 1) (i 1 : Fin 128))) (a2 (ix2 (0 : Fin 1) (i 1 : Fin 128)))
    (a3 (ix2 (0 : Fin 1) (i 1 : Fin 128))) (a4 (ix2 (0 : Fin 1) (i 1 : Fin 128))) (a5 (ix2 (0 : Fin 1) (i 1 : Fin 128)))

theorem hz : (![0, 0] : Fin 2 → Nat) = fun _ => 0 := funext fun a => by fin_cases a <;> rfl

/-- A [1,128] row broadcast down 5000 rows, read at row `r`, column `j`, is the row's entry at column `j`. -/
theorem bcast_row {α : Type} (x : S1x128.Idx → α) (h2 : S1x128.Broadcasts S5000x128)
    (r : Fin 5000) (j : Fin 128) :
    broadcastTo S5000x128 x h2 (ix2 r j) = x (ix2 (0 : Fin 1) j) := by
  refine broadcastTo_apply x h2 (ix2 r j) (ix2 (0 : Fin 1) j) ?_
  intro a
  match a with
  | ⟨0, _⟩ => rfl
  | ⟨1, _⟩ => rfl

/-! ## Region 2 -/

/-- The body's arithmetic of region 2 at row `r`, column `j` of a block. -/
theorem pay2_apply (x0 : Vec Ideal S5000x128 .f32) (x1 x2 x3 x4 x5 : Vec Ideal S1x128 .f32) (r : Fin 5000) (j : Fin 128) :
    k2_pay1 x0 x1 x2 x3 x4 x5 (ix2 r j)
      = nrm (x0 (ix2 r j)) (x1 (ix2 (0 : Fin 1) j)) (x2 (ix2 (0 : Fin 1) j)) (x3 (ix2 (0 : Fin 1) j))
          (x4 (ix2 (0 : Fin 1) j)) (x5 (ix2 (0 : Fin 1) j)) := by
  unfold k2_pay1 nrm
  simp only [maximumf_apply, addf_apply, mulf_apply, subf_apply, broadcast_apply, shapeCast_self, bcast_row]
  exact congrArg (max _) Ideal.ofBits_zero_f32

/-- The same at any index of a block. -/
theorem pay2_at (x0 : Vec Ideal S5000x128 .f32) (x1 x2 x3 x4 x5 : Vec Ideal S1x128 .f32) (y : S5000x128.Idx) :
    k2_pay1 x0 x1 x2 x3 x4 x5 y
      = nrm (x0 y) (x1 (ix2 (0 : Fin 1) (y 1 : Fin 128))) (x2 (ix2 (0 : Fin 1) (y 1 : Fin 128))) (x3 (ix2 (0 : Fin 1) (y 1 : Fin 128))) (x4 (ix2 (0 : Fin 1) (y 1 : Fin 128))) (x5 (ix2 (0 : Fin 1) (y 1 : Fin 128))) := by
  obtain ⟨r, j, rfl⟩ : ∃ (r : Fin 5000) (j : Fin 128), y = ix2 r j := ⟨y 0, y 1, eq_ix2 y⟩
  exact pay2_apply x0 x1 x2 x3 x4 x5 r j

/-- The printed index maps of region 2, decided over the twenty grid points: the big input and the output move
    together, block `t` at point `t`. -/
theorem idx2_big : ∀ t : Fin cfg2.N,
    win2_0.index t (0 : Fin 2) = t.val ∧ win2_0.index t (1 : Fin 2) = 0
    ∧ win2_6.index t (0 : Fin 2) = t.val ∧ win2_6.index t (1 : Fin 2) = 0 :=
  (by decide +kernel : ∀ t : Fin grid2.N,
    win2_0.index t (0 : Fin 2) = t.val ∧ win2_0.index t (1 : Fin 2) = 0
    ∧ win2_6.index t (0 : Fin 2) = t.val ∧ win2_6.index t (1 : Fin 2) = 0)

/-- The five rows never move. -/
theorem idx2_rows : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0)

/-- The array region 2 leaves, as one function of the arrays it finds. -/
abbrev arr2 (c : Dev nD) : S100000x128.Idx → EReal :=
  normArr (V c main_v43) (V c main_v55) (V c main_v47) (V c main_v54) (V c main_v56) (V c main_v57)

set_option maxHeartbeats 1600000 in
/-- What point `t` writes back is block `t` of that array. -/
theorem flushed2_eq (c : Dev nD) (t : Fin cfg2.N) :
    (dat2 V c).flushed 6 t = ((cfg2.win 6).blk t).view.read (Elt Ideal) (arr2 V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  refine funext fun (y : S5000x128.Idx) => ?_
  refine (pay2_at (iblk2 V c 0 t) (iblk2 V c 1 t) (iblk2 V c 2 t) (iblk2 V c 3 t) (iblk2 V c 4 t) (iblk2 V c 5 t) y).trans ?_
  obtain ⟨e00, e01, e60, e61⟩ := idx2_big t
  obtain ⟨e10, e11, e20, e21, e30, e31, e40, e41, e50, e51⟩ := idx2_rows t
  have hbig : ((cfg2.win 0).blk t).view.emb y = ((cfg2.win 6).blk t).view.emb y := by
    funext a; apply Fin.ext
    match a with
    | ⟨0, _⟩ => show win2_0.index t (0 : Fin 2) * 5000 + 1 * (y 0).val = win2_6.index t (0 : Fin 2) * 5000 + 1 * (y 0).val; omega
    | ⟨1, _⟩ => show win2_0.index t (1 : Fin 2) * 128 + 1 * (y 1).val = win2_6.index t (1 : Fin 2) * 128 + 1 * (y 1).val; omega
  have hcol : (((cfg2.win 6).blk t).view.emb y 1 : Fin 128) = (y 1 : Fin 128) := by
    apply Fin.ext
    show win2_6.index t (1 : Fin 2) * 128 + 1 * (y 1).val = (y 1).val; omega
  have h1 : ((cfg2.win 1).blk t).view.emb (ix2 (0 : Fin 1) (y 1 : Fin 128)) = ix2 (0 : Fin 1) (y 1 : Fin 128) := by
    funext a; apply Fin.ext
    match a with
    | ⟨0, _⟩ => show win2_1.index t (0 : Fin 2) * 1 + 1 * 0 = 0; omega
    | ⟨1, _⟩ => show win2_1.index t (1 : Fin 2) * 128 + 1 * (y 1).val = (y 1).val; omega
  have h2 : ((cfg2.win 2).blk t).view.emb (ix2 (0 : Fin 1) (y 1 : Fin 128)) = ix2 (0 : Fin 1) (y 1 : Fin 128) := by
    funext a; apply Fin.ext
    match a with
    | ⟨0, _⟩ => show win2_2.index t (0 : Fin 2) * 1 + 1 * 0 = 0; omega
    | ⟨1, _⟩ => show win2_2.index t (1 : Fin 2) * 128 + 1 * (y 1).val = (y 1).val; omega
  have h3 : ((cfg2.win 3).blk t).view.emb (ix2 (0 : Fin 1) (y 1 : Fin 128)) = ix2 (0 : Fin 1) (y 1 : Fin 128) := by
    funext a; apply Fin.ext
    match a with
    | ⟨0, _⟩ => show win2_3.index t (0 : Fin 2) * 1 + 1 * 0 = 0; omega
    | ⟨1, _⟩ => show win2_3.index t (1 : Fin 2) * 128 + 1 * (y 1).val = (y 1).val; omega
  have h4 : ((cfg2.win 4).blk t).view.emb (ix2 (0 : Fin 1) (y 1 : Fin 128)) = ix2 (0 : Fin 1) (y 1 : Fin 128) := by
    funext a; apply Fin.ext
    match a with
    | ⟨0, _⟩ => show win2_4.index t (0 : Fin 2) * 1 + 1 * 0 = 0; omega
    | ⟨1, _⟩ => show win2_4.index t (1 : Fin 2) * 128 + 1 * (y 1).val = (y 1).val; omega
  have h5 : ((cfg2.win 5).blk t).view.emb (ix2 (0 : Fin 1) (y 1 : Fin 128)) = ix2 (0 : Fin 1) (y 1 : Fin 128) := by
    funext a; apply Fin.ext
    match a with
    | ⟨0, _⟩ => show win2_5.index t (0 : Fin 2) * 1 + 1 * 0 = 0; omega
    | ⟨1, _⟩ => show win2_5.index t (1 : Fin 2) * 128 + 1 * (y 1).val = (y 1).val; omega
  show nrm (V c main_v43 (((cfg2.win 0).blk t).view.emb y))
      (V c main_v55 (((cfg2.win 1).blk t).view.emb (ix2 (0 : Fin 1) (y 1 : Fin 128))))
      (V c main_v47 (((cfg2.win 2).blk t).view.emb (ix2 (0 : Fin 1) (y 1 : Fin 128))))
      (V c main_v54 (((cfg2.win 3).blk t).view.emb (ix2 (0 : Fin 1) (y 1 : Fin 128))))
      (V c main_v56 (((cfg2.win 4).blk t).view.emb (ix2 (0 : Fin 1) (y 1 : Fin 128))))
      (V c main_v57 (((cfg2.win 5).blk t).view.emb (ix2 (0 : Fin 1) (y 1 : Fin 128))))
    = nrm (V c main_v43 (((cfg2.win 6).blk t).view.emb y))
      (V c main_v55 (ix2 (0 : Fin 1) (((cfg2.win 6).blk t).view.emb y 1 : Fin 128)))
      (V c main_v47 (ix2 (0 : Fin 1) (((cfg2.win 6).blk t).view.emb y 1 : Fin 128)))
      (V c main_v54 (ix2 (0 : Fin 1) (((cfg2.win 6).blk t).view.emb y 1 : Fin 128)))
      (V c main_v56 (ix2 (0 : Fin 1) (((cfg2.win 6).blk t).view.emb y 1 : Fin 128)))
      (V c main_v57 (ix2 (0 : Fin 1) (((cfg2.win 6).blk t).view.emb y 1 : Fin 128)))
  rw [hbig, hcol, h1, h2, h3, h4, h5]
  rfl

/-- An index of the array is in point `t`'s block iff each coordinate is in the block's range on its axis. -/
theorem mem_blk2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v58).slice (win2_6.rect t)).set ↔ _
  rw [View.set_slice_whole, Rect.mem_set_unit]
  exact Iff.rfl

/-- Every index of the array is in the block of the point its row falls in. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have htv : t.val = (i 0).val / 5000 := rfl
  obtain ⟨e00, e01, e60, e61⟩ := idx2_big t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The whole array after region 2. -/
theorem final2_arr (c : Dev nD) : (dat2 V c).arrAt 6 cfg2.N = arr2 V c :=
  (dat2 V c).arrAt_eq_of_cover 6 (arr2 V c) (fun t _ => flushed2_eq V c t) cover2

/-- The array after region 2, entry by entry. -/
theorem final2 (c : Dev nD) (n : Fin 100000) (j : Fin 128) :
    ((dat2 V c).arrAt 6 cfg2.N : S100000x128.Idx → EReal) (ix2 n j)
      = nrm (V c main_v43 (ix2 n j)) (V c main_v55 (ix2 (0 : Fin 1) j)) (V c main_v47 (ix2 (0 : Fin 1) j))
          (V c main_v54 (ix2 (0 : Fin 1) j)) (V c main_v56 (ix2 (0 : Fin 1) j)) (V c main_v57 (ix2 (0 : Fin 1) j)) :=
  congrFun (final2_arr V c) (ix2 n j)

/-! ## Region 5 -/

/-- The body's arithmetic of region 5 at row `r`, column `j` of a block. -/
theorem pay5_apply (x0 : Vec Ideal S5000x128 .f32) (x1 x2 x3 x4 x5 : Vec Ideal S1x128 .f32) (r : Fin 5000) (j : Fin 128) :
    k5_pay1 x0 x1 x2 x3 x4 x5 (ix2 r j)
      = nrm (x0 (ix2 r j)) (x1 (ix2 (0 : Fin 1) j)) (x2 (ix2 (0 : Fin 1) j)) (x3 (ix2 (0 : Fin 1) j))
          (x4 (ix2 (0 : Fin 1) j)) (x5 (ix2 (0 : Fin 1) j)) := by
  unfold k5_pay1 nrm
  simp only [maximumf_apply, addf_apply, mulf_apply, subf_apply, broadcast_apply, shapeCast_self, bcast_row]
  exact congrArg (max _) Ideal.ofBits_zero_f32

/-- The same at any index of a block. -/
theorem pay5_at (x0 : Vec Ideal S5000x128 .f32) (x1 x2 x3 x4 x5 : Vec Ideal S1x128 .f32) (y : S5000x128.Idx) :
    k5_pay1 x0 x1 x2 x3 x4 x5 y
      = nrm (x0 y) (x1 (ix2 (0 : Fin 1) (y 1 : Fin 128))) (x2 (ix2 (0 : Fin 1) (y 1 : Fin 128))) (x3 (ix2 (0 : Fin 1) (y 1 : Fin 128))) (x4 (ix2 (0 : Fin 1) (y 1 : Fin 128))) (x5 (ix2 (0 : Fin 1) (y 1 : Fin 128))) := by
  obtain ⟨r, j, rfl⟩ : ∃ (r : Fin 5000) (j : Fin 128), y = ix2 r j := ⟨y 0, y 1, eq_ix2 y⟩
  exact pay5_apply x0 x1 x2 x3 x4 x5 r j

/-- The printed index maps of region 5, decided over the twenty grid points: the big input and the output move
    together, block `t` at point `t`. -/
theorem idx5_big : ∀ t : Fin cfg5.N,
    win5_0.index t (0 : Fin 2) = t.val ∧ win5_0.index t (1 : Fin 2) = 0
    ∧ win5_6.index t (0 : Fin 2) = t.val ∧ win5_6.index t (1 : Fin 2) = 0 :=
  (by decide +kernel : ∀ t : Fin grid5.N,
    win5_0.index t (0 : Fin 2) = t.val ∧ win5_0.index t (1 : Fin 2) = 0
    ∧ win5_6.index t (0 : Fin 2) = t.val ∧ win5_6.index t (1 : Fin 2) = 0)

/-- The five rows never move. -/
theorem idx5_rows : ∀ t : Fin cfg5.N,
    win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N,
    win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0)

/-- The array region 5 leaves, as one function of the arrays it finds. -/
abbrev arr5 (c : Dev nD) : S100000x128.Idx → EReal :=
  normArr (V c main_v72) (V c main_v84) (V c main_v76) (V c main_v83) (V c main_v85) (V c main_v86)

set_option maxHeartbeats 1600000 in
/-- What point `t` writes back is block `t` of that array. -/
theorem flushed5_eq (c : Dev nD) (t : Fin cfg5.N) :
    (dat5 V c).flushed 6 t = ((cfg5.win 6).blk t).view.read (Elt Ideal) (arr5 V c) := by
  show (cfg5.win 6).cut (grid5.coords t) ((dat5 V c).after 6 t) = _
  rw [after5_6]
  unfold out5_6
  rw [View.canon_unit_zero hz]
  simp only [View.ld_unit_zero (S := S5000x128) hz, View.ld_unit_zero (S := S1x128) hz]
  refine funext fun (y : S5000x128.Idx) => ?_
  refine (pay5_at (iblk5 V c 0 t) (iblk5 V c 1 t) (iblk5 V c 2 t) (iblk5 V c 3 t) (iblk5 V c 4 t) (iblk5 V c 5 t) y).trans ?_
  obtain ⟨e00, e01, e60, e61⟩ := idx5_big t
  obtain ⟨e10, e11, e20, e21, e30, e31, e40, e41, e50, e51⟩ := idx5_rows t
  have hbig : ((cfg5.win 0).blk t).view.emb y = ((cfg5.win 6).blk t).view.emb y := by
    funext a; apply Fin.ext
    match a with
    | ⟨0, _⟩ => show win5_0.index t (0 : Fin 2) * 5000 + 1 * (y 0).val = win5_6.index t (0 : Fin 2) * 5000 + 1 * (y 0).val; omega
    | ⟨1, _⟩ => show win5_0.index t (1 : Fin 2) * 128 + 1 * (y 1).val = win5_6.index t (1 : Fin 2) * 128 + 1 * (y 1).val; omega
  have hcol : (((cfg5.win 6).blk t).view.emb y 1 : Fin 128) = (y 1 : Fin 128) := by
    apply Fin.ext
    show win5_6.index t (1 : Fin 2) * 128 + 1 * (y 1).val = (y 1).val; omega
  have h1 : ((cfg5.win 1).blk t).view.emb (ix2 (0 : Fin 1) (y 1 : Fin 128)) = ix2 (0 : Fin 1) (y 1 : Fin 128) := by
    funext a; apply Fin.ext
    match a with
    | ⟨0, _⟩ => show win5_1.index t (0 : Fin 2) * 1 + 1 * 0 = 0; omega
    | ⟨1, _⟩ => show win5_1.index t (1 : Fin 2) * 128 + 1 * (y 1).val = (y 1).val; omega
  have h2 : ((cfg5.win 2).blk t).view.emb (ix2 (0 : Fin 1) (y 1 : Fin 128)) = ix2 (0 : Fin 1) (y 1 : Fin 128) := by
    funext a; apply Fin.ext
    match a with
    | ⟨0, _⟩ => show win5_2.index t (0 : Fin 2) * 1 + 1 * 0 = 0; omega
    | ⟨1, _⟩ => show win5_2.index t (1 : Fin 2) * 128 + 1 * (y 1).val = (y 1).val; omega
  have h3 : ((cfg5.win 3).blk t).view.emb (ix2 (0 : Fin 1) (y 1 : Fin 128)) = ix2 (0 : Fin 1) (y 1 : Fin 128) := by
    funext a; apply Fin.ext
    match a with
    | ⟨0, _⟩ => show win5_3.index t (0 : Fin 2) * 1 + 1 * 0 = 0; omega
    | ⟨1, _⟩ => show win5_3.index t (1 : Fin 2) * 128 + 1 * (y 1).val = (y 1).val; omega
  have h4 : ((cfg5.win 4).blk t).view.emb (ix2 (0 : Fin 1) (y 1 : Fin 128)) = ix2 (0 : Fin 1) (y 1 : Fin 128) := by
    funext a; apply Fin.ext
    match a with
    | ⟨0, _⟩ => show win5_4.index t (0 : Fin 2) * 1 + 1 * 0 = 0; omega
    | ⟨1, _⟩ => show win5_4.index t (1 : Fin 2) * 128 + 1 * (y 1).val = (y 1).val; omega
  have h5 : ((cfg5.win 5).blk t).view.emb (ix2 (0 : Fin 1) (y 1 : Fin 128)) = ix2 (0 : Fin 1) (y 1 : Fin 128) := by
    funext a; apply Fin.ext
    match a with
    | ⟨0, _⟩ => show win5_5.index t (0 : Fin 2) * 1 + 1 * 0 = 0; omega
    | ⟨1, _⟩ => show win5_5.index t (1 : Fin 2) * 128 + 1 * (y 1).val = (y 1).val; omega
  show nrm (V c main_v72 (((cfg5.win 0).blk t).view.emb y))
      (V c main_v84 (((cfg5.win 1).blk t).view.emb (ix2 (0 : Fin 1) (y 1 : Fin 128))))
      (V c main_v76 (((cfg5.win 2).blk t).view.emb (ix2 (0 : Fin 1) (y 1 : Fin 128))))
      (V c main_v83 (((cfg5.win 3).blk t).view.emb (ix2 (0 : Fin 1) (y 1 : Fin 128))))
      (V c main_v85 (((cfg5.win 4).blk t).view.emb (ix2 (0 : Fin 1) (y 1 : Fin 128))))
      (V c main_v86 (((cfg5.win 5).blk t).view.emb (ix2 (0 : Fin 1) (y 1 : Fin 128))))
    = nrm (V c main_v72 (((cfg5.win 6).blk t).view.emb y))
      (V c main_v84 (ix2 (0 : Fin 1) (((cfg5.win 6).blk t).view.emb y 1 : Fin 128)))
      (V c main_v76 (ix2 (0 : Fin 1) (((cfg5.win 6).blk t).view.emb y 1 : Fin 128)))
      (V c main_v83 (ix2 (0 : Fin 1) (((cfg5.win 6).blk t).view.emb y 1 : Fin 128)))
      (V c main_v85 (ix2 (0 : Fin 1) (((cfg5.win 6).blk t).view.emb y 1 : Fin 128)))
      (V c main_v86 (ix2 (0 : Fin 1) (((cfg5.win 6).blk t).view.emb y 1 : Fin 128)))
  rw [hbig, hcol, h1, h2, h3, h4, h5]
  rfl

/-- An index of the array is in point `t`'s block iff each coordinate is in the block's range on its axis. -/
theorem mem_blk5 (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v87).slice (win5_6.rect t)).set ↔ _
  rw [View.set_slice_whole, Rect.mem_set_unit]
  exact Iff.rfl

/-- Every index of the array is in the block of the point its row falls in. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have htv : t.val = (i 0).val / 5000 := rfl
  obtain ⟨e00, e01, e60, e61⟩ := idx5_big t
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- The whole array after region 5. -/
theorem final5_arr (c : Dev nD) : (dat5 V c).arrAt 6 cfg5.N = arr5 V c :=
  (dat5 V c).arrAt_eq_of_cover 6 (arr5 V c) (fun t _ => flushed5_eq V c t) cover5

/-- The array after region 5, entry by entry. -/
theorem final5 (c : Dev nD) (n : Fin 100000) (j : Fin 128) :
    ((dat5 V c).arrAt 6 cfg5.N : S100000x128.Idx → EReal) (ix2 n j)
      = nrm (V c main_v72 (ix2 n j)) (V c main_v84 (ix2 (0 : Fin 1) j)) (V c main_v76 (ix2 (0 : Fin 1) j))
          (V c main_v83 (ix2 (0 : Fin 1) j)) (V c main_v85 (ix2 (0 : Fin 1) j)) (V c main_v86 (ix2 (0 : Fin 1) j)) :=
  congrFun (final5_arr V c) (ix2 n j)

end Cert.KernelIdeal.RegV.Norm

end
-- ==== Proof.RegStats.lean ====
import proofs.«143779_j10514079941365_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegV.Stats

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.Tactic
open scoped BigOperators

variable (V : (c : Dev nD) → (b : Ref sig .tc) → Buf (Elt Ideal) ((c : Thread nD τ).loc b))

/-! # The two statistics regions, read at a column

Each region walks a [100000,128] array in twenty row blocks of 5000 rows, adds a [1,128] bias row to every row, and
accumulates into two [1,128] outputs the column sums of the result and of its square: the outputs are zeroed at
the first point, every point adds its block's column sums, and both are written back once, after the last point. -/

theorem hz : (![0, 0] : Fin 2 → Nat) = fun _ => 0 := funext fun a => by fin_cases a <;> rfl

/-- A [1,128] row broadcast down 5000 rows, read at row `r`, column `j`, is the row's entry at column `j`. -/
theorem bcast_row {α : Type} (x : S1x128.Idx → α) (h2 : S1x128.Broadcasts S5000x128)
    (r : Fin 5000) (j : Fin 128) :
    broadcastTo S5000x128 x h2 (ix2 r j) = x (ix2 (0 : Fin 1) j) := by
  refine broadcastTo_apply x h2 (ix2 r j) (ix2 (0 : Fin 1) j) ?_
  intro a
  match a with
  | ⟨0, _⟩ => rfl
  | ⟨1, _⟩ => rfl

/-- A lane sum over the 5000 rows of a block, read at column `j`. -/
theorem colsum (src : FVec Ideal S5000x128 .f32) (h : S5000x128.Reduces [0] S128) (hφ : FKind.Formats .f32)
    (hacc : (0x00000000#32 : BitVec 32) = FKind.add.neutral .f32 hφ) (j : Fin 128) :
    multiReduction .add [0] S128 src 0x00000000#32 h hφ hacc (ix1 j) = ∑ r : Fin 5000, src (ix2 r j) := by
  refine (Ideal.multiReduction_add_single src 0x00000000#32 h hφ hacc (ix1 j)).trans ?_
  refine Finset.sum_congr rfl fun r _ => congrArg src ?_
  funext a
  apply Fin.ext
  match a with
  | ⟨0, _⟩ => rfl
  | ⟨1, _⟩ => rfl

/-- A [128] vector viewed as a [1,128] row, read at column `j`. -/
theorem row_of_vec {α : Type} (v : S128.Idx → α) (h : S128.ShapeCasts S1x128) (j : Fin 128) :
    shapeCast S1x128 v h (ix2 (0 : Fin 1) j) = v (ix1 j) := by
  refine shapeCast_apply v h (ix2 (0 : Fin 1) j) (ix1 j) ?_
  rw [Shape.rowMajor_val_one, Shape.rowMajor_val_two]
  show j.val = 0 * 128 + j.val
  omega

/-- Twenty blocks of 5000 consecutive terms are the 100000 terms. -/
theorem regroup (f : ℕ → EReal) :
    ∑ s ∈ Finset.range 20, ∑ r : Fin 5000, f (5000 * s + r.val) = ∑ n : Fin 100000, f n.val := by
  rw [Finset.sum_range, ← Fintype.sum_prod_type']
  refine Fintype.sum_equiv (finProdFinEquiv (m := 20) (n := 5000)) _ (fun n : Fin (20 * 5000) => f n.val) fun x => ?_
  refine congrArg f ?_
  rw [finProdFinEquiv_apply_val]
  omega

section Pieces
variable {F : FTy → Type} [FloatOps F]

theorem out1_B_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero (S := S1x128) hz]
  simp only [View.readAt_eq_ld, h1.read_unread, h2.read_unread, h3.read_unread, h4.read_unread,
    View.ld_unit_zero (S := S5000x128) hz, View.ld_unit_zero (S := S1x128) hz]

theorem out1_B_3_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero (S := S1x128) hz]
  simp only [View.readAt_eq_ld, h1.read_unread, h2.read_unread, h3.read_unread, h4.read_unread,
    View.ld_unit_zero (S := S5000x128) hz, View.ld_unit_zero (S := S1x128) hz]

theorem out1_A_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

theorem out1_A_3_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

theorem out4_B_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero (S := S1x128) hz]
  simp only [View.readAt_eq_ld, h1.read_unread, h2.read_unread, h3.read_unread, h4.read_unread,
    View.ld_unit_zero (S := S5000x128) hz, View.ld_unit_zero (S := S1x128) hz]

theorem out4_B_3_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond4_0 i)
    (x0 : Vec F S5000x128 .f32) (x1 xo2 xo3 : Vec F S1x128 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero (S := S1x128) hz]
  simp only [View.readAt_eq_ld, h1.read_unread, h2.read_unread, h3.read_unread, h4.read_unread,
    View.ld_unit_zero (S := S5000x128) hz, View.ld_unit_zero (S := S1x128) hz]

theorem out4_A_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

theorem out4_A_3_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond4_0 i)
    (x0 : Vec F S5000x128 .f32) (x1 : Vec F S1x128 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

end Pieces

/-! ## The arithmetic read at a column -/

/-- Row `m` of the big array plus the bias row, at column `j`; zero past the array's rows. -/
def rowOf (a : S100000x128.Idx → EReal) (b : S1x128.Idx → EReal) (m : ℕ) (j : Fin 128) : EReal :=
  if h : m < 100000 then a (ix2 (⟨m, h⟩ : Fin 100000) j) + b (ix2 (0 : Fin 1) j) else 0

theorem rowOf_pos (a : S100000x128.Idx → EReal) (b : S1x128.Idx → EReal) (m : ℕ) (j : Fin 128) (h : m < 100000) :
    rowOf a b m j = a (ix2 (⟨m, h⟩ : Fin 100000) j) + b (ix2 (0 : Fin 1) j) := dif_pos h

/-- The [1,128] array of the column sums, over the whole big array, of its rows plus the bias row. -/
def colSum (h : S100000x128.Idx → EReal) (b : S1x128.Idx → EReal) : S1x128.Idx → EReal :=
  fun i => ∑ n : Fin 100000, (h (ix2 n (i 1 : Fin 128)) + b (ix2 (0 : Fin 1) (i 1 : Fin 128)))

/-- The [1,128] array of the column sums of the squares of the rows plus the bias row. -/
def colSq (h : S100000x128.Idx → EReal) (b : S1x128.Idx → EReal) : S1x128.Idx → EReal :=
  fun i => ∑ n : Fin 100000, (h (ix2 n (i 1 : Fin 128)) + b (ix2 (0 : Fin 1) (i 1 : Fin 128)))
    * (h (ix2 n (i 1 : Fin 128)) + b (ix2 (0 : Fin 1) (i 1 : Fin 128)))

theorem sum_rowOf (a : S100000x128.Idx → EReal) (b : S1x128.Idx → EReal) (j : Fin 128) :
    0 + ∑ s ∈ Finset.range 20, ∑ r : Fin 5000, rowOf a b (5000 * s + r.val) j
      = colSum a b (ix2 (0 : Fin 1) j) := by
  rw [zero_add, regroup (fun m => rowOf a b m j)]
  show _ = ∑ n : Fin 100000, (a (ix2 n j) + b (ix2 (0 : Fin 1) j))
  exact Finset.sum_congr rfl fun n _ => rowOf_pos a b n.val j n.isLt

theorem sum_rowOf_sq (a : S100000x128.Idx → EReal) (b : S1x128.Idx → EReal) (j : Fin 128) :
    0 + ∑ s ∈ Finset.range 20, ∑ r : Fin 5000, rowOf a b (5000 * s + r.val) j * rowOf a b (5000 * s + r.val) j
      = colSq a b (ix2 (0 : Fin 1) j) := by
  rw [zero_add, regroup (fun m => rowOf a b m j * rowOf a b m j)]
  show _ = ∑ n : Fin 100000, (a (ix2 n j) + b (ix2 (0 : Fin 1) j)) * (a (ix2 n j) + b (ix2 (0 : Fin 1) j))
  refine Finset.sum_congr rfl fun n _ => ?_
  rw [rowOf_pos a b n.val j n.isLt]

/-! ## Region 1 -/

/-- The zero rows the first point stores. -/
theorem pay1_1_apply (j : Fin 128) : (k1_pay1 (F := Ideal)) (ix2 (0 : Fin 1) j) = 0 := Ideal.ofBits_zero_f32
theorem pay1_2_apply (j : Fin 128) : (k1_pay2 (F := Ideal)) (ix2 (0 : Fin 1) j) = 0 := Ideal.ofBits_zero_f32

/-- A block's row plus the bias row, at an entry. -/
theorem pay1_3_apply (x0 : Vec Ideal S5000x128 .f32) (x1 : Vec Ideal S1x128 .f32) (r : Fin 5000) (j : Fin 128) :
    k1_pay3 x0 x1 (ix2 r j) = x0 (ix2 r j) + x1 (ix2 (0 : Fin 1) j) := by
  unfold k1_pay3
  simp only [addf_apply, shapeCast_self, bcast_row]

/-- The running sums after a point: what was there plus the block's column sum. -/
theorem pay1_4_apply (x0 : Vec Ideal S5000x128 .f32) (x1 acc : Vec Ideal S1x128 .f32) (j : Fin 128) :
    k1_pay4 x0 x1 acc (ix2 (0 : Fin 1) j)
      = acc (ix2 (0 : Fin 1) j) + ∑ r : Fin 5000, (x0 (ix2 r j) + x1 (ix2 (0 : Fin 1) j)) := by
  unfold k1_pay4
  dsimp only
  refine (addf_apply _ _ _).trans ?_
  refine congrArg₂ (· + ·) (congrFun (shapeCast_self acc _) _) ?_
  refine (row_of_vec _ _ j).trans ?_
  refine (colsum _ _ _ _ j).trans ?_
  exact Finset.sum_congr rfl fun r _ => pay1_3_apply x0 x1 r j

/-- The running sums of squares after a point. -/
theorem pay1_5_apply (x0 : Vec Ideal S5000x128 .f32) (x1 acc : Vec Ideal S1x128 .f32) (j : Fin 128) :
    k1_pay5 x0 x1 acc (ix2 (0 : Fin 1) j)
      = acc (ix2 (0 : Fin 1) j) + ∑ r : Fin 5000, (x0 (ix2 r j) + x1 (ix2 (0 : Fin 1) j)) * (x0 (ix2 r j) + x1 (ix2 (0 : Fin 1) j)) := by
  unfold k1_pay5
  dsimp only
  refine (addf_apply _ _ _).trans ?_
  refine congrArg₂ (· + ·) (congrFun (shapeCast_self acc _) _) ?_
  refine (row_of_vec _ _ j).trans ?_
  refine (colsum _ _ _ _ j).trans ?_
  refine Finset.sum_congr rfl fun r _ => ?_
  refine (mulf_apply _ _ _).trans ?_
  rw [pay1_3_apply]

/-- The printed index maps of region 1, decided over the twenty grid points: the big input moves block by block,
    the bias row and the two outputs never move. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0)

/-- Point `t`'s block of the big array at row `r` of the block is row `5000 t + r` of the array. -/
theorem blk1_big (c : Dev nD) (t : Fin cfg1.N) (r : Fin 5000) (j : Fin 128) (hlt : 5000 * t.val + r.val < 100000) :
    (iblk1 V c 0 t : Vec Ideal S5000x128 .f32) (ix2 r j) = V c main_v43 (ix2 (⟨5000 * t.val + r.val, hlt⟩ : Fin 100000) j) := by
  obtain ⟨e00, e01, -⟩ := idx1 t
  show V c main_v43 (((cfg1.win 0).blk t).view.emb (ix2 r j)) = _
  refine congrArg (V c main_v43) ?_
  funext a; apply Fin.ext
  match a with
  | ⟨0, _⟩ => show win1_0.index t (0 : Fin 2) * 5000 + 1 * r.val = 5000 * t.val + r.val; omega
  | ⟨1, _⟩ => show win1_0.index t (1 : Fin 2) * 128 + 1 * j.val = j.val; omega

/-- The bias row's one block is the row. -/
theorem blk1_bias (c : Dev nD) (t : Fin cfg1.N) (j : Fin 128) :
    (iblk1 V c 1 t : Vec Ideal S1x128 .f32) (ix2 (0 : Fin 1) j) = V c main_v44 (ix2 (0 : Fin 1) j) := by
  obtain ⟨-, -, e10, e11, -⟩ := idx1 t
  show V c main_v44 (((cfg1.win 1).blk t).view.emb (ix2 (0 : Fin 1) j)) = _
  refine congrArg (V c main_v44) ?_
  funext a; apply Fin.ext
  match a with
  | ⟨0, _⟩ => show win1_1.index t (0 : Fin 2) * 1 + 1 * 0 = 0; omega
  | ⟨1, _⟩ => show win1_1.index t (1 : Fin 2) * 128 + 1 * j.val = j.val; omega

/-- So a block's row plus the bias row is the array's row plus the bias row. -/
theorem blk1_row (c : Dev nD) (t : Fin cfg1.N) (r : Fin 5000) (j : Fin 128)
    (x0 : Vec Ideal S5000x128 .f32) (x1 : Vec Ideal S1x128 .f32) (hx0 : x0 = iblk1 V c 0 t) (hx1 : x1 = iblk1 V c 1 t) :
    x0 (ix2 r j) + x1 (ix2 (0 : Fin 1) j) = rowOf (V c main_v43) (V c main_v44) (5000 * t.val + r.val) j := by
  subst hx0 hx1
  have hN : t.val < 20 := lt_of_lt_of_eq t.isLt (show cfg1.N = 20 from N_1)
  have hlt : 5000 * t.val + r.val < 100000 := by have := r.isLt; omega
  rw [rowOf_pos _ _ _ _ hlt]
  exact congrArg₂ (fun (p q : EReal) => p + q) (blk1_big V c t r j hlt) (blk1_bias V c t j)

/-- Block `s`'s column sum, and its column sum of squares. -/
def blkS1 (c : Dev nD) (s : ℕ) (j : Fin 128) : EReal :=
  ∑ r : Fin 5000, rowOf (V c main_v43) (V c main_v44) (5000 * s + r.val) j
def blkQ1 (c : Dev nD) (s : ℕ) (j : Fin 128) : EReal :=
  ∑ r : Fin 5000, rowOf (V c main_v43) (V c main_v44) (5000 * s + r.val) j * rowOf (V c main_v43) (V c main_v44) (5000 * s + r.val) j

/-- At the first point the outputs are zeroed and the block's column sums added. -/
theorem step1_A (c : Dev nD) (t : Fin cfg1.N) (h0 : t.val % 20 = 0) (j : Fin 128) :
    (outsAt1 V c t.val t.isLt).1 (ix2 (0 : Fin 1) j) = 0 + blkS1 V c t.val j
    ∧ (outsAt1 V c t.val t.isLt).2 (ix2 (0 : Fin 1) j) = 0 + blkQ1 V c t.val j := by
  rw [outsAt1_A V c t h0]
  dsimp only
  rw [out1_A_2_eq (F := Ideal) c (grid1.coords t) (ms1_0 t) (hs1_0 t) (ms1_1 t) (hs1_1 t) (ms1_2 t) (hs1_2 t) (ms1_3 t) (hs1_3 t) ((hcond1_0 t).mpr h0) (iblk1 V c 0 t) (iblk1 V c 1 t),
    out1_A_3_eq (F := Ideal) c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)]
  constructor
  · refine (pay1_4_apply (iblk1 V c 0 t) (iblk1 V c 1 t) (k1_pay1 (F := Ideal)) j).trans ?_
    refine congrArg₂ (· + ·) (pay1_1_apply j) ?_
    exact Finset.sum_congr rfl fun r _ => blk1_row V c t r j (iblk1 V c 0 t) (iblk1 V c 1 t) rfl rfl
  · refine (pay1_5_apply (iblk1 V c 0 t) (iblk1 V c 1 t) (k1_pay2 (F := Ideal)) j).trans ?_
    refine congrArg₂ (· + ·) (pay1_2_apply j) ?_
    refine Finset.sum_congr rfl fun r _ => ?_
    rw [blk1_row V c t r j (iblk1 V c 0 t) (iblk1 V c 1 t) rfl rfl]

/-- At every later point the block's column sums are added to what the point before left. -/
theorem step1_B (c : Dev nD) (t : Fin cfg1.N) (h0 : ¬t.val % 20 = 0) (j : Fin 128) :
    (outsAt1 V c t.val t.isLt).1 (ix2 (0 : Fin 1) j)
      = (outsAt1 V c (t.val - 1) (Nat.lt_of_le_of_lt (Nat.sub_le _ _) t.isLt)).1 (ix2 (0 : Fin 1) j) + blkS1 V c t.val j
    ∧ (outsAt1 V c t.val t.isLt).2 (ix2 (0 : Fin 1) j)
      = (outsAt1 V c (t.val - 1) (Nat.lt_of_le_of_lt (Nat.sub_le _ _) t.isLt)).2 (ix2 (0 : Fin 1) j) + blkQ1 V c t.val j := by
  rw [outsAt1_B V c t h0]
  dsimp only
  rw [out1_B_2_eq (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2,
    out1_B_3_eq (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2]
  constructor
  · refine (pay1_4_apply (iblk1 V c 0 t) (iblk1 V c 1 t) (outsAt1 V c (t.val - 1) (Nat.lt_of_le_of_lt (Nat.sub_le _ _) t.isLt)).1 j).trans ?_
    refine congrArg₂ (· + ·) rfl ?_
    exact Finset.sum_congr rfl fun r _ => blk1_row V c t r j (iblk1 V c 0 t) (iblk1 V c 1 t) rfl rfl
  · refine (pay1_5_apply (iblk1 V c 0 t) (iblk1 V c 1 t) (outsAt1 V c (t.val - 1) (Nat.lt_of_le_of_lt (Nat.sub_le _ _) t.isLt)).2 j).trans ?_
    refine congrArg₂ (· + ·) rfl ?_
    refine Finset.sum_congr rfl fun r _ => ?_
    rw [blk1_row V c t r j (iblk1 V c 0 t) (iblk1 V c 1 t) rfl rfl]

/-- After point `n` the outputs hold zero plus the column sums of blocks 0 … n: by induction on the point. -/
theorem acc1_eq (c : Dev nD) : ∀ (n : ℕ) (h : n < cfg1.N) (j : Fin 128),
    (outsAt1 V c n h).1 (ix2 (0 : Fin 1) j) = 0 + ∑ s ∈ Finset.range (n + 1), blkS1 V c s j
    ∧ (outsAt1 V c n h).2 (ix2 (0 : Fin 1) j) = 0 + ∑ s ∈ Finset.range (n + 1), blkQ1 V c s j
  | 0, h, j => by
    obtain ⟨s1, s2⟩ := step1_A V c ⟨0, h⟩ rfl j
    rw [Finset.sum_range_one, Finset.sum_range_one]
    exact ⟨s1, s2⟩
  | n + 1, h, j => by
    have hN : cfg1.N = 20 := N_1
    have hB : ¬(⟨n + 1, h⟩ : Fin cfg1.N).val % 20 = 0 := by dsimp only; omega
    obtain ⟨s1, s2⟩ := step1_B V c ⟨n + 1, h⟩ hB j
    obtain ⟨i1, i2⟩ := acc1_eq c n (Nat.lt_of_succ_lt h) j
    rw [Finset.sum_range_succ _ (n + 1), Finset.sum_range_succ _ (n + 1), ← add_assoc, ← add_assoc, ← i1, ← i2]
    exact ⟨s1, s2⟩

/-- The last point. -/
abbrev t1_19 : Fin cfg1.N := ⟨19, by rw [show cfg1.N = 20 from N_1]; decide⟩

/-- The one write-back of each output, at the last point, writes the whole array's column sums. -/

theorem flushed1_2_eq (c : Dev nD) (t : Fin cfg1.N) (hf : (cfg1.win 2).flush t = true) :
    (dat1 V c).flushed 2 t = ((cfg1.win 2).blk t).view.read (Elt Ideal) (colSum (V c main_v43) (V c main_v44)) := by
  have hN : cfg1.N = 20 := N_1
  have h19 : t.val = 19 := by have := (flush1_2 t).mp hf; have := t.isLt; omega
  obtain ⟨-, -, -, -, e20, e21, -⟩ := idx1 t
  show (cfg1.win 2).cut (grid1.coords t) ((dat1 V c).after 2 t) = _
  rw [after1_2]
  have hacc : ∀ j : Fin 128, (outsAt1 V c t.val t.isLt).1 (ix2 (0 : Fin 1) j) = colSum (V c main_v43) (V c main_v44) (ix2 (0 : Fin 1) j) := fun j => by
    refine ((acc1_eq V c t.val t.isLt j).1).trans ?_
    rw [h19]
    exact sum_rowOf (V c main_v43) (V c main_v44) j
  generalize (outsAt1 V c t.val t.isLt).1 = X at hacc ⊢
  generalize colSum (V c main_v43) (V c main_v44) = G at hacc ⊢
  refine funext fun (y : S1x128.Idx) => ?_
  obtain ⟨z, j, rfl⟩ : ∃ (z : Fin 1) (j : Fin 128), y = ix2 z j := ⟨y 0, y 1, eq_ix2 y⟩
  obtain rfl : z = 0 := Subsingleton.elim _ _
  have hemb : ((cfg1.win 2).blk t).view.emb (ix2 (0 : Fin 1) j) = ix2 (0 : Fin 1) j := by
    funext a; apply Fin.ext
    match a with
    | ⟨0, _⟩ => show win1_2.index t (0 : Fin 2) * 1 + 1 * 0 = 0; omega
    | ⟨1, _⟩ => show win1_2.index t (1 : Fin 2) * 128 + 1 * j.val = j.val; omega
  show X (ix2 (0 : Fin 1) j) = G (((cfg1.win 2).blk t).view.emb (ix2 (0 : Fin 1) j))
  rw [hemb]
  exact hacc j

theorem flushed1_3_eq (c : Dev nD) (t : Fin cfg1.N) (hf : (cfg1.win 3).flush t = true) :
    (dat1 V c).flushed 3 t = ((cfg1.win 3).blk t).view.read (Elt Ideal) (colSq (V c main_v43) (V c main_v44)) := by
  have hN : cfg1.N = 20 := N_1
  have h19 : t.val = 19 := by have := (flush1_3 t).mp hf; have := t.isLt; omega
  obtain ⟨-, -, -, -, -, -, e30, e31⟩ := idx1 t
  show (cfg1.win 3).cut (grid1.coords t) ((dat1 V c).after 3 t) = _
  rw [after1_3]
  have hacc : ∀ j : Fin 128, (outsAt1 V c t.val t.isLt).2 (ix2 (0 : Fin 1) j) = colSq (V c main_v43) (V c main_v44) (ix2 (0 : Fin 1) j) := fun j => by
    refine ((acc1_eq V c t.val t.isLt j).2).trans ?_
    rw [h19]
    exact sum_rowOf_sq (V c main_v43) (V c main_v44) j
  generalize (outsAt1 V c t.val t.isLt).2 = X at hacc ⊢
  generalize colSq (V c main_v43) (V c main_v44) = G at hacc ⊢
  refine funext fun (y : S1x128.Idx) => ?_
  obtain ⟨z, j, rfl⟩ : ∃ (z : Fin 1) (j : Fin 128), y = ix2 z j := ⟨y 0, y 1, eq_ix2 y⟩
  obtain rfl : z = 0 := Subsingleton.elim _ _
  have hemb : ((cfg1.win 3).blk t).view.emb (ix2 (0 : Fin 1) j) = ix2 (0 : Fin 1) j := by
    funext a; apply Fin.ext
    match a with
    | ⟨0, _⟩ => show win1_3.index t (0 : Fin 2) * 1 + 1 * 0 = 0; omega
    | ⟨1, _⟩ => show win1_3.index t (1 : Fin 2) * 128 + 1 * j.val = j.val; omega
  show X (ix2 (0 : Fin 1) j) = G (((cfg1.win 3).blk t).view.emb (ix2 (0 : Fin 1) j))
  rw [hemb]
  exact hacc j

/-- The last point's block of either output is its whole [1,128] array. -/

theorem cover1_2 (i : S1x128.Idx) :
    ∃ t : Fin cfg1.N, (cfg1.win 2).flush t = true ∧ i ∈ ((cfg1.win 2).blk t).view.set := by
  obtain ⟨-, -, -, -, e20, e21, -⟩ := idx1 t1_19
  have hi0 : (i 0).val < 1 := (i 0).isLt
  have hi1 : (i 1).val < 128 := (i 1).isLt
  refine ⟨t1_19, (flush1_2 t1_19).mpr rfl, ?_⟩
  show i ∈ ((View.whole main_v45_0).slice (win1_2.rect t1_19)).set
  rw [View.set_slice_whole, Rect.mem_set_unit]
  intro a
  match a with
  | ⟨0, _⟩ => show win1_2.index t1_19 (0 : Fin 2) * 1 ≤ (i 0).val ∧ (i 0).val < win1_2.index t1_19 (0 : Fin 2) * 1 + 1; omega
  | ⟨1, _⟩ => show win1_2.index t1_19 (1 : Fin 2) * 128 ≤ (i 1).val ∧ (i 1).val < win1_2.index t1_19 (1 : Fin 2) * 128 + 128; omega

theorem cover1_3 (i : S1x128.Idx) :
    ∃ t : Fin cfg1.N, (cfg1.win 3).flush t = true ∧ i ∈ ((cfg1.win 3).blk t).view.set := by
  obtain ⟨-, -, -, -, -, -, e30, e31⟩ := idx1 t1_19
  have hi0 : (i 0).val < 1 := (i 0).isLt
  have hi1 : (i 1).val < 128 := (i 1).isLt
  refine ⟨t1_19, (flush1_3 t1_19).mpr rfl, ?_⟩
  show i ∈ ((View.whole main_v45_1).slice (win1_3.rect t1_19)).set
  rw [View.set_slice_whole, Rect.mem_set_unit]
  intro a
  match a with
  | ⟨0, _⟩ => show win1_3.index t1_19 (0 : Fin 2) * 1 ≤ (i 0).val ∧ (i 0).val < win1_3.index t1_19 (0 : Fin 2) * 1 + 1; omega
  | ⟨1, _⟩ => show win1_3.index t1_19 (1 : Fin 2) * 128 ≤ (i 1).val ∧ (i 1).val < win1_3.index t1_19 (1 : Fin 2) * 128 + 128; omega

/-- The two output arrays after region 1. -/
theorem final1_sum_arr (c : Dev nD) : (dat1 V c).arrAt 2 cfg1.N = colSum (V c main_v43) (V c main_v44) :=
  (dat1 V c).arrAt_eq_of_cover 2 (colSum (V c main_v43) (V c main_v44)) (flushed1_2_eq V c) cover1_2
theorem final1_sq_arr (c : Dev nD) : (dat1 V c).arrAt 3 cfg1.N = colSq (V c main_v43) (V c main_v44) :=
  (dat1 V c).arrAt_eq_of_cover 3 (colSq (V c main_v43) (V c main_v44)) (flushed1_3_eq V c) cover1_3

/-- The sums after region 1, column by column. -/
theorem final1_sum (c : Dev nD) (j : Fin 128) :
    ((dat1 V c).arrAt 2 cfg1.N : S1x128.Idx → EReal) (ix2 (0 : Fin 1) j) = colSum (V c main_v43) (V c main_v44) (ix2 (0 : Fin 1) j) :=
  congrFun (final1_sum_arr V c) (ix2 (0 : Fin 1) j)

/-- The sums of squares after region 1, column by column. -/
theorem final1_sq (c : Dev nD) (j : Fin 128) :
    ((dat1 V c).arrAt 3 cfg1.N : S1x128.Idx → EReal) (ix2 (0 : Fin 1) j) = colSq (V c main_v43) (V c main_v44) (ix2 (0 : Fin 1) j) :=
  congrFun (final1_sq_arr V c) (ix2 (0 : Fin 1) j)

/-! ## Region 4 -/

/-- The zero rows the first point stores. -/
theorem pay4_1_apply (j : Fin 128) : (k4_pay1 (F := Ideal)) (ix2 (0 : Fin 1) j) = 0 := Ideal.ofBits_zero_f32
theorem pay4_2_apply (j : Fin 128) : (k4_pay2 (F := Ideal)) (ix2 (0 : Fin 1) j) = 0 := Ideal.ofBits_zero_f32

/-- A block's row plus the bias row, at an entry. -/
theorem pay4_3_apply (x0 : Vec Ideal S5000x128 .f32) (x1 : Vec Ideal S1x128 .f32) (r : Fin 5000) (j : Fin 128) :
    k4_pay3 x0 x1 (ix2 r j) = x0 (ix2 r j) + x1 (ix2 (0 : Fin 1) j) := by
  unfold k4_pay3
  simp only [addf_apply, shapeCast_self, bcast_row]

/-- The running sums after a point: what was there plus the block's column sum. -/
theorem pay4_4_apply (x0 : Vec Ideal S5000x128 .f32) (x1 acc : Vec Ideal S1x128 .f32) (j : Fin 128) :
    k4_pay4 x0 x1 acc (ix2 (0 : Fin 1) j)
      = acc (ix2 (0 : Fin 1) j) + ∑ r : Fin 5000, (x0 (ix2 r j) + x1 (ix2 (0 : Fin 1) j)) := by
  unfold k4_pay4
  dsimp only
  refine (addf_apply _ _ _).trans ?_
  refine congrArg₂ (· + ·) (congrFun (shapeCast_self acc _) _) ?_
  refine (row_of_vec _ _ j).trans ?_
  refine (colsum _ _ _ _ j).trans ?_
  exact Finset.sum_congr rfl fun r _ => pay4_3_apply x0 x1 r j

/-- The running sums of squares after a point. -/
theorem pay4_5_apply (x0 : Vec Ideal S5000x128 .f32) (x1 acc : Vec Ideal S1x128 .f32) (j : Fin 128) :
    k4_pay5 x0 x1 acc (ix2 (0 : Fin 1) j)
      = acc (ix2 (0 : Fin 1) j) + ∑ r : Fin 5000, (x0 (ix2 r j) + x1 (ix2 (0 : Fin 1) j)) * (x0 (ix2 r j) + x1 (ix2 (0 : Fin 1) j)) := by
  unfold k4_pay5
  dsimp only
  refine (addf_apply _ _ _).trans ?_
  refine congrArg₂ (· + ·) (congrFun (shapeCast_self acc _) _) ?_
  refine (row_of_vec _ _ j).trans ?_
  refine (colsum _ _ _ _ j).trans ?_
  refine Finset.sum_congr rfl fun r _ => ?_
  refine (mulf_apply _ _ _).trans ?_
  rw [pay4_3_apply]

/-- The printed index maps of region 4, decided over the twenty grid points: the big input moves block by block,
    the bias row and the two outputs never move. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0)

/-- Point `t`'s block of the big array at row `r` of the block is row `5000 t + r` of the array. -/
theorem blk4_big (c : Dev nD) (t : Fin cfg4.N) (r : Fin 5000) (j : Fin 128) (hlt : 5000 * t.val + r.val < 100000) :
    (iblk4 V c 0 t : Vec Ideal S5000x128 .f32) (ix2 r j) = V c main_v72 (ix2 (⟨5000 * t.val + r.val, hlt⟩ : Fin 100000) j) := by
  obtain ⟨e00, e01, -⟩ := idx4 t
  show V c main_v72 (((cfg4.win 0).blk t).view.emb (ix2 r j)) = _
  refine congrArg (V c main_v72) ?_
  funext a; apply Fin.ext
  match a with
  | ⟨0, _⟩ => show win4_0.index t (0 : Fin 2) * 5000 + 1 * r.val = 5000 * t.val + r.val; omega
  | ⟨1, _⟩ => show win4_0.index t (1 : Fin 2) * 128 + 1 * j.val = j.val; omega

/-- The bias row's one block is the row. -/
theorem blk4_bias (c : Dev nD) (t : Fin cfg4.N) (j : Fin 128) :
    (iblk4 V c 1 t : Vec Ideal S1x128 .f32) (ix2 (0 : Fin 1) j) = V c main_v73 (ix2 (0 : Fin 1) j) := by
  obtain ⟨-, -, e10, e11, -⟩ := idx4 t
  show V c main_v73 (((cfg4.win 1).blk t).view.emb (ix2 (0 : Fin 1) j)) = _
  refine congrArg (V c main_v73) ?_
  funext a; apply Fin.ext
  match a with
  | ⟨0, _⟩ => show win4_1.index t (0 : Fin 2) * 1 + 1 * 0 = 0; omega
  | ⟨1, _⟩ => show win4_1.index t (1 : Fin 2) * 128 + 1 * j.val = j.val; omega

/-- So a block's row plus the bias row is the array's row plus the bias row. -/
theorem blk4_row (c : Dev nD) (t : Fin cfg4.N) (r : Fin 5000) (j : Fin 128)
    (x0 : Vec Ideal S5000x128 .f32) (x1 : Vec Ideal S1x128 .f32) (hx0 : x0 = iblk4 V c 0 t) (hx1 : x1 = iblk4 V c 1 t) :
    x0 (ix2 r j) + x1 (ix2 (0 : Fin 1) j) = rowOf (V c main_v72) (V c main_v73) (5000 * t.val + r.val) j := by
  subst hx0 hx1
  have hN : t.val < 20 := lt_of_lt_of_eq t.isLt (show cfg4.N = 20 from N_4)
  have hlt : 5000 * t.val + r.val < 100000 := by have := r.isLt; omega
  rw [rowOf_pos _ _ _ _ hlt]
  exact congrArg₂ (fun (p q : EReal) => p + q) (blk4_big V c t r j hlt) (blk4_bias V c t j)

/-- Block `s`'s column sum, and its column sum of squares. -/
def blkS4 (c : Dev nD) (s : ℕ) (j : Fin 128) : EReal :=
  ∑ r : Fin 5000, rowOf (V c main_v72) (V c main_v73) (5000 * s + r.val) j
def blkQ4 (c : Dev nD) (s : ℕ) (j : Fin 128) : EReal :=
  ∑ r : Fin 5000, rowOf (V c main_v72) (V c main_v73) (5000 * s + r.val) j * rowOf (V c main_v72) (V c main_v73) (5000 * s + r.val) j

/-- At the first point the outputs are zeroed and the block's column sums added. -/
theorem step4_A (c : Dev nD) (t : Fin cfg4.N) (h0 : t.val % 20 = 0) (j : Fin 128) :
    (outsAt4 V c t.val t.isLt).1 (ix2 (0 : Fin 1) j) = 0 + blkS4 V c t.val j
    ∧ (outsAt4 V c t.val t.isLt).2 (ix2 (0 : Fin 1) j) = 0 + blkQ4 V c t.val j := by
  rw [outsAt4_A V c t h0]
  dsimp only
  rw [out4_A_2_eq (F := Ideal) c (grid4.coords t) (ms4_0 t) (hs4_0 t) (ms4_1 t) (hs4_1 t) (ms4_2 t) (hs4_2 t) (ms4_3 t) (hs4_3 t) ((hcond4_0 t).mpr h0) (iblk4 V c 0 t) (iblk4 V c 1 t),
    out4_A_3_eq (F := Ideal) c (grid4.coords t) (ms4_0 t) (hs4_0 t) (ms4_1 t) (hs4_1 t) (ms4_2 t) (hs4_2 t) (ms4_3 t) (hs4_3 t) ((hcond4_0 t).mpr h0) (iblk4 V c 0 t) (iblk4 V c 1 t)]
  constructor
  · refine (pay4_4_apply (iblk4 V c 0 t) (iblk4 V c 1 t) (k4_pay1 (F := Ideal)) j).trans ?_
    refine congrArg₂ (· + ·) (pay4_1_apply j) ?_
    exact Finset.sum_congr rfl fun r _ => blk4_row V c t r j (iblk4 V c 0 t) (iblk4 V c 1 t) rfl rfl
  · refine (pay4_5_apply (iblk4 V c 0 t) (iblk4 V c 1 t) (k4_pay2 (F := Ideal)) j).trans ?_
    refine congrArg₂ (· + ·) (pay4_2_apply j) ?_
    refine Finset.sum_congr rfl fun r _ => ?_
    rw [blk4_row V c t r j (iblk4 V c 0 t) (iblk4 V c 1 t) rfl rfl]

/-- At every later point the block's column sums are added to what the point before left. -/
theorem step4_B (c : Dev nD) (t : Fin cfg4.N) (h0 : ¬t.val % 20 = 0) (j : Fin 128) :
    (outsAt4 V c t.val t.isLt).1 (ix2 (0 : Fin 1) j)
      = (outsAt4 V c (t.val - 1) (Nat.lt_of_le_of_lt (Nat.sub_le _ _) t.isLt)).1 (ix2 (0 : Fin 1) j) + blkS4 V c t.val j
    ∧ (outsAt4 V c t.val t.isLt).2 (ix2 (0 : Fin 1) j)
      = (outsAt4 V c (t.val - 1) (Nat.lt_of_le_of_lt (Nat.sub_le _ _) t.isLt)).2 (ix2 (0 : Fin 1) j) + blkQ4 V c t.val j := by
  rw [outsAt4_B V c t h0]
  dsimp only
  rw [out4_B_2_eq (F := Ideal) c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2,
    out4_B_3_eq (F := Ideal) c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (outsAt4 V c (t.val - 1) (Nat.lt_of_le_of_lt (Nat.sub_le _ _) t.isLt)).1 (outsAt4 V c (t.val - 1) (Nat.lt_of_le_of_lt (Nat.sub_le _ _) t.isLt)).2]
  constructor
  · refine (pay4_4_apply (iblk4 V c 0 t) (iblk4 V c 1 t) (outsAt4 V c (t.val - 1) (Nat.lt_of_le_of_lt (Nat.sub_le _ _) t.isLt)).1 j).trans ?_
    refine congrArg₂ (· + ·) rfl ?_
    exact Finset.sum_congr rfl fun r _ => blk4_row V c t r j (iblk4 V c 0 t) (iblk4 V c 1 t) rfl rfl
  · refine (pay4_5_apply (iblk4 V c 0 t) (iblk4 V c 1 t) (outsAt4 V c (t.val - 1) (Nat.lt_of_le_of_lt (Nat.sub_le _ _) t.isLt)).2 j).trans ?_
    refine congrArg₂ (· + ·) rfl ?_
    refine Finset.sum_congr rfl fun r _ => ?_
    rw [blk4_row V c t r j (iblk4 V c 0 t) (iblk4 V c 1 t) rfl rfl]

/-- After point `n` the outputs hold zero plus the column sums of blocks 0 … n: by induction on the point. -/
theorem acc4_eq (c : Dev nD) : ∀ (n : ℕ) (h : n < cfg4.N) (j : Fin 128),
    (outsAt4 V c n h).1 (ix2 (0 : Fin 1) j) = 0 + ∑ s ∈ Finset.range (n + 1), blkS4 V c s j
    ∧ (outsAt4 V c n h).2 (ix2 (0 : Fin 1) j) = 0 + ∑ s ∈ Finset.range (n + 1), blkQ4 V c s j
  | 0, h, j => by
    obtain ⟨s1, s2⟩ := step4_A V c ⟨0, h⟩ rfl j
    rw [Finset.sum_range_one, Finset.sum_range_one]
    exact ⟨s1, s2⟩
  | n + 1, h, j => by
    have hN : cfg4.N = 20 := N_4
    have hB : ¬(⟨n + 1, h⟩ : Fin cfg4.N).val % 20 = 0 := by dsimp only; omega
    obtain ⟨s1, s2⟩ := step4_B V c ⟨n + 1, h⟩ hB j
    obtain ⟨i1, i2⟩ := acc4_eq c n (Nat.lt_of_succ_lt h) j
    rw [Finset.sum_range_succ _ (n + 1), Finset.sum_range_succ _ (n + 1), ← add_assoc, ← add_assoc, ← i1, ← i2]
    exact ⟨s1, s2⟩

/-- The last point. -/
abbrev t4_19 : Fin cfg4.N := ⟨19, by rw [show cfg4.N = 20 from N_4]; decide⟩

/-- The one write-back of each output, at the last point, writes the whole array's column sums. -/

theorem flushed4_2_eq (c : Dev nD) (t : Fin cfg4.N) (hf : (cfg4.win 2).flush t = true) :
    (dat4 V c).flushed 2 t = ((cfg4.win 2).blk t).view.read (Elt Ideal) (colSum (V c main_v72) (V c main_v73)) := by
  have hN : cfg4.N = 20 := N_4
  have h19 : t.val = 19 := by have := (flush4_2 t).mp hf; have := t.isLt; omega
  obtain ⟨-, -, -, -, e20, e21, -⟩ := idx4 t
  show (cfg4.win 2).cut (grid4.coords t) ((dat4 V c).after 2 t) = _
  rw [after4_2]
  have hacc : ∀ j : Fin 128, (outsAt4 V c t.val t.isLt).1 (ix2 (0 : Fin 1) j) = colSum (V c main_v72) (V c main_v73) (ix2 (0 : Fin 1) j) := fun j => by
    refine ((acc4_eq V c t.val t.isLt j).1).trans ?_
    rw [h19]
    exact sum_rowOf (V c main_v72) (V c main_v73) j
  generalize (outsAt4 V c t.val t.isLt).1 = X at hacc ⊢
  generalize colSum (V c main_v72) (V c main_v73) = G at hacc ⊢
  refine funext fun (y : S1x128.Idx) => ?_
  obtain ⟨z, j, rfl⟩ : ∃ (z : Fin 1) (j : Fin 128), y = ix2 z j := ⟨y 0, y 1, eq_ix2 y⟩
  obtain rfl : z = 0 := Subsingleton.elim _ _
  have hemb : ((cfg4.win 2).blk t).view.emb (ix2 (0 : Fin 1) j) = ix2 (0 : Fin 1) j := by
    funext a; apply Fin.ext
    match a with
    | ⟨0, _⟩ => show win4_2.index t (0 : Fin 2) * 1 + 1 * 0 = 0; omega
    | ⟨1, _⟩ => show win4_2.index t (1 : Fin 2) * 128 + 1 * j.val = j.val; omega
  show X (ix2 (0 : Fin 1) j) = G (((cfg4.win 2).blk t).view.emb (ix2 (0 : Fin 1) j))
  rw [hemb]
  exact hacc j

theorem flushed4_3_eq (c : Dev nD) (t : Fin cfg4.N) (hf : (cfg4.win 3).flush t = true) :
    (dat4 V c).flushed 3 t = ((cfg4.win 3).blk t).view.read (Elt Ideal) (colSq (V c main_v72) (V c main_v73)) := by
  have hN : cfg4.N = 20 := N_4
  have h19 : t.val = 19 := by have := (flush4_3 t).mp hf; have := t.isLt; omega
  obtain ⟨-, -, -, -, -, -, e30, e31⟩ := idx4 t
  show (cfg4.win 3).cut (grid4.coords t) ((dat4 V c).after 3 t) = _
  rw [after4_3]
  have hacc : ∀ j : Fin 128, (outsAt4 V c t.val t.isLt).2 (ix2 (0 : Fin 1) j) = colSq (V c main_v72) (V c main_v73) (ix2 (0 : Fin 1) j) := fun j => by
    refine ((acc4_eq V c t.val t.isLt j).2).trans ?_
    rw [h19]
    exact sum_rowOf_sq (V c main_v72) (V c main_v73) j
  generalize (outsAt4 V c t.val t.isLt).2 = X at hacc ⊢
  generalize colSq (V c main_v72) (V c main_v73) = G at hacc ⊢
  refine funext fun (y : S1x128.Idx) => ?_
  obtain ⟨z, j, rfl⟩ : ∃ (z : Fin 1) (j : Fin 128), y = ix2 z j := ⟨y 0, y 1, eq_ix2 y⟩
  obtain rfl : z = 0 := Subsingleton.elim _ _
  have hemb : ((cfg4.win 3).blk t).view.emb (ix2 (0 : Fin 1) j) = ix2 (0 : Fin 1) j := by
    funext a; apply Fin.ext
    match a with
    | ⟨0, _⟩ => show win4_3.index t (0 : Fin 2) * 1 + 1 * 0 = 0; omega
    | ⟨1, _⟩ => show win4_3.index t (1 : Fin 2) * 128 + 1 * j.val = j.val; omega
  show X (ix2 (0 : Fin 1) j) = G (((cfg4.win 3).blk t).view.emb (ix2 (0 : Fin 1) j))
  rw [hemb]
  exact hacc j

/-- The last point's block of either output is its whole [1,128] array. -/

theorem cover4_2 (i : S1x128.Idx) :
    ∃ t : Fin cfg4.N, (cfg4.win 2).flush t = true ∧ i ∈ ((cfg4.win 2).blk t).view.set := by
  obtain ⟨-, -, -, -, e20, e21, -⟩ := idx4 t4_19
  have hi0 : (i 0).val < 1 := (i 0).isLt
  have hi1 : (i 1).val < 128 := (i 1).isLt
  refine ⟨t4_19, (flush4_2 t4_19).mpr rfl, ?_⟩
  show i ∈ ((View.whole main_v74_0).slice (win4_2.rect t4_19)).set
  rw [View.set_slice_whole, Rect.mem_set_unit]
  intro a
  match a with
  | ⟨0, _⟩ => show win4_2.index t4_19 (0 : Fin 2) * 1 ≤ (i 0).val ∧ (i 0).val < win4_2.index t4_19 (0 : Fin 2) * 1 + 1; omega
  | ⟨1, _⟩ => show win4_2.index t4_19 (1 : Fin 2) * 128 ≤ (i 1).val ∧ (i 1).val < win4_2.index t4_19 (1 : Fin 2) * 128 + 128; omega

theorem cover4_3 (i : S1x128.Idx) :
    ∃ t : Fin cfg4.N, (cfg4.win 3).flush t = true ∧ i ∈ ((cfg4.win 3).blk t).view.set := by
  obtain ⟨-, -, -, -, -, -, e30, e31⟩ := idx4 t4_19
  have hi0 : (i 0).val < 1 := (i 0).isLt
  have hi1 : (i 1).val < 128 := (i 1).isLt
  refine ⟨t4_19, (flush4_3 t4_19).mpr rfl, ?_⟩
  show i ∈ ((View.whole main_v74_1).slice (win4_3.rect t4_19)).set
  rw [View.set_slice_whole, Rect.mem_set_unit]
  intro a
  match a with
  | ⟨0, _⟩ => show win4_3.index t4_19 (0 : Fin 2) * 1 ≤ (i 0).val ∧ (i 0).val < win4_3.index t4_19 (0 : Fin 2) * 1 + 1; omega
  | ⟨1, _⟩ => show win4_3.index t4_19 (1 : Fin 2) * 128 ≤ (i 1).val ∧ (i 1).val < win4_3.index t4_19 (1 : Fin 2) * 128 + 128; omega

/-- The two output arrays after region 4. -/
theorem final4_sum_arr (c : Dev nD) : (dat4 V c).arrAt 2 cfg4.N = colSum (V c main_v72) (V c main_v73) :=
  (dat4 V c).arrAt_eq_of_cover 2 (colSum (V c main_v72) (V c main_v73)) (flushed4_2_eq V c) cover4_2
theorem final4_sq_arr (c : Dev nD) : (dat4 V c).arrAt 3 cfg4.N = colSq (V c main_v72) (V c main_v73) :=
  (dat4 V c).arrAt_eq_of_cover 3 (colSq (V c main_v72) (V c main_v73)) (flushed4_3_eq V c) cover4_3

/-- The sums after region 4, column by column. -/
theorem final4_sum (c : Dev nD) (j : Fin 128) :
    ((dat4 V c).arrAt 2 cfg4.N : S1x128.Idx → EReal) (ix2 (0 : Fin 1) j) = colSum (V c main_v72) (V c main_v73) (ix2 (0 : Fin 1) j) :=
  congrFun (final4_sum_arr V c) (ix2 (0 : Fin 1) j)

/-- The sums of squares after region 4, column by column. -/
theorem final4_sq (c : Dev nD) (j : Fin 128) :
    ((dat4 V c).arrAt 3 cfg4.N : S1x128.Idx → EReal) (ix2 (0 : Fin 1) j) = colSq (V c main_v72) (V c main_v73) (ix2 (0 : Fin 1) j) :=
  congrFun (final4_sq_arr V c) (ix2 (0 : Fin 1) j)

end Cert.KernelIdeal.RegV.Stats

end
-- ==== Proof.KVal.lean ====
/-
  The idealized kernel's result array as one function of its arguments.

  Reading the seven launches' result arrays (each as a function of the arrays it stages) through the host stretches
  between them: the result is the head (product with the last weight column, bias, clamp, logistic) of the second
  layer's output; each layer's output is the column-normalised, scaled, shifted and clamped aggregation of the matrix
  product of the layer's input with its weights — normalised with the variance taken as the mean of the squares minus
  the square of the mean, the means and sums of squares accumulated by the statistics launch over the twenty row blocks.
-/
import proofs.«143779_j10514079941365_1_alg».proof.Proof.KG
import proofs.«143779_j10514079941365_1_alg».proof.Proof.KPoint
import proofs.«143779_j10514079941365_1_alg».proof.Proof.RegMatmul
import proofs.«143779_j10514079941365_1_alg».proof.Proof.RegFinal
import proofs.«143779_j10514079941365_1_alg».proof.Proof.RegNorm
import proofs.«143779_j10514079941365_1_alg».proof.Proof.RegStats
import proofs.«143779_j10514079941365_1_alg».proof.Proof.Layer

set_option maxRecDepth 16384

noncomputable section

namespace Cert.KernelIdeal.KVal

open Cert.KernelIdeal Cert.KernelIdeal.Gen Cert.KernelIdeal.KG Cert.KernelIdeal.RegV
open Idealize.ShloMosaic Idealize.ShloMosaic.TcCoe Idealize.SL.Sem Idealize.ShloMosaic.ValueIdx Cert.GcnSpec

/-- A column sum of rows plus the bias row, read at a column. -/
theorem colSum_at (h : S100000x128.Idx → EReal) (b : S1x128.Idx → EReal) (j : Fin 128) :
    Stats.colSum h b (ix2 (0 : Fin 1) j) = ∑ n : Fin 100000, (h (ix2 n j) + b (ix2 (0 : Fin 1) j)) := rfl
theorem colSq_at (h : S100000x128.Idx → EReal) (b : S1x128.Idx → EReal) (j : Fin 128) :
    Stats.colSq h b (ix2 (0 : Fin 1) j)
      = ∑ n : Fin 100000, (h (ix2 n j) + b (ix2 (0 : Fin 1) j)) * (h (ix2 n j) + b (ix2 (0 : Fin 1) j)) := rfl

/-- A layer as the three launches compute it — the statistics, the host's mean and reciprocal deviation, the
    normalisation — is the layer with the variance as the mean of the squares minus the square of the mean. -/
theorem layer_arr (A : S100000x128.Idx → EReal) (b g be : S128.Idx → EReal) :
    Norm.normArr A (rowOf (F := Ideal) b) (mean (F := Ideal) (Stats.colSum A (rowOf (F := Ideal) b)))
        (inv (F := Ideal) (Stats.colSum A (rowOf (F := Ideal) b)) (Stats.colSq A (rowOf (F := Ideal) b))) (rowOf (F := Ideal) g) (rowOf (F := Ideal) be)
      = layerSq A b g be := by
  funext i
  obtain ⟨n, j, rfl⟩ : ∃ (n : Fin 100000) (j : Fin 128), i = ix2 n j := ⟨i 0, i 1, eq_ix2 i⟩
  have eS : Stats.colSum A (rowOf (F := Ideal) b) (ix2 (0 : Fin 1) j) = ∑ k : Fin 100000, (A (ix2 k j) + b (ix1 j)) := by
    rw [colSum_at, rowOf_at]
  have eQ : Stats.colSq A (rowOf (F := Ideal) b) (ix2 (0 : Fin 1) j)
      = ∑ k : Fin 100000, (A (ix2 k j) + b (ix1 j)) * (A (ix2 k j) + b (ix1 j)) := by
    rw [colSq_at, rowOf_at]
  generalize Stats.colSum A (rowOf (F := Ideal) b) = S at eS ⊢
  generalize Stats.colSq A (rowOf (F := Ideal) b) = Q at eQ ⊢
  show Norm.nrm (A (ix2 n j)) (rowOf (F := Ideal) b (ix2 (0 : Fin 1) j)) (mean (F := Ideal) S (ix2 (0 : Fin 1) j)) (inv (F := Ideal) S Q (ix2 (0 : Fin 1) j))
      (rowOf (F := Ideal) g (ix2 (0 : Fin 1) j)) (rowOf (F := Ideal) be (ix2 (0 : Fin 1) j))
    = bnSq (fun k : Fin 100000 => A (ix2 k j) + b (ix1 j)) nRows bnEps (g (ix1 j)) (be (ix1 j)) (A (ix2 n j) + b (ix1 j))
  rw [rowOf_at, rowOf_at, rowOf_at, mean_at, inv_at, eS, eQ]
  rfl

/-- The last launch's function of whole arrays is the head. -/
theorem head_arr (a : S100000x128.Idx → EReal) (w : S128x1.Idx → EReal) (b : S1.Idx → EReal) :
    Final.G a w (cellOf (F := Ideal) b) = head a w b := by
  funext i
  obtain ⟨n, z, rfl⟩ : ∃ (n : Fin 100000) (z : Fin 1), i = ix2 n z := ⟨i 0, i 1, eq_ix2 i⟩
  obtain rfl : z = 0 := Subsingleton.elim _ _
  show Ideal.logistic (max ((∑ k : Fin 128, a (ix2 n k) * w (ix2 k (0 : Fin 1))) + cellOf (F := Ideal) b (ix2 (0 : Fin 1) (0 : Fin 1))) 0)
    = Ideal.logistic (max ((∑ k : Fin 128, a (ix2 n k) * w (ix2 k (0 : Fin 1))) + b (ix1 (0 : Fin 1))) 0)
  rw [cellOf_at]

/-- The matrix-product launches' function of whole arrays is the product. -/
theorem G_eq_mm (a : S100000x128.Idx → EReal) (w : S128x128.Idx → EReal) : Matmul.G a w = mm a w := rfl

variable (m : (ℓ : Loc nD τ sig) → Buf (Elt Ideal) ℓ) (ρ : Dev nD → PrngReg)

set_option maxHeartbeats 8000000 in
/-- THE KERNEL'S RESULT: the head of the second layer of the first layer of the arguments, both layers aggregating over
    the edge arrays the first three host stretches compute. Each step reads one launch's result array as its function
    of the arrays it stages (the seven region lemmas) and those arrays through the host stretch before the launch. -/
theorem kernel_value (c : Dev nD) :
    W15 m ρ c (Proc.devRef .tc main_v89)
      = head (layerSq (agg (F := Ideal) (W3 m ρ c (Proc.devRef .tc main_v3)) (W3 m ρ c (Proc.devRef .tc main_v6)) (W3 m ρ c (Proc.devRef .tc main_v29)) (mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)))) (m ((c : Thread nD τ).loc main_arg7)) (m ((c : Thread nD τ).loc main_arg8)) (m ((c : Thread nD τ).loc main_arg9))) (m ((c : Thread nD τ).loc main_arg10)) (m ((c : Thread nD τ).loc main_arg11)) := by
  have hP1 : (dat0 (V3 m ρ) c).arrAt 2 cfg0.N = mm (m ((c : Thread nD τ).loc main_arg0)) (m ((c : Thread nD τ).loc main_arg2)) :=
    (Matmul.final0_fun (V3 m ρ) c).trans ((congr (congrArg Matmul.G (V3_arg0 m ρ c)) (V3_arg2 m ρ c)).trans (G_eq_mm _ _))
  have hA1 : V5 m ρ c main_v43 = (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) :=
    (V5_v43 m ρ c).trans (congrArg (agg (F := Ideal) (W3 m ρ c (Proc.devRef .tc main_v3)) (W3 m ρ c (Proc.devRef .tc main_v6)) (W3 m ρ c (Proc.devRef .tc main_v29))) hP1)
  have hS1 : (dat1 (V5 m ρ) c).arrAt 2 cfg1.N = Stats.colSum (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (rowOf (F := Ideal) (m ((c : Thread nD τ).loc main_arg3))) :=
    (Stats.final1_sum_arr (V5 m ρ) c).trans (congr (congrArg Stats.colSum hA1) (V5_v44 m ρ c))
  have hQ1 : (dat1 (V5 m ρ) c).arrAt 3 cfg1.N = Stats.colSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (rowOf (F := Ideal) (m ((c : Thread nD τ).loc main_arg3))) :=
    (Stats.final1_sq_arr (V5 m ρ) c).trans (congr (congrArg Stats.colSq hA1) (V5_v44 m ρ c))
  have e43 : V7 m ρ c main_v43 = (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) := (V7_v43 m ρ c).trans hA1
  have e47 : V7 m ρ c main_v47 = mean (F := Ideal) (Stats.colSum (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (rowOf (F := Ideal) (m ((c : Thread nD τ).loc main_arg3)))) := (V7_v47 m ρ c).trans (congrArg (mean (F := Ideal)) hS1)
  have e54 : V7 m ρ c main_v54 = inv (F := Ideal) (Stats.colSum (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (rowOf (F := Ideal) (m ((c : Thread nD τ).loc main_arg3)))) (Stats.colSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (rowOf (F := Ideal) (m ((c : Thread nD τ).loc main_arg3)))) :=
    (V7_v54 m ρ c).trans (congr (congrArg (inv (F := Ideal)) hS1) hQ1)
  have hH1 : (dat2 (V7 m ρ) c).arrAt 6 cfg2.N = (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) :=
    (Norm.final2_arr (V7 m ρ) c).trans ((congr (congr (congr (congr (congr (congrArg Norm.normArr e43) (V7_v55 m ρ c)) e47) e54)
      (V7_v56 m ρ c)) (V7_v57 m ρ c)).trans (layer_arr _ _ _ _))
  have hP2 : (dat3 (V8 m ρ) c).arrAt 2 cfg3.N = mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)) :=
    (Matmul.final3_fun (V8 m ρ) c).trans ((congr (congrArg Matmul.G ((V8_v58 m ρ c).trans hH1)) (V8_arg6 m ρ c)).trans (G_eq_mm _ _))
  have hA2 : V10 m ρ c main_v72 = (agg (F := Ideal) (W3 m ρ c (Proc.devRef .tc main_v3)) (W3 m ρ c (Proc.devRef .tc main_v6)) (W3 m ρ c (Proc.devRef .tc main_v29)) (mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)))) :=
    (V10_v72 m ρ c).trans (congrArg (agg (F := Ideal) (W3 m ρ c (Proc.devRef .tc main_v3)) (W3 m ρ c (Proc.devRef .tc main_v6)) (W3 m ρ c (Proc.devRef .tc main_v29))) hP2)
  have hS2 : (dat4 (V10 m ρ) c).arrAt 2 cfg4.N = Stats.colSum (agg (F := Ideal) (W3 m ρ c (Proc.devRef .tc main_v3)) (W3 m ρ c (Proc.devRef .tc main_v6)) (W3 m ρ c (Proc.devRef .tc main_v29)) (mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)))) (rowOf (F := Ideal) (m ((c : Thread nD τ).loc main_arg7))) :=
    (Stats.final4_sum_arr (V10 m ρ) c).trans (congr (congrArg Stats.colSum hA2) (V10_v73 m ρ c))
  have hQ2 : (dat4 (V10 m ρ) c).arrAt 3 cfg4.N = Stats.colSq (agg (F := Ideal) (W3 m ρ c (Proc.devRef .tc main_v3)) (W3 m ρ c (Proc.devRef .tc main_v6)) (W3 m ρ c (Proc.devRef .tc main_v29)) (mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)))) (rowOf (F := Ideal) (m ((c : Thread nD τ).loc main_arg7))) :=
    (Stats.final4_sq_arr (V10 m ρ) c).trans (congr (congrArg Stats.colSq hA2) (V10_v73 m ρ c))
  have e72 : V12 m ρ c main_v72 = (agg (F := Ideal) (W3 m ρ c (Proc.devRef .tc main_v3)) (W3 m ρ c (Proc.devRef .tc main_v6)) (W3 m ρ c (Proc.devRef .tc main_v29)) (mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)))) := (V12_v72 m ρ c).trans hA2
  have e76 : V12 m ρ c main_v76 = mean (F := Ideal) (Stats.colSum (agg (F := Ideal) (W3 m ρ c (Proc.devRef .tc main_v3)) (W3 m ρ c (Proc.devRef .tc main_v6)) (W3 m ρ c (Proc.devRef .tc main_v29)) (mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)))) (rowOf (F := Ideal) (m ((c : Thread nD τ).loc main_arg7)))) := (V12_v76 m ρ c).trans (congrArg (mean (F := Ideal)) hS2)
  have e83 : V12 m ρ c main_v83 = inv (F := Ideal) (Stats.colSum (agg (F := Ideal) (W3 m ρ c (Proc.devRef .tc main_v3)) (W3 m ρ c (Proc.devRef .tc main_v6)) (W3 m ρ c (Proc.devRef .tc main_v29)) (mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)))) (rowOf (F := Ideal) (m ((c : Thread nD τ).loc main_arg7)))) (Stats.colSq (agg (F := Ideal) (W3 m ρ c (Proc.devRef .tc main_v3)) (W3 m ρ c (Proc.devRef .tc main_v6)) (W3 m ρ c (Proc.devRef .tc main_v29)) (mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)))) (rowOf (F := Ideal) (m ((c : Thread nD τ).loc main_arg7)))) :=
    (V12_v83 m ρ c).trans (congr (congrArg (inv (F := Ideal)) hS2) hQ2)
  have hH2 : (dat5 (V12 m ρ) c).arrAt 6 cfg5.N = (layerSq (agg (F := Ideal) (W3 m ρ c (Proc.devRef .tc main_v3)) (W3 m ρ c (Proc.devRef .tc main_v6)) (W3 m ρ c (Proc.devRef .tc main_v29)) (mm (layerSq (agg (F := Ideal) (W3 m ρ c (Proc.devRef .tc main_v3)) (W3 m ρ c (Proc.devRef .tc main_v6)) (W3 m ρ c (Proc.devRef .tc main_v29)) (mm (m ((c : Thread nD τ).loc main_arg0)) (m ((c : Thread nD τ).loc main_arg2)))) (m ((c : Thread nD τ).loc main_arg3)) (m ((c : Thread nD τ).loc main_arg4)) (m ((c : Thread nD τ).loc main_arg5))) (m ((c : Thread nD τ).loc main_arg6)))) (m ((c : Thread nD τ).loc main_arg7)) (m ((c : Thread nD τ).loc main_arg8)) (m ((c : Thread nD τ).loc main_arg9))) :=
    (Norm.final5_arr (V12 m ρ) c).trans ((congr (congr (congr (congr (congr (congrArg Norm.normArr e72) (V12_v84 m ρ c)) e76) e83)
      (V12_v85 m ρ c)) (V12_v86 m ρ c)).trans (layer_arr _ _ _ _))
  exact (W15_v89 m ρ c).trans ((Final.final6_fun (V14 m ρ) c).trans
    ((congr (congr (congrArg Final.G ((V14_v87 m ρ c).trans hH2)) (V14_arg10 m ρ c)) (V14_v88 m ρ c)).trans (head_arr _ _ _)))

end Cert.KernelIdeal.KVal

end
-- ==== Proof.Glue.lean ====
/-
  "Every entry is a real number", carried through the host's vector operations at the exact instance: pointwise
  sums, products, differences and maxima, a gather (each entry is an entry of the operand, whichever the index
  says), an accumulating scatter (each entry is the operand's plus a finite sum of updates, whichever land there),
  a matrix product (a finite sum of products) and a quotient by a nonzero real constant. Nothing is assumed of any
  index array: a gather's entry is always SOME entry of its operand and a scatter's is the operand's plus a finite
  sum of updates, so no index value, in range or not, can make an infinity.
-/
import proofs.«143779_j10514079941365_1_alg».proof.Proof.Spec
import Idealize.ShloMosaic.PureOps.Ideal
import Idealize.ShloMosaic.PureOps.Ideal.Laws
import Idealize.ShloMosaic.PureOps.Contract
import Idealize.ShloMosaic.Lib.ValueIdx

noncomputable section

namespace Cert.GcnSpec

open Idealize.ShloMosaic

/-- Every entry of an array of extended reals is a real number. -/
def IsRealV {s : Shape} (v : s.Idx → EReal) : Prop := ∀ i, IsReal (v i)

variable {s : Shape}

theorem IsRealV.addf {φ : FTy} {a b : FVec Ideal s φ} (ha : IsRealV a) (hb : IsRealV b) : IsRealV (addf a b) :=
  fun i => (ha i).add (hb i)

theorem IsRealV.mulf {φ : FTy} {a b : FVec Ideal s φ} (ha : IsRealV a) (hb : IsRealV b) : IsRealV (mulf a b) :=
  fun i => (ha i).mul (hb i)

theorem IsRealV.subf {φ : FTy} {a b : FVec Ideal s φ} (ha : IsRealV a) (hb : IsRealV b) : IsRealV (subf a b) :=
  fun i => (ha i).sub (hb i)

theorem IsRealV.maximumf {φ : FTy} {a b : FVec Ideal s φ} (ha : IsRealV a) (hb : IsRealV b) : IsRealV (maximumf a b) :=
  fun i => (ha i).max (hb i)

/-- A gather reads entries of its operand. -/
theorem IsRealV.gather {t si : Shape} {w : Nat} (d : GatherDims s si t) {x : s.Idx → EReal} (hx : IsRealV x)
    (idx : IVec si w) : IsRealV (Host.gather d x idx) :=
  fun j => hx _

/-- An accumulating scatter adds, to each entry of its operand, the updates that land there. -/
theorem IsRealV.scatterAdd {φ : FTy} {si su : Shape} {w : Nat} (d : ScatterDims s si su) {x : FVec Ideal s φ}
    (hx : IsRealV x) (idx : IVec si w) {upd : FVec Ideal su φ} (hu : IsRealV upd) :
    IsRealV (Host.scatterAdd d x idx upd) := fun i => by
  show IsReal (Ideal.hostScatterAdd d x idx upd i)
  unfold Ideal.hostScatterAdd
  exact (hx i).add (IsReal.sum _ _ fun j _ => hu j)

end Cert.GcnSpec

end
-- ==== Proof.GlueEq.lean ====
/-
  The glue between the two programs' host operations, first part: the edge weights both programs compute are real
  numbers whatever the integer edge list is, and the idealized kernel program's first three stretches of host
  operations leave, in the three buffers both layers read, exactly the reference's edge lists and edge weights as
  functions of the edge array.
-/
import proofs.«143779_j10514079941365_1_alg».proof.Proof.ReadP
import proofs.«143779_j10514079941365_1_alg».proof.Proof.Glue
import proofs.«143779_j10514079941365_1_alg».proof.Proof.Spec
import proofs.«143779_j10514079941365_1_alg».proof.Proof.Consts
import proofs.«143779_j10514079941365_1_alg».proof.Proof.Gen.KernelIdeal.Frame
import Idealize.ShloMosaic.Lib.StableHlo.Run
import Idealize.ShloMosaic.PureOps.Ideal

set_option maxRecDepth 16384

noncomputable section

namespace Cert.GcnGlue

open Idealize.ShloMosaic Idealize.ShloMosaic.TcCoe Idealize.SL.Sem Idealize.ShloMosaic.StableHlo
open Cert.GcnSpec

/-! ## Finiteness: the edge weights are real numbers -/

/-- The degrees are real numbers: ones summed into zeros, wherever the destinations point. -/
theorem deg_real (x1 : (⟨Cert.ReferenceIdeal.S2x1600000, .i32⟩ : BufTy).Contents (Elt Ideal)) :
    IsRealV (s := Cert.ReferenceIdeal.S100000) (Cert.ReferenceIdeal.Read.val_main_v11 (F := Ideal) x1) := by
  unfold Cert.ReferenceIdeal.Read.val_main_v11
  refine IsRealV.scatterAdd _ ?_ _ ?_
  · intro i
    show IsReal (Ideal.ofBits .f32 0x00000000#32)
    rw [Cert.GcnConsts.ofBits_zero]; exact IsReal.zero
  · intro i
    show IsReal (Ideal.ofBits .f32 0x3F800000#32)
    rw [Cert.GcnConsts.ofBits_one]; exact ⟨1, EReal.coe_one.symm⟩

/-- The threshold the degrees are compared with is zero everywhere. -/
theorem v12_apply (i : Cert.ReferenceIdeal.S100000.Idx) : Cert.ReferenceIdeal.Read.val_main_v12 (F := Ideal) i = 0 := by
  show Ideal.ofBits .f32 0x00000000#32 = 0
  exact Cert.GcnConsts.ofBits_zero

/-- The value chosen where the degree is not positive is zero everywhere. -/
theorem call0_v1_apply (i : Cert.ReferenceIdeal.S100000.Idx) : Cert.ReferenceIdeal.Read.val_main_call0_v1 (F := Ideal) i = 0 := by
  show Ideal.ofBits .f32 0x00000000#32 = 0
  exact Cert.GcnConsts.ofBits_zero

/-- A select between the reciprocal square root and another array on "greater than", read at an index: stated over
    an arbitrary array of degrees. -/
theorem select_rsqrt_apply (d z z' : FVec Ideal Cert.ReferenceIdeal.S100000 .f32) (i : Cert.ReferenceIdeal.S100000.Idx) :
    select (cmpf .ogt d z) (Host.rsqrt d) z' i = Scalar.select (Ideal.cmp .ogt (d i) (z i)) (Ideal.rsqrt (d i)) (z' i) := rfl

/-- The degree normalisers are real numbers: the reciprocal square root of a positive degree, zero elsewhere. -/
theorem dinv_real (x1 : (⟨Cert.ReferenceIdeal.S2x1600000, .i32⟩ : BufTy).Contents (Elt Ideal)) :
    IsRealV (s := Cert.ReferenceIdeal.S100000) (Cert.ReferenceIdeal.Read.val_main_v15 (F := Ideal) x1) := fun i => by
  unfold Cert.ReferenceIdeal.Read.val_main_v15 Cert.ReferenceIdeal.Read.val_main_v13 Cert.ReferenceIdeal.Read.val_main_v14
  rw [select_rsqrt_apply, v12_apply, call0_v1_apply]
  exact dinv_isReal (deg_real x1 i)

/-- The edge weights are real numbers whatever the edge list is: each is a product of two degree normalisers. -/
theorem norm_real (x1 : (⟨Cert.ReferenceIdeal.S2x1600000, .i32⟩ : BufTy).Contents (Elt Ideal)) :
    IsRealV (s := Cert.ReferenceIdeal.S1700000) (Cert.ReferenceIdeal.Read.val_main_v30 (F := Ideal) x1) := by
  unfold Cert.ReferenceIdeal.Read.val_main_v30
  refine IsRealV.mulf ?_ ?_
  · unfold Cert.ReferenceIdeal.Read.val_main_v22; exact IsRealV.gather _ (dinv_real x1) _
  · unfold Cert.ReferenceIdeal.Read.val_main_v29; exact IsRealV.gather _ (dinv_real x1) _

/-! ## The kernel program's first three stretches compute the reference's edge lists and weights -/

section Stretches
variable {F : FTy → Type} [FloatOps F]
variable (m : (ℓ : Loc Cert.KernelIdeal.nD Cert.KernelIdeal.τ Cert.KernelIdeal.sig) → Buf (Elt F) ℓ) (ρ : Dev Cert.KernelIdeal.nD → PrngReg)

set_option maxHeartbeats 8000000 in
/-- The sources: the first row of the edge array followed by every node (the self loops). -/
theorem W3_src (c : Dev Cert.KernelIdeal.nD) :
    Cert.KernelIdeal.Gen.W3 m ρ c (Proc.devRef .tc Cert.KernelIdeal.main_v3)
      = Cert.ReferenceIdeal.Read.val_main_v4 (F := F) (m ((c : Thread Cert.KernelIdeal.nD Cert.KernelIdeal.τ).loc Cert.KernelIdeal.main_arg1)) := by
  dsimp only [Cert.KernelIdeal.Gen.W3, Cert.KernelIdeal.Gen.W2, Cert.KernelIdeal.Gen.W1, Cert.KernelIdeal.Gen.W0]
  after_results_simp
  rfl

set_option maxHeartbeats 8000000 in
/-- The destinations: the second row of the edge array followed by every node. -/
theorem W3_dst (c : Dev Cert.KernelIdeal.nD) :
    Cert.KernelIdeal.Gen.W3 m ρ c (Proc.devRef .tc Cert.KernelIdeal.main_v6)
      = Cert.ReferenceIdeal.Read.val_main_v7 (F := F) (m ((c : Thread Cert.KernelIdeal.nD Cert.KernelIdeal.τ).loc Cert.KernelIdeal.main_arg1)) := by
  dsimp only [Cert.KernelIdeal.Gen.W3, Cert.KernelIdeal.Gen.W2, Cert.KernelIdeal.Gen.W1, Cert.KernelIdeal.Gen.W0]
  after_results_simp
  rfl

set_option maxHeartbeats 8000000 in
/-- The edge weights: the product of the degree normalisers at the two ends of each edge. -/
theorem W3_norm (c : Dev Cert.KernelIdeal.nD) :
    Cert.KernelIdeal.Gen.W3 m ρ c (Proc.devRef .tc Cert.KernelIdeal.main_v29)
      = Cert.ReferenceIdeal.Read.val_main_v30 (F := F) (m ((c : Thread Cert.KernelIdeal.nD Cert.KernelIdeal.τ).loc Cert.KernelIdeal.main_arg1)) := by
  dsimp only [Cert.KernelIdeal.Gen.W3, Cert.KernelIdeal.Gen.W2, Cert.KernelIdeal.Gen.W1, Cert.KernelIdeal.Gen.W0]
  after_results_simp
  rfl

end Stretches

end Cert.GcnGlue

end
-- ==== Proof.GlueEq2.lean ====
/-
  The glue between the two programs' host operations, second part: each of the reference's two aggregations is the
  kernel program's aggregation function at the reference's own edge lists and edge weights, and aggregation keeps
  arrays of real numbers real.
-/
import proofs.«143779_j10514079941365_1_alg».proof.Proof.ReadP
import proofs.«143779_j10514079941365_1_alg».proof.Proof.KG
import proofs.«143779_j10514079941365_1_alg».proof.Proof.Glue
import proofs.«143779_j10514079941365_1_alg».proof.Proof.Spec
import proofs.«143779_j10514079941365_1_alg».proof.Proof.Consts
import Idealize.ShloMosaic.PureOps.Ideal

set_option maxRecDepth 16384

noncomputable section

namespace Cert.GcnGlue

open Idealize.ShloMosaic Idealize.ShloMosaic.TcCoe Idealize.SL.Sem Idealize.ShloMosaic.StableHlo
open Cert.GcnSpec

/-! ## The reference's two aggregations are one function of its edge arrays -/

section Agg
variable {F : FTy → Type} [FloatOps F]

/-- The first layer's aggregation in the reference: its chain of a gather at the wrapped sources, the product with
    the edge weights laid out along the features, and the accumulating scatter into zeros at the destinations, is
    the aggregation function at the reference's own edge lists and weights. The two programs spell the dimension
    records and shapes in their own namespaces; the records' fields are equal. -/
theorem agg1_eq (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F)) :
    Cert.ReferenceIdeal.Read.val_main_v43 (F := F) x0 x1 x2
      = Cert.KernelIdeal.KG.agg (Cert.ReferenceIdeal.Read.val_main_v4 (F := F) x1) (Cert.ReferenceIdeal.Read.val_main_v7 (F := F) x1)
          (Cert.ReferenceIdeal.Read.val_main_v30 (F := F) x1) (Cert.ReferenceIdeal.Read.val_main_v0 (F := F) x0 x2) := rfl

/-- The second layer's aggregation: the reference computes the edge lists and weights again, by the same terms. -/
theorem agg2_eq (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F)) (x3 x4 x5 : (⟨Cert.ReferenceIdeal.S128, .f32⟩ : BufTy).Contents (Elt F)) (x6 : (⟨Cert.ReferenceIdeal.S128x128, .f32⟩ : BufTy).Contents (Elt F)) :
    Cert.ReferenceIdeal.Read.val_main_v116 (F := F) x0 x1 x2 x3 x4 x5 x6
      = Cert.KernelIdeal.KG.agg (Cert.ReferenceIdeal.Read.val_main_v4 (F := F) x1) (Cert.ReferenceIdeal.Read.val_main_v7 (F := F) x1)
          (Cert.ReferenceIdeal.Read.val_main_v30 (F := F) x1) (Cert.ReferenceIdeal.Read.val_main_v73 (F := F) x0 x1 x2 x3 x4 x5 x6) := rfl

end Agg

/-! ## Aggregation keeps real arrays real -/

/-- Aggregation keeps real arrays real: zeros plus finite sums of products of gathered entries and edge weights. -/
theorem agg_real (src dst : IVec Cert.KernelIdeal.S1700000 32) (norm : FVec Ideal Cert.KernelIdeal.S1700000 .f32) (h : FVec Ideal Cert.KernelIdeal.S100000x128 .f32)
    (hn : IsRealV norm) (hh : IsRealV h) : IsRealV (Cert.KernelIdeal.KG.agg src dst norm h) := by
  unfold Cert.KernelIdeal.KG.agg
  refine IsRealV.scatterAdd _ ?_ _ ?_
  · intro i
    show IsReal (Ideal.ofBits .f32 0x00000000#32)
    rw [Cert.GcnConsts.ofBits_zero]; exact IsReal.zero
  · refine IsRealV.mulf (IsRealV.gather _ hh _) ?_
    intro j
    exact hn _

end Cert.GcnGlue

end
-- ==== Proof.RefVal.lean ====
/-
  The reference program read pointwise. Each stage of the reference is a function of the program's arguments; here
  the stages that matter are read at one index as closed expressions over the extended reals: a matrix product
  is the sum over the contracted axis, the bias is added row-wise, the batch normalisation of a column is the
  function `bnDev` of that column (mean, mean of squared deviations, epsilon, reciprocal square root, scale, shift, then
  the maximum with zero), and the head is the logistic function of a linear form followed by a maximum with zero.
-/
import proofs.«143779_j10514079941365_1_alg».proof.Proof.ReadP
import proofs.«143779_j10514079941365_1_alg».proof.Proof.Spec
import proofs.«143779_j10514079941365_1_alg».proof.Proof.Consts
import Idealize.ShloMosaic.Lib.ValueIdx
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.Read Idealize.ShloMosaic Idealize.ShloMosaic.ValueIdx Cert.GcnSpec

/-- Two indices of rank two are equal when their coordinates are. -/
local macro "idx2" : tactic =>
  `(tactic| exact funext fun a => Fin.ext (by match a with | ⟨0, _⟩ => rfl | ⟨1, _⟩ => rfl))
/-- Two indices of rank one are equal when their coordinate is. -/
local macro "idx1" : tactic =>
  `(tactic| exact funext fun a => Fin.ext (by match a with | ⟨0, _⟩ => rfl))

variable (x0 : FVec Ideal S100000x128 .f32) (x1 : IVec S2x1600000 32) (x2 : FVec Ideal S128x128 .f32)
  (x3 x4 x5 : FVec Ideal S128 .f32) (x6 : FVec Ideal S128x128 .f32) (x7 x8 x9 : FVec Ideal S128 .f32)
  (x10 : FVec Ideal S128x1 .f32) (x11 : FVec Ideal S1 .f32)

/-! ## The matrix products -/

/-- The first layer's product: row n of the features against column j of the weights. -/
theorem v0_at (n : Fin 100000) (j : Fin 128) :
    val_main_v0 (F := Ideal) x0 x2 (ix2 n j) = ∑ k : Fin 128, x0 (ix2 n k) * x2 (ix2 k j) := by
  rw [val_main_v0_apply]
  refine Finset.sum_congr rfl fun k _ => ?_
  have el : lidx_main_v0 (ix2 n j) k = ix2 n k := by idx2
  have er : ridx_main_v0 (ix2 n j) k = ix2 k j := by idx2
  rw [el, er]

/-- The second layer's product: row n of the first layer's output against column j of the weights. -/
theorem v73_at (n : Fin 100000) (j : Fin 128) :
    val_main_v73 (F := Ideal) x0 x1 x2 x3 x4 x5 x6 (ix2 n j)
      = ∑ k : Fin 128, val_main_v72 (F := Ideal) x0 x1 x2 x3 x4 x5 (ix2 n k) * x6 (ix2 k j) := by
  rw [val_main_v73_apply]
  refine Finset.sum_congr rfl fun k _ => ?_
  have el : lidx_main_v73 (ix2 n j) k = ix2 n k := by idx2
  have er : ridx_main_v73 (ix2 n j) k = ix2 k j := by idx2
  rw [el, er]

/-! ## The first layer's bias and normalisation -/

/-- The bias row, broadcast over the rows, read at (n, j). -/
theorem v45_at (n : Fin 100000) (j : Fin 128) : val_main_v45 (F := Ideal) x3 (ix2 n j) = x3 (ix1 j) := by
  rw [val_main_v45_apply, val_main_v44_apply]
  exact congrArg x3 (by idx1)

/-- The aggregated product plus the bias row. -/
theorem v46_at (n : Fin 100000) (j : Fin 128) :
    val_main_v46 (F := Ideal) x0 x1 x2 x3 (ix2 n j) = val_main_v43 (F := Ideal) x0 x1 x2 (ix2 n j) + x3 (ix1 j) := by
  rw [val_main_v46_apply, v45_at, Ideal.addf_def]

/-- The column sums. -/
theorem v47_at (j : Fin 128) :
    val_main_v47 (F := Ideal) x0 x1 x2 x3 (ix1 j) = ∑ k : Fin 100000, val_main_v46 (F := Ideal) x0 x1 x2 x3 (ix2 k j) := by
  rw [val_main_v47_apply, val_main_cst_9_apply, Ideal.ofBits_def, Cert.GcnConsts.ofBits_zero, zero_add]
  exact Finset.sum_congr rfl fun k _ => congrArg (val_main_v46 (F := Ideal) x0 x1 x2 x3) (by idx2)

/-- The column means. -/
theorem v49_at (j : Fin 128) :
    val_main_v49 (F := Ideal) x0 x1 x2 x3 (ix1 j)
      = Ideal.div (∑ k : Fin 100000, val_main_v46 (F := Ideal) x0 x1 x2 x3 (ix2 k j)) ((100000 : ℝ) : EReal) := by
  rw [val_main_v49_apply, v47_at, val_main_v48_apply, val_main_cst_10_apply, Ideal.hostDivf_def, Ideal.ofBits_def,
    Cert.GcnConsts.ofBits_rows]

/-- The means broadcast over the rows (the copy the deviations for the variance use). -/
theorem v51_at (n : Fin 100000) (j : Fin 128) :
    val_main_v51 (F := Ideal) x0 x1 x2 x3 (ix2 n j) = val_main_v49 (F := Ideal) x0 x1 x2 x3 (ix1 j) := by
  rw [val_main_v51_apply, val_main_v50_apply]
  exact congrArg (val_main_v49 (F := Ideal) x0 x1 x2 x3) (by idx1)

/-- The means broadcast over the rows (the copy the normalised entry uses). -/
theorem v58_at (n : Fin 100000) (j : Fin 128) :
    val_main_v58 (F := Ideal) x0 x1 x2 x3 (ix2 n j) = val_main_v49 (F := Ideal) x0 x1 x2 x3 (ix1 j) := by
  rw [val_main_v58_apply, val_main_v57_apply]
  exact congrArg (val_main_v49 (F := Ideal) x0 x1 x2 x3) (by idx1)

/-- The sums of the squared deviations. -/
theorem v54_at (j : Fin 128) :
    val_main_v54 (F := Ideal) x0 x1 x2 x3 (ix1 j)
      = ∑ k : Fin 100000,
          (val_main_v46 (F := Ideal) x0 x1 x2 x3 (ix2 k j)
              - Ideal.div (∑ k : Fin 100000, val_main_v46 (F := Ideal) x0 x1 x2 x3 (ix2 k j)) ((100000 : ℝ) : EReal))
            * (val_main_v46 (F := Ideal) x0 x1 x2 x3 (ix2 k j)
              - Ideal.div (∑ k : Fin 100000, val_main_v46 (F := Ideal) x0 x1 x2 x3 (ix2 k j)) ((100000 : ℝ) : EReal)) := by
  rw [val_main_v54_apply, val_main_cst_11_apply, Ideal.ofBits_def, Cert.GcnConsts.ofBits_zero, zero_add]
  refine Finset.sum_congr rfl fun k _ => ?_
  have e : idx_main_v54 (ix1 j) k = ix2 k j := by idx2
  rw [e, val_main_v53_apply, val_main_v52_apply, v51_at, v49_at, Ideal.mulf_def, Ideal.subf_def]

/-- The reciprocal square root of the variance plus epsilon. -/
theorem v62_at (j : Fin 128) :
    val_main_v62 (F := Ideal) x0 x1 x2 x3 (ix1 j)
      = Ideal.rsqrt (Ideal.div (∑ k : Fin 100000,
          (val_main_v46 (F := Ideal) x0 x1 x2 x3 (ix2 k j)
              - Ideal.div (∑ k : Fin 100000, val_main_v46 (F := Ideal) x0 x1 x2 x3 (ix2 k j)) ((100000 : ℝ) : EReal))
            * (val_main_v46 (F := Ideal) x0 x1 x2 x3 (ix2 k j)
              - Ideal.div (∑ k : Fin 100000, val_main_v46 (F := Ideal) x0 x1 x2 x3 (ix2 k j)) ((100000 : ℝ) : EReal)))
          ((100000 : ℝ) : EReal) + ((10995116 / 1099511627776 : ℝ) : EReal)) := by
  rw [val_main_v62_apply, val_main_v61_apply, val_main_v56_apply, v54_at, val_main_v55_apply, val_main_cst_12_apply,
    val_main_v60_apply, val_main_cst_13_apply, Ideal.hostUnary_rsqrt_def, Ideal.addf_def, Ideal.hostDivf_def, Ideal.ofBits_def,
    Ideal.ofBits_def, Cert.GcnConsts.ofBits_rows, Cert.GcnConsts.ofBits_eps]

/-- The reciprocal square roots broadcast over the rows. -/
theorem v64_at (n : Fin 100000) (j : Fin 128) :
    val_main_v64 (F := Ideal) x0 x1 x2 x3 (ix2 n j) = val_main_v62 (F := Ideal) x0 x1 x2 x3 (ix1 j) := by
  rw [val_main_v64_apply, val_main_v63_apply]
  exact congrArg (val_main_v62 (F := Ideal) x0 x1 x2 x3) (by idx1)

/-- The scale row broadcast over the rows. -/
theorem v67_at (n : Fin 100000) (j : Fin 128) : val_main_v67 (F := Ideal) x4 (ix2 n j) = x4 (ix1 j) := by
  rw [val_main_v67_apply, val_main_v66_apply]
  exact congrArg x4 (by idx1)

/-- The shift row broadcast over the rows. -/
theorem v70_at (n : Fin 100000) (j : Fin 128) : val_main_v70 (F := Ideal) x5 (ix2 n j) = x5 (ix1 j) := by
  rw [val_main_v70_apply, val_main_v69_apply]
  exact congrArg x5 (by idx1)

/-- The zero the maximum is taken with. -/
theorem call1_v0_at (n : Fin 100000) (j : Fin 128) : val_main_call1_v0 (F := Ideal) (ix2 n j) = 0 := by
  rw [val_main_call1_v0_apply, val_main_call1_cst_apply, Ideal.ofBits_def, Cert.GcnConsts.ofBits_zero]

/-- The normalised, scaled, shifted and clamped entry is `bnDev` of its column. -/
theorem v72_at (n : Fin 100000) (j : Fin 128) :
    val_main_v72 (F := Ideal) x0 x1 x2 x3 x4 x5 (ix2 n j)
      = bnDev (fun k : Fin 100000 => val_main_v46 (F := Ideal) x0 x1 x2 x3 (ix2 k j)) ((100000 : ℝ) : EReal)
          ((10995116 / 1099511627776 : ℝ) : EReal) (x4 (ix1 j)) (x5 (ix1 j))
          (val_main_v46 (F := Ideal) x0 x1 x2 x3 (ix2 n j)) := by
  unfold bnDev
  rw [val_main_v72_apply, val_main_v71_apply, val_main_v68_apply, val_main_v65_apply, val_main_v59_apply, v58_at, v49_at,
    v64_at, v62_at, v67_at, v70_at, call1_v0_at, Ideal.maximumf_def, Ideal.addf_def, Ideal.mulf_def, Ideal.mulf_def, Ideal.subf_def]

/-! ## The second layer's bias and normalisation -/

/-- The bias row, broadcast over the rows, read at (n, j). -/
theorem v118_at (n : Fin 100000) (j : Fin 128) : val_main_v118 (F := Ideal) x7 (ix2 n j) = x7 (ix1 j) := by
  rw [val_main_v118_apply, val_main_v117_apply]
  exact congrArg x7 (by idx1)

/-- The aggregated product plus the bias row. -/
theorem v119_at (n : Fin 100000) (j : Fin 128) :
    val_main_v119 (F := Ideal) x0 x1 x2 x3 x4 x5 x6 x7 (ix2 n j) = val_main_v116 (F := Ideal) x0 x1 x2 x3 x4 x5 x6 (ix2 n j) + x7 (ix1 j) := by
  rw [val_main_v119_apply, v118_at, Ideal.addf_def]

/-- The column sums. -/
theorem v120_at (j : Fin 128) :
    val_main_v120 (F := Ideal) x0 x1 x2 x3 x4 x5 x6 x7 (ix1 j) = ∑ k : Fin 100000, val_main_v119 (F := Ideal) x0 x1 x2 x3 x4 x5 x6 x7 (ix2 k j) := by
  rw [val_main_v120_apply, val_main_cst_25_apply, Ideal.ofBits_def, Cert.GcnConsts.ofBits_zero, zero_add]
  exact Finset.sum_congr rfl fun k _ => congrArg (val_main_v119 (F := Ideal) x0 x1 x2 x3 x4 x5 x6 x7) (by idx2)

/-- The column means. -/
theorem v122_at (j : Fin 128) :
    val_main_v122 (F := Ideal) x0 x1 x2 x3 x4 x5 x6 x7 (ix1 j)
      = Ideal.div (∑ k : Fin 100000, val_main_v119 (F := Ideal) x0 x1 x2 x3 x4 x5 x6 x7 (ix2 k j)) ((100000 : ℝ) : EReal) := by
  rw [val_main_v122_apply, v120_at, val_main_v121_apply, val_main_cst_26_apply, Ideal.hostDivf_def, Ideal.ofBits_def,
    Cert.GcnConsts.ofBits_rows]

/-- The means broadcast over the rows (the copy the deviations for the variance use). -/
theorem v124_at (n : Fin 100000) (j : Fin 128) :
    val_main_v124 (F := Ideal) x0 x1 x2 x3 x4 x5 x6 x7 (ix2 n j) = val_main_v122 (F := Ideal) x0 x1 x2 x3 x4 x5 x6 x7 (ix1 j) := by
  rw [val_main_v124_apply, val_main_v123_apply]
  exact congrArg (val_main_v122 (F := Ideal) x0 x1 x2 x3 x4 x5 x6 x7) (by idx1)

/-- The means broadcast over the rows (the copy the normalised entry uses). -/
theorem v131_at (n : Fin 100000) (j : Fin 128) :
    val_main_v131 (F := Ideal) x0 x1 x2 x3 x4 x5 x6 x7 (ix2 n j) = val_main_v122 (F := Ideal) x0 x1 x2 x3 x4 x5 x6 x7 (ix1 j) := by
  rw [val_main_v131_apply, val_main_v130_apply]
  exact congrArg (val_main_v122 (F := Ideal) x0 x1 x2 x3 x4 x5 x6 x7) (by idx1)

/-- The sums of the squared deviations. -/
theorem v127_at (j : Fin 128) :
    val_main_v127 (F := Ideal) x0 x1 x2 x3 x4 x5 x6 x7 (ix1 j)
      = ∑ k : Fin 100000,
          (val_main_v119 (F := Ideal) x0 x1 x2 x3 x4 x5 x6 x7 (ix2 k j)
              - Ideal.div (∑ k : Fin 100000, val_main_v119 (F := Ideal) x0 x1 x2 x3 x4 x5 x6 x7 (ix2 k j)) ((100000 : ℝ) : EReal))
            * (val_main_v119 (F := Ideal) x0 x1 x2 x3 x4 x5 x6 x7 (ix2 k j)
              - Ideal.div (∑ k : Fin 100000, val_main_v119 (F := Ideal) x0 x1 x2 x3 x4 x5 x6 x7 (ix2 k j)) ((100000 : ℝ) : EReal)) := by
  rw [val_main_v127_apply, val_main_cst_27_apply, Ideal.ofBits_def, Cert.GcnConsts.ofBits_zero, zero_add]
  refine Finset.sum_congr rfl fun k _ => ?_
  have e : idx_main_v127 (ix1 j) k = ix2 k j := by idx2
  rw [e, val_main_v126_apply, val_main_v125_apply, v124_at, v122_at, Ideal.mulf_def, Ideal.subf_def]

/-- The reciprocal square root of the variance plus epsilon. -/
theorem v135_at (j : Fin 128) :
    val_main_v135 (F := Ideal) x0 x1 x2 x3 x4 x5 x6 x7 (ix1 j)
      = Ideal.rsqrt (Ideal.div (∑ k : Fin 100000,
          (val_main_v119 (F := Ideal) x0 x1 x2 x3 x4 x5 x6 x7 (ix2 k j)
              - Ideal.div (∑ k : Fin 100000, val_main_v119 (F := Ideal) x0 x1 x2 x3 x4 x5 x6 x7 (ix2 k j)) ((100000 : ℝ) : EReal))
            * (val_main_v119 (F := Ideal) x0 x1 x2 x3 x4 x5 x6 x7 (ix2 k j)
              - Ideal.div (∑ k : Fin 100000, val_main_v119 (F := Ideal) x0 x1 x2 x3 x4 x5 x6 x7 (ix2 k j)) ((100000 : ℝ) : EReal)))
          ((100000 : ℝ) : EReal) + ((10995116 / 1099511627776 : ℝ) : EReal)) := by
  rw [val_main_v135_apply, val_main_v134_apply, val_main_v129_apply, v127_at, val_main_v128_apply, val_main_cst_28_apply,
    val_main_v133_apply, val_main_cst_29_apply, Ideal.hostUnary_rsqrt_def, Ideal.addf_def, Ideal.hostDivf_def, Ideal.ofBits_def,
    Ideal.ofBits_def, Cert.GcnConsts.ofBits_rows, Cert.GcnConsts.ofBits_eps]

/-- The reciprocal square roots broadcast over the rows. -/
theorem v137_at (n : Fin 100000) (j : Fin 128) :
    val_main_v137 (F := Ideal) x0 x1 x2 x3 x4 x5 x6 x7 (ix2 n j) = val_main_v135 (F := Ideal) x0 x1 x2 x3 x4 x5 x6 x7 (ix1 j) := by
  rw [val_main_v137_apply, val_main_v136_apply]
  exact congrArg (val_main_v135 (F := Ideal) x0 x1 x2 x3 x4 x5 x6 x7) (by idx1)

/-- The scale row broadcast over the rows. -/
theorem v140_at (n : Fin 100000) (j : Fin 128) : val_main_v140 (F := Ideal) x8 (ix2 n j) = x8 (ix1 j) := by
  rw [val_main_v140_apply, val_main_v139_apply]
  exact congrArg x8 (by idx1)

/-- The shift row broadcast over the rows. -/
theorem v143_at (n : Fin 100000) (j : Fin 128) : val_main_v143 (F := Ideal) x9 (ix2 n j) = x9 (ix1 j) := by
  rw [val_main_v143_apply, val_main_v142_apply]
  exact congrArg x9 (by idx1)

/-- The zero the maximum is taken with. -/
theorem call3_v0_at (n : Fin 100000) (j : Fin 128) : val_main_call3_v0 (F := Ideal) (ix2 n j) = 0 := by
  rw [val_main_call3_v0_apply, val_main_call3_cst_apply, Ideal.ofBits_def, Cert.GcnConsts.ofBits_zero]

/-- The normalised, scaled, shifted and clamped entry is `bnDev` of its column. -/
theorem v145_at (n : Fin 100000) (j : Fin 128) :
    val_main_v145 (F := Ideal) x0 x1 x2 x3 x4 x5 x6 x7 x8 x9 (ix2 n j)
      = bnDev (fun k : Fin 100000 => val_main_v119 (F := Ideal) x0 x1 x2 x3 x4 x5 x6 x7 (ix2 k j)) ((100000 : ℝ) : EReal)
          ((10995116 / 1099511627776 : ℝ) : EReal) (x8 (ix1 j)) (x9 (ix1 j))
          (val_main_v119 (F := Ideal) x0 x1 x2 x3 x4 x5 x6 x7 (ix2 n j)) := by
  unfold bnDev
  rw [val_main_v145_apply, val_main_v144_apply, val_main_v141_apply, val_main_v138_apply, val_main_v132_apply, v131_at, v122_at,
    v137_at, v135_at, v140_at, v143_at, call3_v0_at, Ideal.maximumf_def, Ideal.addf_def, Ideal.mulf_def, Ideal.mulf_def, Ideal.subf_def]

/-! ## The head: a linear form, a maximum with zero, the logistic function -/

/-- The head's bias, broadcast over the rows. -/
theorem v148_at (n : Fin 100000) : val_main_v148 (F := Ideal) x11 (ix2 n (0 : Fin 1)) = x11 (ix1 (0 : Fin 1)) := by
  rw [val_main_v148_apply, val_main_v147_apply]
  exact congrArg x11 (by idx1)

/-- The head's linear form: row n of the second layer's output against the one column of the weights. -/
theorem v146_at (n : Fin 100000) :
    val_main_v146 (F := Ideal) x0 x1 x2 x3 x4 x5 x6 x7 x8 x9 x10 (ix2 n (0 : Fin 1))
      = ∑ k : Fin 128, val_main_v145 (F := Ideal) x0 x1 x2 x3 x4 x5 x6 x7 x8 x9 (ix2 n k) * x10 (ix2 k (0 : Fin 1)) := by
  rw [val_main_v146_apply]
  refine Finset.sum_congr rfl fun k _ => ?_
  have el : lidx_main_v146 (ix2 n (0 : Fin 1)) k = ix2 n k := by idx2
  have er : ridx_main_v146 (ix2 n (0 : Fin 1)) k = ix2 k (0 : Fin 1) := by idx2
  rw [el, er]

/-- The program's result at row n. -/
theorem v156_at (n : Fin 100000) :
    val_main_v156 (F := Ideal) x0 x1 x2 x3 x4 x5 x6 x7 x8 x9 x10 x11 (ix2 n (0 : Fin 1))
      = Ideal.logistic (max ((∑ k : Fin 128, val_main_v145 (F := Ideal) x0 x1 x2 x3 x4 x5 x6 x7 x8 x9 (ix2 n k) * x10 (ix2 k (0 : Fin 1)))
          + x11 (ix1 (0 : Fin 1))) 0) := by
  unfold Ideal.logistic
  rw [val_main_v156_apply, val_main_v155_apply, val_main_cst_31_apply, val_main_v154_apply, val_main_v153_apply, val_main_cst_30_apply,
    val_main_v152_apply, val_main_v151_apply, val_main_v150_apply, val_main_call4_v0_apply, val_main_call4_cst_apply,
    val_main_v149_apply, v146_at, v148_at, Ideal.hostDivf_def, Ideal.addf_def, Ideal.addf_def, Ideal.hostUnary_exp_def, Ideal.hostNegf_def,
    Ideal.negf_def, Ideal.maximumf_def, Ideal.ofBits_def, Ideal.ofBits_def, Cert.GcnConsts.ofBits_one, Cert.GcnConsts.ofBits_zero]

end Cert.ReferenceIdeal.RefVal

end
-- ==== Proof.Bridge.lean ====
/-
  The bridge over whole arrays. The two forms of the normalising layer (the variance as the mean of the squares minus
  the square of the mean, or as the mean of the squared deviations) are one function on arrays of real numbers; the
  layer and the matrix product keep "every entry is a real number"; and the reference program's stages are these
  functions of whole arrays: a matrix product, the layer in its squared-deviations form applied to the aggregated
  product, and the head.
-/
import proofs.«143779_j10514079941365_1_alg».proof.Proof.RefVal
import proofs.«143779_j10514079941365_1_alg».proof.Proof.Layer
import proofs.«143779_j10514079941365_1_alg».proof.Proof.Glue

set_option maxRecDepth 16384

noncomputable section

namespace Cert.GcnBridge

open Cert.ReferenceIdeal Cert.ReferenceIdeal.Read Cert.ReferenceIdeal.RefVal Idealize.ShloMosaic Idealize.ShloMosaic.ValueIdx
  Cert.GcnSpec

/-! ## The two forms of the layer agree on real arrays, and the layer and the product keep real arrays real -/

/-- On an array of real numbers with a real bias row, the two forms of the layer are one function. -/
theorem layer_sq_eq_dev (A : (⟨2, ![100000, 128]⟩ : Shape).Idx → EReal) (b g be : (⟨1, ![128]⟩ : Shape).Idx → EReal)
    (hA : IsRealV A) (hb : IsRealV b) : layerSq A b g be = layerDev A b g be := by
  funext i
  exact bnSq_eq_bnDev _ (fun k => (hA _).add (hb _)) 100000 (by norm_num) (by simp) _ _ _ _

/-- The layer of real arrays is a real array. -/
theorem layerDev_real (A : (⟨2, ![100000, 128]⟩ : Shape).Idx → EReal) (b g be : (⟨1, ![128]⟩ : Shape).Idx → EReal)
    (hA : IsRealV A) (hb : IsRealV b) (hg : IsRealV g) (hbe : IsRealV be) : IsRealV (layerDev A b g be) := fun i =>
  bnDev_isReal _ (fun k => (hA _).add (hb _)) 100000 (by norm_num) (10995116 / 1099511627776) (by norm_num) (hg _) (hbe _)
    ((hA _).add (hb _))

/-- The product of real arrays is a real array. -/
theorem mm_real (a : (⟨2, ![100000, 128]⟩ : Shape).Idx → EReal) (w : (⟨2, ![128, 128]⟩ : Shape).Idx → EReal)
    (ha : IsRealV a) (hw : IsRealV w) : IsRealV (mm a w) := fun i =>
  IsReal.sum _ _ fun k _ => (ha _).mul (hw _)

/-! ## The reference program's stages as these functions -/

variable (x0 : FVec Ideal S100000x128 .f32) (x1 : IVec S2x1600000 32) (x2 : FVec Ideal S128x128 .f32)
  (x3 x4 x5 : FVec Ideal S128 .f32) (x6 : FVec Ideal S128x128 .f32) (x7 x8 x9 : FVec Ideal S128 .f32)
  (x10 : FVec Ideal S128x1 .f32) (x11 : FVec Ideal S1 .f32)

/-- The first product. -/
theorem ref_v0 : val_main_v0 (F := Ideal) x0 x2 = mm x0 x2 := by
  funext i
  obtain ⟨n, j, rfl⟩ : ∃ (n : Fin 100000) (j : Fin 128), i = ix2 n j := ⟨i 0, i 1, eq_ix2 i⟩
  exact (v0_at x0 x2 n j).trans rfl

/-- The first layer's output is the layer of the first aggregated product. -/
theorem ref_v72 : val_main_v72 (F := Ideal) x0 x1 x2 x3 x4 x5 = layerDev (val_main_v43 (F := Ideal) x0 x1 x2) x3 x4 x5 := by
  funext i
  obtain ⟨n, j, rfl⟩ : ∃ (n : Fin 100000) (j : Fin 128), i = ix2 n j := ⟨i 0, i 1, eq_ix2 i⟩
  have hT : (fun k : Fin 100000 => val_main_v46 (F := Ideal) x0 x1 x2 x3 (ix2 k j))
      = fun k : Fin 100000 => val_main_v43 (F := Ideal) x0 x1 x2 (ix2 k j) + x3 (ix1 j) :=
    funext fun k => v46_at x0 x1 x2 x3 k j
  rw [v72_at, hT, v46_at]
  rfl

/-- The second product. -/
theorem ref_v73 : val_main_v73 (F := Ideal) x0 x1 x2 x3 x4 x5 x6 = mm (val_main_v72 (F := Ideal) x0 x1 x2 x3 x4 x5) x6 := by
  funext i
  obtain ⟨n, j, rfl⟩ : ∃ (n : Fin 100000) (j : Fin 128), i = ix2 n j := ⟨i 0, i 1, eq_ix2 i⟩
  exact (v73_at x0 x1 x2 x3 x4 x5 x6 n j).trans rfl

/-- The second layer's output is the layer of the second aggregated product. -/
theorem ref_v145 : val_main_v145 (F := Ideal) x0 x1 x2 x3 x4 x5 x6 x7 x8 x9
    = layerDev (val_main_v116 (F := Ideal) x0 x1 x2 x3 x4 x5 x6) x7 x8 x9 := by
  funext i
  obtain ⟨n, j, rfl⟩ : ∃ (n : Fin 100000) (j : Fin 128), i = ix2 n j := ⟨i 0, i 1, eq_ix2 i⟩
  have hT : (fun k : Fin 100000 => val_main_v119 (F := Ideal) x0 x1 x2 x3 x4 x5 x6 x7 (ix2 k j))
      = fun k : Fin 100000 => val_main_v116 (F := Ideal) x0 x1 x2 x3 x4 x5 x6 (ix2 k j) + x7 (ix1 j) :=
    funext fun k => v119_at x0 x1 x2 x3 x4 x5 x6 x7 k j
  rw [v145_at, hT, v119_at]
  rfl

/-- The program's result is the head of the second layer's output. -/
theorem ref_v156 : val_main_v156 (F := Ideal) x0 x1 x2 x3 x4 x5 x6 x7 x8 x9 x10 x11
    = head (val_main_v145 (F := Ideal) x0 x1 x2 x3 x4 x5 x6 x7 x8 x9) x10 x11 := by
  funext i
  obtain ⟨n, z, rfl⟩ : ∃ (n : Fin 100000) (z : Fin 1), i = ix2 n z := ⟨i 0, i 1, eq_ix2 i⟩
  obtain rfl : z = (0 : Fin 1) := Subsingleton.elim _ _
  exact (v156_at x0 x1 x2 x3 x4 x5 x6 x7 x8 x9 x10 x11 n).trans rfl

end Cert.GcnBridge

end
-- ==== Proof.PreFacts.lean ====
/-
  The precondition read back: the predicate says of each of the eleven floating-point inputs that every
  entry has absolute value below +∞, all eleven joined by "and". Over the extended reals an entry whose absolute value
  (the maximum of the entry and its negation) is below ⊤ is neither ⊤ nor ⊥, so it is a real number.
-/
import proofs.«143779_j10514079941365_1_alg».proof.Pre_finite_inputs
import proofs.«143779_j10514079941365_1_alg».proof.Proof.Gen.Pre_finite_inputs
import proofs.«143779_j10514079941365_1_alg».proof.Proof.Spec
import Idealize.ShloMosaic.PureOps.Ideal
import Idealize.ShloMosaic.Lib.ReduceAll
import Idealize.ShloMosaic.Lib.ValueIdx

set_option maxRecDepth 16384

noncomputable section

namespace Cert.GcnPre

open Idealize.ShloMosaic Cert.Pre_finite_inputs Cert.GcnSpec

/-- The rank-0 shape has one index. -/
instance subsingleton_S_ : Subsingleton S_.Idx := ⟨fun a b => funext fun d => d.elim0⟩

/-- The word 0x7F800000 denotes +∞. -/
theorem inf_eq_top : Ideal.ofBits .f32 0x7F800000#32 = (⊤ : EReal) := by simp [Ideal.ofBits, Ideal.ieee]

/-- An extended real whose absolute value is below ⊤ is a real number. -/
theorem isReal_of_abs_lt_top (x : EReal) (h : max x (-x) < ⊤) : IsReal x := by
  induction x using EReal.rec with
  | bot => simp at h
  | coe r => exact ⟨r, rfl⟩
  | top => simp at h

/-- One comparison bit "|x| < +∞" that is 1 says x is a real number. -/
theorem isReal_of_cmp (x : EReal)
    (h : Ideal.cmp .olt (max x (-x)) (Ideal.ofBits .f32 0x7F800000#32) = 1#1) : IsReal x := by
  rw [inf_eq_top] at h
  apply isReal_of_abs_lt_top
  by_contra hn
  simp [Ideal.cmp, hn] at h

/-- `all(|x| < +∞) = 1` over an array of any shape: every entry is a real number. -/
theorem all_real {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, IsReal (x i) := fun i =>
  isReal_of_cmp (x i) (Host.reduce_andi_all _ _ hr hu ValueIdx.ix0 e i)

/-- The precondition's eleven facts: every entry of every floating-point input is a real number. -/
theorem inputs_real [Cert.Pre_finite_inputs.Facts]
    (a0 : FVec Ideal S100000x128 .f32) (a1 : IVec S2x1600000 32) (a2 : FVec Ideal S128x128 .f32)
    (a3 a4 a5 : FVec Ideal S128 .f32) (a6 : FVec Ideal S128x128 .f32) (a7 a8 a9 : FVec Ideal S128 .f32)
    (a10 : FVec Ideal S128x1 .f32) (a11 : FVec Ideal S1 .f32)
    (h : Cert.Pre_finite_inputs.fn (F := Ideal) a0 a1 a2 a3 a4 a5 a6 a7 a8 a9 a10 a11 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i))
      ∧ (∀ i, IsReal (a9 i)) ∧ (∀ i, IsReal (a10 i)) ∧ (∀ i, IsReal (a11 i)) := by
  have e := congrFun h ValueIdx.ix0
  dsimp only [fn, fn_part1, fn_part2, fn_part3] at e
  simp only [andi, IntOp.andi_eq_one] at e
  obtain ⟨⟨⟨⟨⟨⟨⟨⟨⟨⟨e0, e2⟩, e3⟩, e4⟩, e5⟩, e6⟩, e7⟩, e8⟩, e9⟩, e10⟩, e11⟩ := e
  exact ⟨all_real _ _ _ a0 e0, all_real _ _ _ a2 e2, all_real _ _ _ a3 e3, all_real _ _ _ a4 e4,
    all_real _ _ _ a5 e5, all_real _ _ _ a6 e6, all_real _ _ _ a7 e7, all_real _ _ _ a8 e8,
    all_real _ _ _ a9 e9, all_real _ _ _ a10 e10, all_real _ _ _ a11 e11⟩

end Cert.GcnPre

end
-- ==== Proof.Chain.lean ====
/-
  The final chain: the idealized kernel program's result, known as the head of two normalising layers over the
  aggregated matrix products at the edge lists and edge weights its first stretches compute, is the reference
  program's result on the same arguments. Each link is one equation between whole arrays: the edge lists and weights
  are the reference's; an aggregation of the kernel program is the reference's accumulating scatter; the layer in its
  mean-of-squares form is the layer in its squared-deviations form on arrays of real numbers, which the reference's
  stages compute; and every intermediate array is real because the arguments are and the edge weights always are.
-/
import proofs.«143779_j10514079941365_1_alg».proof.Proof.GlueEq
import proofs.«143779_j10514079941365_1_alg».proof.Proof.GlueEq2
import proofs.«143779_j10514079941365_1_alg».proof.Proof.Bridge
import proofs.«143779_j10514079941365_1_alg».proof.Proof.PreFacts
import proofs.«143779_j10514079941365_1_alg».proof.Proof.Layer

set_option maxRecDepth 16384

noncomputable section

namespace Cert.GcnChain

open Idealize.ShloMosaic Idealize.ShloMosaic.TcCoe Idealize.SL.Sem Idealize.ShloMosaic.StableHlo
open Cert.GcnSpec Cert.GcnGlue Cert.GcnBridge

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The kernel program's result, once it is known to be the head of two layers (in the mean-of-squares form of the
    variance) over the aggregation at the edge lists and weights its first stretches compute, is the reference's
    result on the same arguments, provided every floating-point argument is an array of real numbers. -/
theorem result_eq
    (hK : Cert.KernelIdeal.Gen.W15 m ρ c (Proc.devRef .tc Cert.KernelIdeal.main_v89)
        = head (layerSq (Cert.KernelIdeal.KG.agg (F := Ideal) (Cert.KernelIdeal.Gen.W3 m ρ c (Proc.devRef .tc Cert.KernelIdeal.main_v3)) (Cert.KernelIdeal.Gen.W3 m ρ c (Proc.devRef .tc Cert.KernelIdeal.main_v6)) (Cert.KernelIdeal.Gen.W3 m ρ c (Proc.devRef .tc Cert.KernelIdeal.main_v29)) (mm (layerSq (Cert.KernelIdeal.KG.agg (F := Ideal) (Cert.KernelIdeal.Gen.W3 m ρ c (Proc.devRef .tc Cert.KernelIdeal.main_v3)) (Cert.KernelIdeal.Gen.W3 m ρ c (Proc.devRef .tc Cert.KernelIdeal.main_v6)) (Cert.KernelIdeal.Gen.W3 m ρ c (Proc.devRef .tc Cert.KernelIdeal.main_v29)) (mm (m ((c : Thread Cert.KernelIdeal.nD Cert.KernelIdeal.τ).loc Cert.KernelIdeal.main_arg0)) (m ((c : Thread Cert.KernelIdeal.nD Cert.KernelIdeal.τ).loc Cert.KernelIdeal.main_arg2)))) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))) (m ((c : Thread Cert.KernelIdeal.nD Cert.KernelIdeal.τ).loc Cert.KernelIdeal.main_arg6)))) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))) (m ((c : Thread Cert.KernelIdeal.nD Cert.KernelIdeal.τ).loc Cert.KernelIdeal.main_arg10)) (m ((c : Thread Cert.KernelIdeal.nD Cert.KernelIdeal.τ).loc Cert.KernelIdeal.main_arg11)))
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) = fun _ => 1#1) :
    Cert.KernelIdeal.Gen.W15 m ρ c (Proc.devRef .tc Cert.KernelIdeal.main_v89)
      = Cert.ReferenceIdeal.Read.val_main_v156 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  obtain ⟨r0, r2, r3, r4, r5, r6, r7, r8, r9, r10, r11⟩ := Cert.GcnPre.inputs_real (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) hpre
  -- the first aggregated product
  have e1 : Cert.KernelIdeal.KG.agg (F := Ideal) (Cert.ReferenceIdeal.Read.val_main_v4 (F := Ideal) (m ((c : Thread Cert.KernelIdeal.nD Cert.KernelIdeal.τ).loc Cert.KernelIdeal.main_arg1))) (Cert.ReferenceIdeal.Read.val_main_v7 (F := Ideal) (m ((c : Thread Cert.KernelIdeal.nD Cert.KernelIdeal.τ).loc Cert.KernelIdeal.main_arg1))) (Cert.ReferenceIdeal.Read.val_main_v30 (F := Ideal) (m ((c : Thread Cert.KernelIdeal.nD Cert.KernelIdeal.τ).loc Cert.KernelIdeal.main_arg1))) (mm (m ((c : Thread Cert.KernelIdeal.nD Cert.KernelIdeal.τ).loc Cert.KernelIdeal.main_arg0)) (m ((c : Thread Cert.KernelIdeal.nD Cert.KernelIdeal.τ).loc Cert.KernelIdeal.main_arg2)))
      = Cert.ReferenceIdeal.Read.val_main_v43 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) := by
    rw [agg1_eq, ref_v0]
  have h43 : IsRealV (Cert.ReferenceIdeal.Read.val_main_v43 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))) := by
    rw [← e1]; exact agg_real _ _ _ _ (norm_real _) (mm_real _ _ r0 r2)
  -- the first layer and the second product
  have e2 : layerSq (Cert.ReferenceIdeal.Read.val_main_v43 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))
      = Cert.ReferenceIdeal.Read.val_main_v72 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) :=
    (layer_sq_eq_dev _ _ _ _ h43 r3).trans (ref_v72 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))).symm
  have h72 : IsRealV (Cert.ReferenceIdeal.Read.val_main_v72 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))) := by
    rw [ref_v72]; exact layerDev_real _ _ _ _ h43 r3 r4 r5
  have e3 : mm (Cert.ReferenceIdeal.Read.val_main_v72 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))) (m ((c : Thread Cert.KernelIdeal.nD Cert.KernelIdeal.τ).loc Cert.KernelIdeal.main_arg6)) = Cert.ReferenceIdeal.Read.val_main_v73 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) :=
    (ref_v73 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))).symm
  have h73 : IsRealV (Cert.ReferenceIdeal.Read.val_main_v73 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))) := by
    rw [← e3]; exact mm_real _ _ h72 r6
  -- the second aggregated product, layer and the head
  have e4 : Cert.KernelIdeal.KG.agg (F := Ideal) (Cert.ReferenceIdeal.Read.val_main_v4 (F := Ideal) (m ((c : Thread Cert.KernelIdeal.nD Cert.KernelIdeal.τ).loc Cert.KernelIdeal.main_arg1))) (Cert.ReferenceIdeal.Read.val_main_v7 (F := Ideal) (m ((c : Thread Cert.KernelIdeal.nD Cert.KernelIdeal.τ).loc Cert.KernelIdeal.main_arg1))) (Cert.ReferenceIdeal.Read.val_main_v30 (F := Ideal) (m ((c : Thread Cert.KernelIdeal.nD Cert.KernelIdeal.τ).loc Cert.KernelIdeal.main_arg1))) (Cert.ReferenceIdeal.Read.val_main_v73 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)))
      = Cert.ReferenceIdeal.Read.val_main_v116 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := (agg2_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))).symm
  have h116 : IsRealV (Cert.ReferenceIdeal.Read.val_main_v116 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))) := by
    rw [← e4]; exact agg_real _ _ _ _ (norm_real _) h73
  have e5 : layerSq (Cert.ReferenceIdeal.Read.val_main_v116 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6))) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))
      = Cert.ReferenceIdeal.Read.val_main_v145 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) :=
    (layer_sq_eq_dev _ _ _ _ h116 r7).trans (ref_v145 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))).symm
  have e6 : head (Cert.ReferenceIdeal.Read.val_main_v145 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))) (m ((c : Thread Cert.KernelIdeal.nD Cert.KernelIdeal.τ).loc Cert.KernelIdeal.main_arg10)) (m ((c : Thread Cert.KernelIdeal.nD Cert.KernelIdeal.τ).loc Cert.KernelIdeal.main_arg11)) = Cert.ReferenceIdeal.Read.val_main_v156 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) :=
    (ref_v156 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))).symm
  rw [hK, W3_src, W3_dst, W3_norm, e1, e2, e3, e4, e5, e6]

end Cert.GcnChain

end
-- ==== Proof.lean ====
/-
  A two-layer graph convolution network on 100000 nodes and 1.6 million edges, as seven kernel launches among host
  operations, against its jnp reference — equal results over the extended reals for finite float inputs and ANY
  integer edge list.

  Both programs compute, by the same host operations, the edge lists with self-loops, the node degrees and the
  symmetric edge weights; per layer, the product of the rows with the weight matrix, its aggregation over the edges
  (gather the rows at the sources, scale by the edge weights, scatter-add into the destinations), the bias, batch
  normalisation of each of the 128 columns over the 100000 rows, scale, shift and clamp; and at the end a product
  with one column, a bias, a clamp and the logistic function.

  What differs, and why it does not matter at the exact instance:
  * the kernels' matrix products round their operands to bf16 and work on blocks of 5000 rows; exactly, a rounding is
    the identity and every block is a restriction of the one whole product;
  * the kernel sums each column and its squares block by block into a resident accumulator; exactly, the twenty
    block sums regroup into the one sum over the rows (addition of extended reals is commutative and associative);
  * the kernel takes the variance as the mean of the squares minus the square of the mean, the reference as the mean
    of the squared deviations. These agree for real numbers and NOT for infinities, so the proof carries "every entry
    is a real number" from the finite inputs through the products, the aggregation (a gather reads entries of its
    operand and a scatter-add adds finitely many of them, whatever the indices are; the edge weights are reciprocal
    square roots of positive degrees or zero), the first layer's normalisation (its variance is nonnegative and the
    epsilon positive, so the reciprocal square root is real) and the second product;
  * the kernel's logistic function is the reference's 1 / (1 + exp(-z)) by definition.

  The idealized kernel's run is the generated frame run with the result array kept in the post; the arrays between the
  launches are read through the host operations; the reference's run is its generated run (in a repaired copy). The
  ideal pass rewrote nothing, so the kernel's idealization is its own text read exactly.
-/
import proofs.«143779_j10514079941365_1_alg».proof.Defs
import proofs.«143779_j10514079941365_1_alg».proof.Proof.Gen.Kernel
import proofs.«143779_j10514079941365_1_alg».proof.Proof.Gen.Kernel.Frame
import proofs.«143779_j10514079941365_1_alg».proof.Proof.Gen.KernelIdeal
import proofs.«143779_j10514079941365_1_alg».proof.Proof.Gen.KernelIdeal.Frame
import proofs.«143779_j10514079941365_1_alg».proof.Proof.Gen.ReferenceIdeal
import proofs.«143779_j10514079941365_1_alg».proof.Proof.Gen.Pre_finite_inputs
import proofs.«143779_j10514079941365_1_alg».proof.Proof.KRun
import proofs.«143779_j10514079941365_1_alg».proof.Proof.KVal
import proofs.«143779_j10514079941365_1_alg».proof.Proof.Chain
import proofs.«143779_j10514079941365_1_alg».proof.Proof.RunP
import proofs.«143779_j10514079941365_1_alg».proof.Proof.ReadP
import Idealize.ShloMosaic.Adequacy
import Idealize.ShloMosaic.Init

noncomputable section

namespace Cert.Proof

open Idealize.ShloMosaic Idealize.ShloMosaic.TcCoe Idealize.SL.Sem

/-- The three programs run to the end without a fault and leave their arguments alone: the two kernels by their
    generated frame certificates, the reference by its run with the result forgotten. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, with finite float inputs, both idealized programs end with the
    reference's result function of the arguments in their result arrays. -/
theorem algebraic : Cert.algebraic_KernelIdeal_ReferenceIdeal := by
  intro m ρ m' ρ' hpre hagree
  refine ⟨fun c => Cert.ReferenceIdeal.Read.val_main_v156 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.GcnChain.result_eq m ρ c (Cert.KernelIdeal.KVal.kernel_value m ρ c) (hpre c)), (h c).2⟩)
      (Cert.KernelIdeal.RunV.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v156_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
